-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x1 : Shape := ⟨2, ![131072, 1]⟩
abbrev S256x128 : Shape := ⟨2, ![256, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S131072x128 .f32) (main_arg1 : FVec F S131072x128 .f32) (main_arg2 : FVec F S131072x1 .f32) (main_arg3 : FVec F S256x128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x1 .f32 := Host.absf main_arg2
  let main_cst_2 : FVec F S_ .f32 := constant S_ .f32 0x7F800000#32
  let main_v10 : FVec F S131072x1 .f32 := broadcastInDim S131072x1 ![] bcast_S_S131072x1 main_cst_2
  let main_v11 : IVec S131072x1 1 := cmpf .olt main_v9 main_v10
  let main_c_3 : IVec S_ 1 := constantI S_ 1 1#1
  let main_v12 : IVec S_ 1 := (fun x v => Host.reduce IntOp.andi x v reducesTo_S131072x1_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S131072x128 : Shape := ⟨2, ![131072, 128]⟩
abbrev S131072x1 : Shape := ⟨2, ![131072, 1]⟩
abbrev S256x128 : Shape := ⟨2, ![256, 128]⟩
abbrev S128x128 : Shape := ⟨2, ![128, 128]⟩
abbrev S128 : Shape := ⟨1, ![128]⟩
abbrev S4096x128 : Shape := ⟨2, ![4096, 128]⟩
abbrev S8x128 : Shape := ⟨2, ![8, 128]⟩
abbrev S1x128 : Shape := ⟨2, ![1, 128]⟩
abbrev S_ : Shape := ⟨0, ![]⟩
abbrev S128x512 : Shape := ⟨2, ![128, 512]⟩
abbrev S512 : Shape := ⟨1, ![512]⟩
abbrev S1x512 : Shape := ⟨2, ![1, 512]⟩
abbrev S2048x128 : Shape := ⟨2, ![2048, 128]⟩
abbrev S2048x1 : Shape := ⟨2, ![2048, 1]⟩
abbrev S2048x512 : Shape := ⟨2, ![2048, 512]⟩

abbrev nBuf : Space → Nat
  | .hbm => 46
  | .vmem => 24
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x1, .f32⟩
  | .hbm, ⟨3, _⟩ => ⟨S256x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S131072x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S128x512, .f32⟩
  | .hbm, ⟨43, _⟩ => ⟨S512, .f32⟩
  | .hbm, ⟨44, _⟩ => ⟨S1x512, .f32⟩
  | .hbm, ⟨45, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128x128, .f32⟩
  | .local _ .vmem, ⟨6, _⟩ => ⟨S4096x128, .f32⟩
  | .local _ .vmem, ⟨7, _⟩ => ⟨S4096x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S2048x128, .f32⟩
  | .local _ .vmem, ⟨13, _⟩ => ⟨S2048x128, .f32⟩
  | .local _ .vmem, ⟨14, _⟩ => ⟨S2048x1, .f32⟩
  | .local _ .vmem, ⟨15, _⟩ => ⟨S2048x1, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x512, .f32⟩
  | .local _ .vmem, ⟨21, _⟩ => ⟨S1x512, .f32⟩
  | .local _ .vmem, ⟨22, _⟩ => ⟨S2048x128, .f32⟩
  | .local _ .vmem, ⟨23, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S256x128_S128x128_0_0 : S256x128.Slices ![0, 0] S128x128
  slices_S256x128_S128x128_128_0 : S256x128.Slices ![128, 0] S128x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4096x128_S128 : S4096x128.Reduces [0] S128
  shapeCasts_S128_S1x128 : S128.ShapeCasts S1x128
  iota_S8x128_d0_w32 : S8x128.Iotas .tc 32 [0]
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S256x128_S128_d0 : S256x128.ReducesTo [0] S128
  h_S_ : 0 < S_.numel
  bcast_S_S128 : S_.BroadcastsInDim S128 (![] : Fin 0 → Fin S128.rank)
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  broadcasts_S1x128_S2048x128 : S1x128.Broadcasts S2048x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  inb_S2048x1_S2048x1_0_0 : ∀ a, (![0, 0] : Fin 2 → Nat) a + S2048x1.size a ≤ S2048x1.size a
  h_S2048x1 : 0 < S2048x1.numel
  broadcasts_S2048x1_S2048x128 : S2048x1.Broadcasts S2048x128
  dot_S128x128_S128x128_S128x128_1_0_0_1_n_n_wf : DotDims.WF S128x128 S128x128 S128x128 [1] [0] [0] [1] [] []
  dot_S4096x128_S128x128_S4096x128_1_0_0_1_n_n_wf : DotDims.WF S4096x128 S128x128 S4096x128 [1] [0] [0] [1] [] []
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S256x128.size a
  hwx0_5 : ∀ i : grid0.Coords, EltTy.bits .f32 = 32 ∨ (Rect.block (s := S256x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S256x128.size a
  hwx0_6 : ∀ i : grid0.Coords, EltTy.bits .f32 = 32 ∨ (Rect.block (s := S256x128) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S131072x128.size a
  hwx1_0 : ∀ i : grid1.Coords, EltTy.bits .f32 = 32 ∨ (Rect.block (s := S131072x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S131072x1.size a
  hwx1_1 : ∀ i : grid1.Coords, EltTy.bits .f32 = 32 ∨ (Rect.block (s := S131072x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S128x512.size a
  hwx1_6 : ∀ i : grid1.Coords, EltTy.bits .f32 = 32 ∨ (Rect.block (s := S128x512) S128x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x128.size a ≤ S131072x128.size a
  hwx1_8 : ∀ i : grid1.Coords, EltTy.bits .f32 = 32 ∨ (Rect.block (s := S131072x128) S2048x128.size (cc1_transform_8 i) (hinb1_8 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S128x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S2048x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S131072x128 : Shape := ⟨2, ![131072, 128]⟩
abbrev S131072x1 : Shape := ⟨2, ![131072, 1]⟩
abbrev S256x128 : Shape := ⟨2, ![256, 128]⟩
abbrev S128x128 : Shape := ⟨2, ![128, 128]⟩
abbrev S128 : Shape := ⟨1, ![128]⟩
abbrev S131072x256 : Shape := ⟨2, ![131072, 256]⟩
abbrev S_ : Shape := ⟨0, ![]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x1, .f32⟩
  | .hbm, ⟨3, _⟩ => ⟨S256x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S131072x256, .f32⟩
  | .hbm, ⟨16, _⟩ => ⟨S131072x128, .f32⟩
  | .hbm, ⟨17, _⟩ => ⟨S131072x128, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S131072x128, .f32⟩
  | .hbm, ⟨34, _⟩ => ⟨S131072x128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S131072x128, .f32⟩
  | .hbm, ⟨41, _⟩ => ⟨S131072x128, .f32⟩
  | .hbm, ⟨42, _⟩ => ⟨S1x128, .f32⟩
  | .hbm, ⟨43, _⟩ => ⟨S131072x128, .f32⟩
  | .hbm, ⟨44, _⟩ => ⟨S131072x128, .f32⟩
  | .hbm, ⟨45, _⟩ => ⟨S1x128, .f32⟩
  | .hbm, ⟨46, _⟩ => ⟨S131072x128, .f32⟩
  | .hbm, ⟨47, _⟩ => ⟨S131072x128, .f32⟩
  | .hbm, ⟨48, _⟩ => ⟨S_, .f32⟩
  | .hbm, ⟨49, _⟩ => ⟨S131072x128, .f32⟩
  | .hbm, ⟨50, _⟩ => ⟨S131072x128, .i1⟩
  | .hbm, ⟨51, _⟩ => ⟨S_, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S1x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S131072x128, .f32⟩
  | .hbm, ⟨61, _⟩ => ⟨S1x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S1x128, .f32⟩
  | .hbm, ⟨66, _⟩ => ⟨S131072x128, .f32⟩
  | .hbm, ⟨67, _⟩ => ⟨S131072x128, .f32⟩
  | .hbm, ⟨68, _⟩ => ⟨S131072x128, .f32⟩
  | .hbm, ⟨69, _⟩ => ⟨S131072x128, .f32⟩
  | .hbm, ⟨70, _⟩ => ⟨S1x128, .f32⟩
  | .hbm, ⟨71, _⟩ => ⟨S131072x128, .f32⟩
  | .hbm, ⟨72, _⟩ => ⟨S131072x128, .f32⟩
  | .hbm, ⟨73, _⟩ => ⟨S131072x128, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S131072x128, .f32⟩
  | .hbm, ⟨78, _⟩ => ⟨S_, .f32⟩
  | .hbm, ⟨79, _⟩ => ⟨S131072x128, .f32⟩
  | .hbm, ⟨80, _⟩ => ⟨S131072x128, .f32⟩
  | .hbm, ⟨81, _⟩ => ⟨S_, .f32⟩
  | .hbm, ⟨82, _⟩ => ⟨S131072x128, .f32⟩
  | .hbm, ⟨83, _⟩ => ⟨S131072x128, .f32⟩
  | .hbm, ⟨84, _⟩ => ⟨S_, .f32⟩
  | .hbm, ⟨85, _⟩ => ⟨S131072x128, .f32⟩
  | .hbm, ⟨86, _⟩ => ⟨S131072x128, .f32⟩
  | .hbm, ⟨87, _⟩ => ⟨S131072x128, .f32⟩
  | .hbm, ⟨88, _⟩ => ⟨S131072x128, .f32⟩
  | .hbm, ⟨89, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  reducesTo_S131072x128_S128_d0 : S131072x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  dot_S131072x256_S256x128_S131072x128_1_0_0_1_n_n_wf : DotDims.WF S131072x256 S256x128 S131072x128 [1] [0] [0] [1] [] []
  dot_S131072x128_S128x128_S131072x128_1_0_0_1_n_n_wf : DotDims.WF S131072x128 S128x128 S131072x128 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.KRegion0.lean ====
/- The first pallas_call (the backbone: two matrix products, their sum, and the block's column sums) as a
   pipeline region entered from any buffer contents V: what each output window's staging buffer holds after the body
   at a grid point, as a function of the input windows' blocks there; the body's Hoare triple; and the per-point
   obligation the pipeline's launch theorem asks for.  Stated at any float instance. -/
import proofs.«126462_j38199439131313_2_alg».proof.Proof.Gen.Kernel.Launch
import proofs.«126462_j38199439131313_2_alg».proof.Proof.Gen.Kernel.Skeleton
import proofs.«126462_j38199439131313_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there: where it
    was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there: where it
    was not, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there: where it
    was not, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there: where it
    was not, the block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each the whole of its buffer -/

abbrev rBig0 : Rect S4096x128 := Rect.unit (s := S4096x128) ![0, 0] S4096x128.size inb_S4096x128_S4096x128_0_0
abbrev rW0 : Rect S128x128 := Rect.unit (s := S128x128) ![0, 0] S128x128.size inb_S128x128_S128x128_0_0
abbrev rS0 : Rect S8x128 := Rect.unit (s := S8x128) ![0, 0] S8x128.size inb_S8x128_S8x128_0_0

/-! ## What the body leaves in each output window's buffer -/

/-- Window 4's buffer after the body: the block of pre-activations, one store over the whole buffer. -/
def out0_4 (x0 x1 : Vec F S4096x128 .f32) (x2 x3 : Vec F S128x128 .f32) : Vec F S4096x128 .f32 :=
  View.canon [⟨rBig0, k0_pay1 (View.ld x0 rBig0) (View.ld x1 rBig0) (View.ld x2 rW0) (View.ld x3 rW0)⟩]
/-- Window 5's buffer after the body: the block's column sums in the first of eight rows. -/
def out0_5 (x0 x1 : Vec F S4096x128 .f32) (x2 x3 : Vec F S128x128 .f32) : Vec F S8x128 .f32 :=
  View.canon [⟨rS0, k0_pay3 (View.ld x0 rBig0) (View.ld x1 rBig0) (View.ld x2 rW0) (View.ld x3 rW0)⟩]
/-- Window 6's buffer after the body: the block's column sums of squares in the first of eight rows. -/
def out0_6 (x0 x1 : Vec F S4096x128 .f32) (x2 x3 : Vec F S128x128 .f32) : Vec F S8x128 .f32 :=
  View.canon [⟨rS0, k0_pay4 (View.ld x0 rBig0) (View.ld x1 rBig0) (View.ld x2 rW0) (View.ld x3 rW0)⟩]
/-- Each store is over its whole buffer, so it covers it. -/
theorem cover0_4 (p0 : Vec F S4096x128 .f32) (y : S4096x128.Idx) :
    ∃ pc ∈ ([⟨rBig0, p0⟩] : List (View.Piece (Elt F) S4096x128 .f32)), y ∈ pc.1.set :=
  View.cover_of_tiled [⟨rBig0, p0⟩] S4096x128.size (by rfl) y
theorem cover0_5 (p0 : Vec F S8x128 .f32) (y : S8x128.Idx) :
    ∃ pc ∈ ([⟨rS0, p0⟩] : List (View.Piece (Elt F) S8x128 .f32)), y ∈ pc.1.set :=
  View.cover_of_tiled [⟨rS0, p0⟩] S8x128.size (by rfl) y

/-! ## The body's triple -/

set_option maxHeartbeats 4000000 in
/-- The body on whole staging buffers, the four inputs' at known contents and the three outputs' at anything, runs to
    its end leaving the inputs as they were and each output at its function of the inputs. -/
theorem sound_kernel0 (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S4096x128 .f32) (harg5 : arg5.IsWhole) (arg6 : Memref sig .tc .vmem S8x128 .f32) (harg6 : arg6.IsWhole)
    (arg7 : Memref sig .tc .vmem S8x128 .f32) (harg7 : arg7.IsWhole)
    (x0 x1 : Vec F S4096x128 .f32) (x2 x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E (cc0__backbone_kernel i arg1 harg1 arg2 harg2 arg3 harg3 arg4 harg4 arg5 harg5 arg6 harg6 arg7 harg7) K := by
  simp only [cc0__backbone_kernel_eq_skeleton]; unfold cc0__backbone_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_4 _)
  isplitl [H5]
  · iexists _; isplitr
    swap; · iexact H5
    ipureintro
    try dsimp only
    exact View.read_writes_eq_canon _ _ _ (cover0_5 _)
  iexists _; isplitr
  swap; · iexact H6
  ipureintro
  try dsimp only
  exact View.read_writes_eq_canon _ _ _ (cover0_5 _)

/-! ## The pipeline's proof data -/

/-- The arrays as the region finds them; after the body at a point each input's buffer still at its block and each
    output's at its function of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frm

end
-- ==== Proof.KRegion1.lean ====
/- The second pallas_call (normalise, rectify, one fused head product, the gate) as a pipeline region entered from
   any buffer contents V: what the output window's staging buffer holds after the body at a grid point as a function of
   the eight input windows' blocks there; the body's Hoare triple; and the per-point obligation the pipeline's launch
   theorem asks for.  Stated at any float instance. -/
import proofs.«126462_j38199439131313_2_alg».proof.Proof.Gen.Kernel.Launch
import proofs.«126462_j38199439131313_2_alg».proof.Proof.Gen.Kernel.Skeleton
import proofs.«126462_j38199439131313_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there: where it
    was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not it was fetched there: where it
    was not, the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not it was fetched there: where it
    was not, the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether or not it was fetched there: where it
    was not, the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether or not it was fetched there: where it
    was not, the block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether or not it was fetched there: where it
    was not, the block index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether or not it was fetched there: where it
    was not, the block index has not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, whether or not it was fetched there: where it
    was not, the block index has not moved since the point before. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through: each the whole of its buffer -/

abbrev rZ1 : Rect S2048x128 := Rect.unit (s := S2048x128) ![0, 0] S2048x128.size inb_S2048x128_S2048x128_0_0
abbrev rT1 : Rect S2048x1 := Rect.unit (s := S2048x1) ![0, 0] S2048x1.size inb_S2048x1_S2048x1_0_0
abbrev rR1 : Rect S1x128 := Rect.unit (s := S1x128) ![0, 0] S1x128.size inb_S1x128_S1x128_0_0
abbrev rWh1 : Rect S128x512 := Rect.unit (s := S128x512) ![0, 0] S128x512.size inb_S128x512_S128x512_0_0
abbrev rBh1 : Rect S1x512 := Rect.unit (s := S1x512) ![0, 0] S1x512.size inb_S1x512_S1x512_0_0

/-! ## What the body leaves in each output window's buffer -/

/-- Window 8's buffer after the body: the gated output block, one store over the whole buffer. -/
def out1_8 (x0 : Vec F S2048x128 .f32) (x1 : Vec F S2048x1 .f32) (x2 x3 x4 x5 : Vec F S1x128 .f32) (x6 : Vec F S128x512 .f32) (x7 : Vec F S1x512 .f32) : Vec F S2048x128 .f32 :=
  View.canon [⟨rZ1, k1_pay1 (k1_pay3 (View.ld x0 rZ1) (View.ld x2 rR1) (View.ld x3 rR1) (View.ld x4 rR1) (View.ld x5 rR1) (View.ld x6 rWh1) (View.ld x7 rBh1)) (k1_pay4 (View.ld x0 rZ1) (View.ld x2 rR1) (View.ld x3 rR1) (View.ld x4 rR1) (View.ld x5 rR1) (View.ld x6 rWh1) (View.ld x7 rBh1)) (View.ld x1 rT1) (k1_pay5 (View.ld x0 rZ1) (View.ld x2 rR1) (View.ld x3 rR1) (View.ld x4 rR1) (View.ld x5 rR1) (View.ld x6 rWh1) (View.ld x7 rBh1))⟩]
/-- The store is over the whole buffer, so it covers it. -/
theorem cover1_8 (p0 : Vec F S2048x128 .f32) (y : S2048x128.Idx) :
    ∃ pc ∈ ([⟨rZ1, p0⟩] : List (View.Piece (Elt F) S2048x128 .f32)), y ∈ pc.1.set :=
  View.cover_of_tiled [⟨rZ1, p0⟩] S2048x128.size (by rfl) y

/-! ## The body's triple -/

set_option maxHeartbeats 4000000 in
/-- The body on whole staging buffers, the eight inputs' at known contents and the output's at anything, runs to its
    end leaving the inputs as they were and the output at its function of the inputs. -/
theorem sound_kernel1 (c : Dev nD) (E : Set ℕ) (i : grid1.Coords)
    (arg1 : Memref sig .tc .vmem S2048x128 .f32) (harg1 : arg1.IsWhole) (arg2 : Memref sig .tc .vmem S2048x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x512 .f32) (harg7 : arg7.IsWhole) (arg8 : Memref sig .tc .vmem S1x512 .f32) (harg8 : arg8.IsWhole)
    (arg9 : Memref sig .tc .vmem S2048x128 .f32) (harg9 : arg9.IsWhole)
    (x0 : Vec F S2048x128 .f32) (x1 : Vec F S2048x1 .f32) (x2 x3 x4 x5 : Vec F S1x128 .f32) (x6 : Vec F S128x512 .f32) (x7 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8 arg9 harg9) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The arrays as the region finds them; after the body at a point each input's buffer still at its block and the
    output's at its function of the input blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Frm

end
-- ==== Proof.KRun.lean ====
/- The whole program as a chain of four segments — host operations, the first pallas_call, host operations, the
   second pallas_call — each entered from the buffer contents the one before it leaves: the contents at the five
   boundaries as a fold from the launch memory, the two pallas_calls as segments over the thread state "every unscoped
   buffer at the boundary's contents, the generator register at some state, nothing owed", and the launch.  Every
   weakly fair execution terminates with every unscoped buffer at the last boundary's contents; from that, each argument
   array is as launched (nothing writes one) and the result array is what the second pipeline's write-backs leave.
   Stated at any float instance. -/
import proofs.«126462_j38199439131313_2_alg».proof.Proof.Gen.Kernel.Launch
import proofs.«126462_j38199439131313_2_alg».proof.Proof.Gen.Kernel.Skeleton
import proofs.«126462_j38199439131313_2_alg».proof.Proof.Gen.Kernel.Points
import proofs.«126462_j38199439131313_2_alg».proof.Proof.Gen.Kernel.Regions
import proofs.«126462_j38199439131313_2_alg».proof.Proof.KRegion0
import proofs.«126462_j38199439131313_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Wb0 : Dev nD → Valuation τ sig (Elt F) := fun c b => (s₀ m ρ).mem ((c : Dev nD), b)
/-- After the first stretch of host operations (the first pallas_call's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At the first pallas_call's exit: its arrays at what the pipeline leaves, every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After the second stretch of host operations (the second pallas_call's entry). -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b
/-- At the second pallas_call's exit. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-! ### The arguments end as launched: no host operation and no pallas_call writes one -/

theorem Wb4_main_arg0 (c : Dev nD) : Wb4 m ρ c (Proc.devRef .tc main_arg0) = m ((c : Thread nD τ).loc main_arg0) :=
  calc Wb4 m ρ c (Proc.devRef .tc main_arg0)
    _ = Wb3 m ρ c (Proc.devRef .tc main_arg0) := Wb4_of_ne m ρ c main_arg0 (by decide)
    _ = Wb2 m ρ c (Proc.devRef .tc main_arg0) := StableHlo.after_of_writes_sub hostOps1 _ hostOps1_writes (by decide)
    _ = Wb1 m ρ c (Proc.devRef .tc main_arg0) := (Wb2_arr m ρ c 0).trans (((dat0 (Vb1 m ρ) c).arrAt_in 0 rfl _).trans (A_eq0 (Vb1 m ρ) c 0))
    _ = Wb0 m ρ c (Proc.devRef .tc main_arg0) := StableHlo.after_of_writes_sub hostOps0 _ hostOps0_writes (by decide)
    _ = m ((c : Thread nD τ).loc main_arg0) := rfl
theorem Wb4_main_arg1 (c : Dev nD) : Wb4 m ρ c (Proc.devRef .tc main_arg1) = m ((c : Thread nD τ).loc main_arg1) :=
  calc Wb4 m ρ c (Proc.devRef .tc main_arg1)
    _ = Wb3 m ρ c (Proc.devRef .tc main_arg1) := Wb4_of_ne m ρ c main_arg1 (by decide)
    _ = Wb2 m ρ c (Proc.devRef .tc main_arg1) := StableHlo.after_of_writes_sub hostOps1 _ hostOps1_writes (by decide)
    _ = Wb1 m ρ c (Proc.devRef .tc main_arg1) := (Wb2_arr m ρ c 1).trans (((dat0 (Vb1 m ρ) c).arrAt_in 1 rfl _).trans (A_eq0 (Vb1 m ρ) c 1))
    _ = Wb0 m ρ c (Proc.devRef .tc main_arg1) := StableHlo.after_of_writes_sub hostOps0 _ hostOps0_writes (by decide)
    _ = m ((c : Thread nD τ).loc main_arg1) := rfl
theorem Wb4_main_arg2 (c : Dev nD) : Wb4 m ρ c (Proc.devRef .tc main_arg2) = m ((c : Thread nD τ).loc main_arg2) :=
  calc Wb4 m ρ c (Proc.devRef .tc main_arg2)
    _ = Wb3 m ρ c (Proc.devRef .tc main_arg2) := (Wb4_arr m ρ c 1).trans (((dat1 (Vb3 m ρ) c).arrAt_in 1 rfl _).trans (A_eq1 (Vb3 m ρ) c 1))
    _ = Wb2 m ρ c (Proc.devRef .tc main_arg2) := StableHlo.after_of_writes_sub hostOps1 _ hostOps1_writes (by decide)
    _ = Wb1 m ρ c (Proc.devRef .tc main_arg2) := Wb2_of_ne m ρ c main_arg2 (by decide)
    _ = Wb0 m ρ c (Proc.devRef .tc main_arg2) := StableHlo.after_of_writes_sub hostOps0 _ hostOps0_writes (by decide)
    _ = m ((c : Thread nD τ).loc main_arg2) := rfl
theorem Wb4_main_arg3 (c : Dev nD) : Wb4 m ρ c (Proc.devRef .tc main_arg3) = m ((c : Thread nD τ).loc main_arg3) :=
  calc Wb4 m ρ c (Proc.devRef .tc main_arg3)
    _ = Wb3 m ρ c (Proc.devRef .tc main_arg3) := Wb4_of_ne m ρ c main_arg3 (by decide)
    _ = Wb2 m ρ c (Proc.devRef .tc main_arg3) := StableHlo.after_of_writes_sub hostOps1 _ hostOps1_writes (by decide)
    _ = Wb1 m ρ c (Proc.devRef .tc main_arg3) := Wb2_of_ne m ρ c main_arg3 (by decide)
    _ = Wb0 m ρ c (Proc.devRef .tc main_arg3) := StableHlo.after_of_writes_sub hostOps0 _ hostOps0_writes (by decide)
    _ = m ((c : Thread nD τ).loc main_arg3) := rfl
theorem Wb4_main_arg4 (c : Dev nD) : Wb4 m ρ c (Proc.devRef .tc main_arg4) = m ((c : Thread nD τ).loc main_arg4) :=
  calc Wb4 m ρ c (Proc.devRef .tc main_arg4)
    _ = Wb3 m ρ c (Proc.devRef .tc main_arg4) := Wb4_of_ne m ρ c main_arg4 (by decide)
    _ = Wb2 m ρ c (Proc.devRef .tc main_arg4) := StableHlo.after_of_writes_sub hostOps1 _ hostOps1_writes (by decide)
    _ = Wb1 m ρ c (Proc.devRef .tc main_arg4) := Wb2_of_ne m ρ c main_arg4 (by decide)
    _ = Wb0 m ρ c (Proc.devRef .tc main_arg4) := StableHlo.after_of_writes_sub hostOps0 _ hostOps0_writes (by decide)
    _ = m ((c : Thread nD τ).loc main_arg4) := rfl
theorem Wb4_main_arg5 (c : Dev nD) : Wb4 m ρ c (Proc.devRef .tc main_arg5) = m ((c : Thread nD τ).loc main_arg5) :=
  calc Wb4 m ρ c (Proc.devRef .tc main_arg5)
    _ = Wb3 m ρ c (Proc.devRef .tc main_arg5) := Wb4_of_ne m ρ c main_arg5 (by decide)
    _ = Wb2 m ρ c (Proc.devRef .tc main_arg5) := StableHlo.after_of_writes_sub hostOps1 _ hostOps1_writes (by decide)
    _ = Wb1 m ρ c (Proc.devRef .tc main_arg5) := Wb2_of_ne m ρ c main_arg5 (by decide)
    _ = Wb0 m ρ c (Proc.devRef .tc main_arg5) := StableHlo.after_of_writes_sub hostOps0 _ hostOps0_writes (by decide)
    _ = m ((c : Thread nD τ).loc main_arg5) := rfl
theorem Wb4_main_arg6 (c : Dev nD) : Wb4 m ρ c (Proc.devRef .tc main_arg6) = m ((c : Thread nD τ).loc main_arg6) :=
  calc Wb4 m ρ c (Proc.devRef .tc main_arg6)
    _ = Wb3 m ρ c (Proc.devRef .tc main_arg6) := Wb4_of_ne m ρ c main_arg6 (by decide)
    _ = Wb2 m ρ c (Proc.devRef .tc main_arg6) := StableHlo.after_of_writes_sub hostOps1 _ hostOps1_writes (by decide)
    _ = Wb1 m ρ c (Proc.devRef .tc main_arg6) := Wb2_of_ne m ρ c main_arg6 (by decide)
    _ = Wb0 m ρ c (Proc.devRef .tc main_arg6) := StableHlo.after_of_writes_sub hostOps0 _ hostOps0_writes (by decide)
    _ = m ((c : Thread nD τ).loc main_arg6) := rfl
theorem Wb4_main_arg7 (c : Dev nD) : Wb4 m ρ c (Proc.devRef .tc main_arg7) = m ((c : Thread nD τ).loc main_arg7) :=
  calc Wb4 m ρ c (Proc.devRef .tc main_arg7)
    _ = Wb3 m ρ c (Proc.devRef .tc main_arg7) := Wb4_of_ne m ρ c main_arg7 (by decide)
    _ = Wb2 m ρ c (Proc.devRef .tc main_arg7) := StableHlo.after_of_writes_sub hostOps1 _ hostOps1_writes (by decide)
    _ = Wb1 m ρ c (Proc.devRef .tc main_arg7) := Wb2_of_ne m ρ c main_arg7 (by decide)
    _ = Wb0 m ρ c (Proc.devRef .tc main_arg7) := StableHlo.after_of_writes_sub hostOps0 _ hostOps0_writes (by decide)
    _ = m ((c : Thread nD τ).loc main_arg7) := rfl
theorem Wb4_main_arg8 (c : Dev nD) : Wb4 m ρ c (Proc.devRef .tc main_arg8) = m ((c : Thread nD τ).loc main_arg8) :=
  calc Wb4 m ρ c (Proc.devRef .tc main_arg8)
    _ = Wb3 m ρ c (Proc.devRef .tc main_arg8) := Wb4_of_ne m ρ c main_arg8 (by decide)
    _ = Wb2 m ρ c (Proc.devRef .tc main_arg8) := StableHlo.after_of_writes_sub hostOps1 _ hostOps1_writes (by decide)
    _ = Wb1 m ρ c (Proc.devRef .tc main_arg8) := Wb2_of_ne m ρ c main_arg8 (by decide)
    _ = Wb0 m ρ c (Proc.devRef .tc main_arg8) := StableHlo.after_of_writes_sub hostOps0 _ hostOps0_writes (by decide)
    _ = m ((c : Thread nD τ).loc main_arg8) := rfl
theorem Wb4_main_arg9 (c : Dev nD) : Wb4 m ρ c (Proc.devRef .tc main_arg9) = m ((c : Thread nD τ).loc main_arg9) :=
  calc Wb4 m ρ c (Proc.devRef .tc main_arg9)
    _ = Wb3 m ρ c (Proc.devRef .tc main_arg9) := Wb4_of_ne m ρ c main_arg9 (by decide)
    _ = Wb2 m ρ c (Proc.devRef .tc main_arg9) := StableHlo.after_of_writes_sub hostOps1 _ hostOps1_writes (by decide)
    _ = Wb1 m ρ c (Proc.devRef .tc main_arg9) := Wb2_of_ne m ρ c main_arg9 (by decide)
    _ = Wb0 m ρ c (Proc.devRef .tc main_arg9) := StableHlo.after_of_writes_sub hostOps0 _ hostOps0_writes (by decide)
    _ = m ((c : Thread nD τ).loc main_arg9) := rfl
theorem Wb4_main_arg10 (c : Dev nD) : Wb4 m ρ c (Proc.devRef .tc main_arg10) = m ((c : Thread nD τ).loc main_arg10) :=
  calc Wb4 m ρ c (Proc.devRef .tc main_arg10)
    _ = Wb3 m ρ c (Proc.devRef .tc main_arg10) := Wb4_of_ne m ρ c main_arg10 (by decide)
    _ = Wb2 m ρ c (Proc.devRef .tc main_arg10) := StableHlo.after_of_writes_sub hostOps1 _ hostOps1_writes (by decide)
    _ = Wb1 m ρ c (Proc.devRef .tc main_arg10) := Wb2_of_ne m ρ c main_arg10 (by decide)
    _ = Wb0 m ρ c (Proc.devRef .tc main_arg10) := StableHlo.after_of_writes_sub hostOps0 _ hostOps0_writes (by decide)
    _ = m ((c : Thread nD τ).loc main_arg10) := rfl
theorem Wb4_main_arg11 (c : Dev nD) : Wb4 m ρ c (Proc.devRef .tc main_arg11) = m ((c : Thread nD τ).loc main_arg11) :=
  calc Wb4 m ρ c (Proc.devRef .tc main_arg11)
    _ = Wb3 m ρ c (Proc.devRef .tc main_arg11) := Wb4_of_ne m ρ c main_arg11 (by decide)
    _ = Wb2 m ρ c (Proc.devRef .tc main_arg11) := StableHlo.after_of_writes_sub hostOps1 _ hostOps1_writes (by decide)
    _ = Wb1 m ρ c (Proc.devRef .tc main_arg11) := Wb2_of_ne m ρ c main_arg11 (by decide)
    _ = Wb0 m ρ c (Proc.devRef .tc main_arg11) := StableHlo.after_of_writes_sub hostOps0 _ hostOps0_writes (by decide)
    _ = m ((c : Thread nD τ).loc main_arg11) := rfl
theorem Wb4_main_arg12 (c : Dev nD) : Wb4 m ρ c (Proc.devRef .tc main_arg12) = m ((c : Thread nD τ).loc main_arg12) :=
  calc Wb4 m ρ c (Proc.devRef .tc main_arg12)
    _ = Wb3 m ρ c (Proc.devRef .tc main_arg12) := Wb4_of_ne m ρ c main_arg12 (by decide)
    _ = Wb2 m ρ c (Proc.devRef .tc main_arg12) := StableHlo.after_of_writes_sub hostOps1 _ hostOps1_writes (by decide)
    _ = Wb1 m ρ c (Proc.devRef .tc main_arg12) := Wb2_of_ne m ρ c main_arg12 (by decide)
    _ = Wb0 m ρ c (Proc.devRef .tc main_arg12) := StableHlo.after_of_writes_sub hostOps0 _ hostOps0_writes (by decide)
    _ = m ((c : Thread nD τ).loc main_arg12) := rfl
theorem Wb4_main_arg13 (c : Dev nD) : Wb4 m ρ c (Proc.devRef .tc main_arg13) = m ((c : Thread nD τ).loc main_arg13) :=
  calc Wb4 m ρ c (Proc.devRef .tc main_arg13)
    _ = Wb3 m ρ c (Proc.devRef .tc main_arg13) := Wb4_of_ne m ρ c main_arg13 (by decide)
    _ = Wb2 m ρ c (Proc.devRef .tc main_arg13) := StableHlo.after_of_writes_sub hostOps1 _ hostOps1_writes (by decide)
    _ = Wb1 m ρ c (Proc.devRef .tc main_arg13) := Wb2_of_ne m ρ c main_arg13 (by decide)
    _ = Wb0 m ρ c (Proc.devRef .tc main_arg13) := StableHlo.after_of_writes_sub hostOps0 _ hostOps0_writes (by decide)
    _ = m ((c : Thread nD τ).loc main_arg13) := rfl
theorem Wb4_main_arg14 (c : Dev nD) : Wb4 m ρ c (Proc.devRef .tc main_arg14) = m ((c : Thread nD τ).loc main_arg14) :=
  calc Wb4 m ρ c (Proc.devRef .tc main_arg14)
    _ = Wb3 m ρ c (Proc.devRef .tc main_arg14) := Wb4_of_ne m ρ c main_arg14 (by decide)
    _ = Wb2 m ρ c (Proc.devRef .tc main_arg14) := StableHlo.after_of_writes_sub hostOps1 _ hostOps1_writes (by decide)
    _ = Wb1 m ρ c (Proc.devRef .tc main_arg14) := Wb2_of_ne m ρ c main_arg14 (by decide)
    _ = Wb0 m ρ c (Proc.devRef .tc main_arg14) := StableHlo.after_of_writes_sub hostOps0 _ hostOps0_writes (by decide)
    _ = m ((c : Thread nD τ).loc main_arg14) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
abbrev 𝒱f : Variants := Variants.none
abbrev Lf : GSem nD τ sig → Finset Unit := fun _ => ∅
abbrev lvf : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A stretch of host operations as a segment over the unscoped buffers from the contents W. -/
abbrev hsegf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱f Lf lvf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucf (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tlast (c : Dev nD) : sProp 𝕄 := iprop(StableHlo.held (c : Thread nD τ) (Pipeline.ucRefs τ sig) (Wb4 m ρ c) ∗ ∃ r, prngReg c r)

/-! ## The pallas_calls as segments -/

set_option backward.isDefEq.respectTransparency.types false in
/-- The first pallas_call as a segment: entered from every unscoped buffer at the contents before it, left at the contents
    after it.  Its arrays are split out of the unscoped buffers at entry and put back at what the write-backs leave at
    exit; the generator register goes into the body's invariant and comes back; nothing is owed; the kernel has no
    semaphore of its own. -/
def reg0 : Pipeline.RegionSeg (pcfgs (F := F)) adm (pdats m ρ) () defs₀ 𝒱f Lf lvf 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ Lf lvf 0 fun _ _ => rfl
  pre c := iprop(StableHlo.held (c : Thread nD τ) (Pipeline.ucRefs τ sig) (Wb1 m ρ c) ∗ Rst c)
  post c := iprop(StableHlo.held (c : Thread nD τ) (Pipeline.ucRefs τ sig) (Wb2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment: entered from every unscoped buffer at the contents before it, left at the contents
    after it.  Its arrays are split out of the unscoped buffers at entry and put back at what the write-backs leave at
    exit; the generator register goes into the body's invariant and comes back; nothing is owed; the kernel has no
    semaphore of its own. -/
def reg1 : Pipeline.RegionSeg (pcfgs (F := F)) adm (pdats m ρ) () defs₀ 𝒱f Lf lvf 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ Lf lvf 1 fun _ _ => rfl
  pre c := iprop(StableHlo.held (c : Thread nD τ) (Pipeline.ucRefs τ sig) (Wb3 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsf : List (Pipeline.Seg (pcfgs (F := F)) adm (pdats m ρ) () defs₀ 𝒱f Lf lvf) :=
  [ .host (hsegf hostOps0 hostOps0_sub hostOps0_fresh (Wb0 m ρ)),
    .region (reg0 m ρ),
    .host (hsegf hostOps1 hostOps1_sub hostOps1_fresh (Wb2 m ρ)),
    .region (reg1 m ρ) ]
theorem main_runf (c : Dev nD) : main (F := F) c = Pipeline.Seg.run (segsf m ρ) := (main_chain c).trans (by chain_rfl)

set_option backward.isDefEq.respectTransparency.types false in
/-- Every weakly fair execution from the memory m with zero counters terminates, nothing faulting, and in every final
    state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) adm (pdats m ρ) () cellOf_inj emb₁ defs₀ 𝒱f Lf lvf m ρ main (segsf m ρ)
    (fun c Q => by rw [main_runf m ρ c])
    (by simp only [segsf, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rst c)) (Tₙ := Tlast m ρ)
    (hch := ⟨fun _ => .rfl, fun _ => .rfl, fun _ => .rfl, fun _ => .rfl, fun _ => .rfl⟩)
    (hinit := by
      refine Pipeline.initEach Lf lvf fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_ucf main_arg0 (by decide))).trans (Wb4_main_arg0 m ρ c),
     (h c _ (mem_ucf main_arg1 (by decide))).trans (Wb4_main_arg1 m ρ c),
     (h c _ (mem_ucf main_arg2 (by decide))).trans (Wb4_main_arg2 m ρ c),
     (h c _ (mem_ucf main_arg3 (by decide))).trans (Wb4_main_arg3 m ρ c),
     (h c _ (mem_ucf main_arg4 (by decide))).trans (Wb4_main_arg4 m ρ c),
     (h c _ (mem_ucf main_arg5 (by decide))).trans (Wb4_main_arg5 m ρ c),
     (h c _ (mem_ucf main_arg6 (by decide))).trans (Wb4_main_arg6 m ρ c),
     (h c _ (mem_ucf main_arg7 (by decide))).trans (Wb4_main_arg7 m ρ c),
     (h c _ (mem_ucf main_arg8 (by decide))).trans (Wb4_main_arg8 m ρ c),
     (h c _ (mem_ucf main_arg9 (by decide))).trans (Wb4_main_arg9 m ρ c),
     (h c _ (mem_ucf main_arg10 (by decide))).trans (Wb4_main_arg10 m ρ c),
     (h c _ (mem_ucf main_arg11 (by decide))).trans (Wb4_main_arg11 m ρ c),
     (h c _ (mem_ucf main_arg12 (by decide))).trans (Wb4_main_arg12 m ρ c),
     (h c _ (mem_ucf main_arg13 (by decide))).trans (Wb4_main_arg13 m ρ c),
     (h c _ (mem_ucf main_arg14 (by decide))).trans (Wb4_main_arg14 m ρ c)⟩) (run_all m ρ)

/-- The run with the result named: the result array ends at what the second pipeline's write-backs leave, and every
    argument array as launched. -/
theorem run_value : θ_run defs (onTc (τ := τ) (main (F := F))) ⟨m, fun _ => 0, ρ⟩ (fun r => ∀ c : Dev nD,
      r.2.mem ((c.tc : Thread nD τ).loc main_v23) = (dat1 (Vb3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_ucf main_v23 (by decide))).trans (Wb4_arr m ρ c 8),
     (h c _ (mem_ucf main_arg0 (by decide))).trans (Wb4_main_arg0 m ρ c),
     (h c _ (mem_ucf main_arg1 (by decide))).trans (Wb4_main_arg1 m ρ c),
     (h c _ (mem_ucf main_arg2 (by decide))).trans (Wb4_main_arg2 m ρ c),
     (h c _ (mem_ucf main_arg3 (by decide))).trans (Wb4_main_arg3 m ρ c),
     (h c _ (mem_ucf main_arg4 (by decide))).trans (Wb4_main_arg4 m ρ c),
     (h c _ (mem_ucf main_arg5 (by decide))).trans (Wb4_main_arg5 m ρ c),
     (h c _ (mem_ucf main_arg6 (by decide))).trans (Wb4_main_arg6 m ρ c),
     (h c _ (mem_ucf main_arg7 (by decide))).trans (Wb4_main_arg7 m ρ c),
     (h c _ (mem_ucf main_arg8 (by decide))).trans (Wb4_main_arg8 m ρ c),
     (h c _ (mem_ucf main_arg9 (by decide))).trans (Wb4_main_arg9 m ρ c),
     (h c _ (mem_ucf main_arg10 (by decide))).trans (Wb4_main_arg10 m ρ c),
     (h c _ (mem_ucf main_arg11 (by decide))).trans (Wb4_main_arg11 m ρ c),
     (h c _ (mem_ucf main_arg12 (by decide))).trans (Wb4_main_arg12 m ρ c),
     (h c _ (mem_ucf main_arg13 (by decide))).trans (Wb4_main_arg13 m ρ c),
     (h c _ (mem_ucf main_arg14 (by decide))).trans (Wb4_main_arg14 m ρ c)⟩) (run_all m ρ)

end Cert.Kernel.Frm

end
-- ==== Proof.KIRegion0.lean ====
/- The first pallas_call (the backbone: two matrix products, their sum, and the block's column sums) as a
   pipeline region entered from any buffer contents V: what each output window's staging buffer holds after the body
   at a grid point, as a function of the input windows' blocks there; the body's Hoare triple; and the per-point
   obligation the pipeline's launch theorem asks for.  Stated at any float instance. -/
import proofs.«126462_j38199439131313_2_alg».proof.Proof.Gen.KernelIdeal.Launch
import proofs.«126462_j38199439131313_2_alg».proof.Proof.Gen.KernelIdeal.Skeleton
import proofs.«126462_j38199439131313_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there: where it
    was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there: where it
    was not, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there: where it
    was not, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there: where it
    was not, the block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each the whole of its buffer -/

abbrev rBig0 : Rect S4096x128 := Rect.unit (s := S4096x128) ![0, 0] S4096x128.size inb_S4096x128_S4096x128_0_0
abbrev rW0 : Rect S128x128 := Rect.unit (s := S128x128) ![0, 0] S128x128.size inb_S128x128_S128x128_0_0
abbrev rS0 : Rect S8x128 := Rect.unit (s := S8x128) ![0, 0] S8x128.size inb_S8x128_S8x128_0_0

/-! ## What the body leaves in each output window's buffer -/

/-- Window 4's buffer after the body: the block of pre-activations, one store over the whole buffer. -/
def out0_4 (x0 x1 : Vec F S4096x128 .f32) (x2 x3 : Vec F S128x128 .f32) : Vec F S4096x128 .f32 :=
  View.canon [⟨rBig0, k0_pay1 (View.ld x0 rBig0) (View.ld x1 rBig0) (View.ld x2 rW0) (View.ld x3 rW0)⟩]
/-- Window 5's buffer after the body: the block's column sums in the first of eight rows. -/
def out0_5 (x0 x1 : Vec F S4096x128 .f32) (x2 x3 : Vec F S128x128 .f32) : Vec F S8x128 .f32 :=
  View.canon [⟨rS0, k0_pay3 (View.ld x0 rBig0) (View.ld x1 rBig0) (View.ld x2 rW0) (View.ld x3 rW0)⟩]
/-- Window 6's buffer after the body: the block's column sums of squares in the first of eight rows. -/
def out0_6 (x0 x1 : Vec F S4096x128 .f32) (x2 x3 : Vec F S128x128 .f32) : Vec F S8x128 .f32 :=
  View.canon [⟨rS0, k0_pay4 (View.ld x0 rBig0) (View.ld x1 rBig0) (View.ld x2 rW0) (View.ld x3 rW0)⟩]
/-- Each store is over its whole buffer, so it covers it. -/
theorem cover0_4 (p0 : Vec F S4096x128 .f32) (y : S4096x128.Idx) :
    ∃ pc ∈ ([⟨rBig0, p0⟩] : List (View.Piece (Elt F) S4096x128 .f32)), y ∈ pc.1.set :=
  View.cover_of_tiled [⟨rBig0, p0⟩] S4096x128.size (by rfl) y
theorem cover0_5 (p0 : Vec F S8x128 .f32) (y : S8x128.Idx) :
    ∃ pc ∈ ([⟨rS0, p0⟩] : List (View.Piece (Elt F) S8x128 .f32)), y ∈ pc.1.set :=
  View.cover_of_tiled [⟨rS0, p0⟩] S8x128.size (by rfl) y

/-! ## The body's triple -/

set_option maxHeartbeats 4000000 in
/-- The body on whole staging buffers, the four inputs' at known contents and the three outputs' at anything, runs to
    its end leaving the inputs as they were and each output at its function of the inputs. -/
theorem sound_kernel0 (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S4096x128 .f32) (harg5 : arg5.IsWhole) (arg6 : Memref sig .tc .vmem S8x128 .f32) (harg6 : arg6.IsWhole)
    (arg7 : Memref sig .tc .vmem S8x128 .f32) (harg7 : arg7.IsWhole)
    (x0 x1 : Vec F S4096x128 .f32) (x2 x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E (cc0__backbone_kernel i arg1 harg1 arg2 harg2 arg3 harg3 arg4 harg4 arg5 harg5 arg6 harg6 arg7 harg7) K := by
  simp only [cc0__backbone_kernel_eq_skeleton]; unfold cc0__backbone_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_4 _)
  isplitl [H5]
  · iexists _; isplitr
    swap; · iexact H5
    ipureintro
    try dsimp only
    exact View.read_writes_eq_canon _ _ _ (cover0_5 _)
  iexists _; isplitr
  swap; · iexact H6
  ipureintro
  try dsimp only
  exact View.read_writes_eq_canon _ _ _ (cover0_5 _)

/-! ## The pipeline's proof data -/

/-- The arrays as the region finds them; after the body at a point each input's buffer still at its block and each
    output's at its function of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frm

end
-- ==== Proof.KIRegion1.lean ====
/- The second pallas_call (normalise, rectify, one fused head product, the gate) as a pipeline region entered from
   any buffer contents V: what the output window's staging buffer holds after the body at a grid point as a function of
   the eight input windows' blocks there; the body's Hoare triple; and the per-point obligation the pipeline's launch
   theorem asks for.  Stated at any float instance. -/
import proofs.«126462_j38199439131313_2_alg».proof.Proof.Gen.KernelIdeal.Launch
import proofs.«126462_j38199439131313_2_alg».proof.Proof.Gen.KernelIdeal.Skeleton
import proofs.«126462_j38199439131313_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there: where it
    was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not it was fetched there: where it
    was not, the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not it was fetched there: where it
    was not, the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether or not it was fetched there: where it
    was not, the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether or not it was fetched there: where it
    was not, the block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether or not it was fetched there: where it
    was not, the block index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether or not it was fetched there: where it
    was not, the block index has not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, whether or not it was fetched there: where it
    was not, the block index has not moved since the point before. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through: each the whole of its buffer -/

abbrev rZ1 : Rect S2048x128 := Rect.unit (s := S2048x128) ![0, 0] S2048x128.size inb_S2048x128_S2048x128_0_0
abbrev rT1 : Rect S2048x1 := Rect.unit (s := S2048x1) ![0, 0] S2048x1.size inb_S2048x1_S2048x1_0_0
abbrev rR1 : Rect S1x128 := Rect.unit (s := S1x128) ![0, 0] S1x128.size inb_S1x128_S1x128_0_0
abbrev rWh1 : Rect S128x512 := Rect.unit (s := S128x512) ![0, 0] S128x512.size inb_S128x512_S128x512_0_0
abbrev rBh1 : Rect S1x512 := Rect.unit (s := S1x512) ![0, 0] S1x512.size inb_S1x512_S1x512_0_0

/-! ## What the body leaves in each output window's buffer -/

/-- Window 8's buffer after the body: the gated output block, one store over the whole buffer. -/
def out1_8 (x0 : Vec F S2048x128 .f32) (x1 : Vec F S2048x1 .f32) (x2 x3 x4 x5 : Vec F S1x128 .f32) (x6 : Vec F S128x512 .f32) (x7 : Vec F S1x512 .f32) : Vec F S2048x128 .f32 :=
  View.canon [⟨rZ1, k1_pay1 (k1_pay3 (View.ld x0 rZ1) (View.ld x2 rR1) (View.ld x3 rR1) (View.ld x4 rR1) (View.ld x5 rR1) (View.ld x6 rWh1) (View.ld x7 rBh1)) (k1_pay4 (View.ld x0 rZ1) (View.ld x2 rR1) (View.ld x3 rR1) (View.ld x4 rR1) (View.ld x5 rR1) (View.ld x6 rWh1) (View.ld x7 rBh1)) (View.ld x1 rT1) (k1_pay5 (View.ld x0 rZ1) (View.ld x2 rR1) (View.ld x3 rR1) (View.ld x4 rR1) (View.ld x5 rR1) (View.ld x6 rWh1) (View.ld x7 rBh1))⟩]
/-- The store is over the whole buffer, so it covers it. -/
theorem cover1_8 (p0 : Vec F S2048x128 .f32) (y : S2048x128.Idx) :
    ∃ pc ∈ ([⟨rZ1, p0⟩] : List (View.Piece (Elt F) S2048x128 .f32)), y ∈ pc.1.set :=
  View.cover_of_tiled [⟨rZ1, p0⟩] S2048x128.size (by rfl) y

/-! ## The body's triple -/

set_option maxHeartbeats 4000000 in
/-- The body on whole staging buffers, the eight inputs' at known contents and the output's at anything, runs to its
    end leaving the inputs as they were and the output at its function of the inputs. -/
theorem sound_kernel1 (c : Dev nD) (E : Set ℕ) (i : grid1.Coords)
    (arg1 : Memref sig .tc .vmem S2048x128 .f32) (harg1 : arg1.IsWhole) (arg2 : Memref sig .tc .vmem S2048x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x512 .f32) (harg7 : arg7.IsWhole) (arg8 : Memref sig .tc .vmem S1x512 .f32) (harg8 : arg8.IsWhole)
    (arg9 : Memref sig .tc .vmem S2048x128 .f32) (harg9 : arg9.IsWhole)
    (x0 : Vec F S2048x128 .f32) (x1 : Vec F S2048x1 .f32) (x2 x3 x4 x5 : Vec F S1x128 .f32) (x6 : Vec F S128x512 .f32) (x7 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8 arg9 harg9) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The arrays as the region finds them; after the body at a point each input's buffer still at its block and the
    output's at its function of the input blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Frm

end
-- ==== Proof.KIRun.lean ====
/- The whole program as a chain of four segments — host operations, the first pallas_call, host operations, the
   second pallas_call — each entered from the buffer contents the one before it leaves: the contents at the five
   boundaries as a fold from the launch memory, the two pallas_calls as segments over the thread state "every unscoped
   buffer at the boundary's contents, the generator register at some state, nothing owed", and the launch.  Every
   weakly fair execution terminates with every unscoped buffer at the last boundary's contents; from that, each argument
   array is as launched (nothing writes one) and the result array is what the second pipeline's write-backs leave.
   Stated at any float instance. -/
import proofs.«126462_j38199439131313_2_alg».proof.Proof.Gen.KernelIdeal.Launch
import proofs.«126462_j38199439131313_2_alg».proof.Proof.Gen.KernelIdeal.Skeleton
import proofs.«126462_j38199439131313_2_alg».proof.Proof.Gen.KernelIdeal.Points
import proofs.«126462_j38199439131313_2_alg».proof.Proof.Gen.KernelIdeal.Regions
import proofs.«126462_j38199439131313_2_alg».proof.Proof.KIRegion0
import proofs.«126462_j38199439131313_2_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Wb0 : Dev nD → Valuation τ sig (Elt F) := fun c b => (s₀ m ρ).mem ((c : Dev nD), b)
/-- After the first stretch of host operations (the first pallas_call's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At the first pallas_call's exit: its arrays at what the pipeline leaves, every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After the second stretch of host operations (the second pallas_call's entry). -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b
/-- At the second pallas_call's exit. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-! ### The arguments end as launched: no host operation and no pallas_call writes one -/

theorem Wb4_main_arg0 (c : Dev nD) : Wb4 m ρ c (Proc.devRef .tc main_arg0) = m ((c : Thread nD τ).loc main_arg0) :=
  calc Wb4 m ρ c (Proc.devRef .tc main_arg0)
    _ = Wb3 m ρ c (Proc.devRef .tc main_arg0) := Wb4_of_ne m ρ c main_arg0 (by decide)
    _ = Wb2 m ρ c (Proc.devRef .tc main_arg0) := StableHlo.after_of_writes_sub hostOps1 _ hostOps1_writes (by decide)
    _ = Wb1 m ρ c (Proc.devRef .tc main_arg0) := (Wb2_arr m ρ c 0).trans (((dat0 (Vb1 m ρ) c).arrAt_in 0 rfl _).trans (A_eq0 (Vb1 m ρ) c 0))
    _ = Wb0 m ρ c (Proc.devRef .tc main_arg0) := StableHlo.after_of_writes_sub hostOps0 _ hostOps0_writes (by decide)
    _ = m ((c : Thread nD τ).loc main_arg0) := rfl
theorem Wb4_main_arg1 (c : Dev nD) : Wb4 m ρ c (Proc.devRef .tc main_arg1) = m ((c : Thread nD τ).loc main_arg1) :=
  calc Wb4 m ρ c (Proc.devRef .tc main_arg1)
    _ = Wb3 m ρ c (Proc.devRef .tc main_arg1) := Wb4_of_ne m ρ c main_arg1 (by decide)
    _ = Wb2 m ρ c (Proc.devRef .tc main_arg1) := StableHlo.after_of_writes_sub hostOps1 _ hostOps1_writes (by decide)
    _ = Wb1 m ρ c (Proc.devRef .tc main_arg1) := (Wb2_arr m ρ c 1).trans (((dat0 (Vb1 m ρ) c).arrAt_in 1 rfl _).trans (A_eq0 (Vb1 m ρ) c 1))
    _ = Wb0 m ρ c (Proc.devRef .tc main_arg1) := StableHlo.after_of_writes_sub hostOps0 _ hostOps0_writes (by decide)
    _ = m ((c : Thread nD τ).loc main_arg1) := rfl
theorem Wb4_main_arg2 (c : Dev nD) : Wb4 m ρ c (Proc.devRef .tc main_arg2) = m ((c : Thread nD τ).loc main_arg2) :=
  calc Wb4 m ρ c (Proc.devRef .tc main_arg2)
    _ = Wb3 m ρ c (Proc.devRef .tc main_arg2) := (Wb4_arr m ρ c 1).trans (((dat1 (Vb3 m ρ) c).arrAt_in 1 rfl _).trans (A_eq1 (Vb3 m ρ) c 1))
    _ = Wb2 m ρ c (Proc.devRef .tc main_arg2) := StableHlo.after_of_writes_sub hostOps1 _ hostOps1_writes (by decide)
    _ = Wb1 m ρ c (Proc.devRef .tc main_arg2) := Wb2_of_ne m ρ c main_arg2 (by decide)
    _ = Wb0 m ρ c (Proc.devRef .tc main_arg2) := StableHlo.after_of_writes_sub hostOps0 _ hostOps0_writes (by decide)
    _ = m ((c : Thread nD τ).loc main_arg2) := rfl
theorem Wb4_main_arg3 (c : Dev nD) : Wb4 m ρ c (Proc.devRef .tc main_arg3) = m ((c : Thread nD τ).loc main_arg3) :=
  calc Wb4 m ρ c (Proc.devRef .tc main_arg3)
    _ = Wb3 m ρ c (Proc.devRef .tc main_arg3) := Wb4_of_ne m ρ c main_arg3 (by decide)
    _ = Wb2 m ρ c (Proc.devRef .tc main_arg3) := StableHlo.after_of_writes_sub hostOps1 _ hostOps1_writes (by decide)
    _ = Wb1 m ρ c (Proc.devRef .tc main_arg3) := Wb2_of_ne m ρ c main_arg3 (by decide)
    _ = Wb0 m ρ c (Proc.devRef .tc main_arg3) := StableHlo.after_of_writes_sub hostOps0 _ hostOps0_writes (by decide)
    _ = m ((c : Thread nD τ).loc main_arg3) := rfl
theorem Wb4_main_arg4 (c : Dev nD) : Wb4 m ρ c (Proc.devRef .tc main_arg4) = m ((c : Thread nD τ).loc main_arg4) :=
  calc Wb4 m ρ c (Proc.devRef .tc main_arg4)
    _ = Wb3 m ρ c (Proc.devRef .tc main_arg4) := Wb4_of_ne m ρ c main_arg4 (by decide)
    _ = Wb2 m ρ c (Proc.devRef .tc main_arg4) := StableHlo.after_of_writes_sub hostOps1 _ hostOps1_writes (by decide)
    _ = Wb1 m ρ c (Proc.devRef .tc main_arg4) := Wb2_of_ne m ρ c main_arg4 (by decide)
    _ = Wb0 m ρ c (Proc.devRef .tc main_arg4) := StableHlo.after_of_writes_sub hostOps0 _ hostOps0_writes (by decide)
    _ = m ((c : Thread nD τ).loc main_arg4) := rfl
theorem Wb4_main_arg5 (c : Dev nD) : Wb4 m ρ c (Proc.devRef .tc main_arg5) = m ((c : Thread nD τ).loc main_arg5) :=
  calc Wb4 m ρ c (Proc.devRef .tc main_arg5)
    _ = Wb3 m ρ c (Proc.devRef .tc main_arg5) := Wb4_of_ne m ρ c main_arg5 (by decide)
    _ = Wb2 m ρ c (Proc.devRef .tc main_arg5) := StableHlo.after_of_writes_sub hostOps1 _ hostOps1_writes (by decide)
    _ = Wb1 m ρ c (Proc.devRef .tc main_arg5) := Wb2_of_ne m ρ c main_arg5 (by decide)
    _ = Wb0 m ρ c (Proc.devRef .tc main_arg5) := StableHlo.after_of_writes_sub hostOps0 _ hostOps0_writes (by decide)
    _ = m ((c : Thread nD τ).loc main_arg5) := rfl
theorem Wb4_main_arg6 (c : Dev nD) : Wb4 m ρ c (Proc.devRef .tc main_arg6) = m ((c : Thread nD τ).loc main_arg6) :=
  calc Wb4 m ρ c (Proc.devRef .tc main_arg6)
    _ = Wb3 m ρ c (Proc.devRef .tc main_arg6) := Wb4_of_ne m ρ c main_arg6 (by decide)
    _ = Wb2 m ρ c (Proc.devRef .tc main_arg6) := StableHlo.after_of_writes_sub hostOps1 _ hostOps1_writes (by decide)
    _ = Wb1 m ρ c (Proc.devRef .tc main_arg6) := Wb2_of_ne m ρ c main_arg6 (by decide)
    _ = Wb0 m ρ c (Proc.devRef .tc main_arg6) := StableHlo.after_of_writes_sub hostOps0 _ hostOps0_writes (by decide)
    _ = m ((c : Thread nD τ).loc main_arg6) := rfl
theorem Wb4_main_arg7 (c : Dev nD) : Wb4 m ρ c (Proc.devRef .tc main_arg7) = m ((c : Thread nD τ).loc main_arg7) :=
  calc Wb4 m ρ c (Proc.devRef .tc main_arg7)
    _ = Wb3 m ρ c (Proc.devRef .tc main_arg7) := Wb4_of_ne m ρ c main_arg7 (by decide)
    _ = Wb2 m ρ c (Proc.devRef .tc main_arg7) := StableHlo.after_of_writes_sub hostOps1 _ hostOps1_writes (by decide)
    _ = Wb1 m ρ c (Proc.devRef .tc main_arg7) := Wb2_of_ne m ρ c main_arg7 (by decide)
    _ = Wb0 m ρ c (Proc.devRef .tc main_arg7) := StableHlo.after_of_writes_sub hostOps0 _ hostOps0_writes (by decide)
    _ = m ((c : Thread nD τ).loc main_arg7) := rfl
theorem Wb4_main_arg8 (c : Dev nD) : Wb4 m ρ c (Proc.devRef .tc main_arg8) = m ((c : Thread nD τ).loc main_arg8) :=
  calc Wb4 m ρ c (Proc.devRef .tc main_arg8)
    _ = Wb3 m ρ c (Proc.devRef .tc main_arg8) := Wb4_of_ne m ρ c main_arg8 (by decide)
    _ = Wb2 m ρ c (Proc.devRef .tc main_arg8) := StableHlo.after_of_writes_sub hostOps1 _ hostOps1_writes (by decide)
    _ = Wb1 m ρ c (Proc.devRef .tc main_arg8) := Wb2_of_ne m ρ c main_arg8 (by decide)
    _ = Wb0 m ρ c (Proc.devRef .tc main_arg8) := StableHlo.after_of_writes_sub hostOps0 _ hostOps0_writes (by decide)
    _ = m ((c : Thread nD τ).loc main_arg8) := rfl
theorem Wb4_main_arg9 (c : Dev nD) : Wb4 m ρ c (Proc.devRef .tc main_arg9) = m ((c : Thread nD τ).loc main_arg9) :=
  calc Wb4 m ρ c (Proc.devRef .tc main_arg9)
    _ = Wb3 m ρ c (Proc.devRef .tc main_arg9) := Wb4_of_ne m ρ c main_arg9 (by decide)
    _ = Wb2 m ρ c (Proc.devRef .tc main_arg9) := StableHlo.after_of_writes_sub hostOps1 _ hostOps1_writes (by decide)
    _ = Wb1 m ρ c (Proc.devRef .tc main_arg9) := Wb2_of_ne m ρ c main_arg9 (by decide)
    _ = Wb0 m ρ c (Proc.devRef .tc main_arg9) := StableHlo.after_of_writes_sub hostOps0 _ hostOps0_writes (by decide)
    _ = m ((c : Thread nD τ).loc main_arg9) := rfl
theorem Wb4_main_arg10 (c : Dev nD) : Wb4 m ρ c (Proc.devRef .tc main_arg10) = m ((c : Thread nD τ).loc main_arg10) :=
  calc Wb4 m ρ c (Proc.devRef .tc main_arg10)
    _ = Wb3 m ρ c (Proc.devRef .tc main_arg10) := Wb4_of_ne m ρ c main_arg10 (by decide)
    _ = Wb2 m ρ c (Proc.devRef .tc main_arg10) := StableHlo.after_of_writes_sub hostOps1 _ hostOps1_writes (by decide)
    _ = Wb1 m ρ c (Proc.devRef .tc main_arg10) := Wb2_of_ne m ρ c main_arg10 (by decide)
    _ = Wb0 m ρ c (Proc.devRef .tc main_arg10) := StableHlo.after_of_writes_sub hostOps0 _ hostOps0_writes (by decide)
    _ = m ((c : Thread nD τ).loc main_arg10) := rfl
theorem Wb4_main_arg11 (c : Dev nD) : Wb4 m ρ c (Proc.devRef .tc main_arg11) = m ((c : Thread nD τ).loc main_arg11) :=
  calc Wb4 m ρ c (Proc.devRef .tc main_arg11)
    _ = Wb3 m ρ c (Proc.devRef .tc main_arg11) := Wb4_of_ne m ρ c main_arg11 (by decide)
    _ = Wb2 m ρ c (Proc.devRef .tc main_arg11) := StableHlo.after_of_writes_sub hostOps1 _ hostOps1_writes (by decide)
    _ = Wb1 m ρ c (Proc.devRef .tc main_arg11) := Wb2_of_ne m ρ c main_arg11 (by decide)
    _ = Wb0 m ρ c (Proc.devRef .tc main_arg11) := StableHlo.after_of_writes_sub hostOps0 _ hostOps0_writes (by decide)
    _ = m ((c : Thread nD τ).loc main_arg11) := rfl
theorem Wb4_main_arg12 (c : Dev nD) : Wb4 m ρ c (Proc.devRef .tc main_arg12) = m ((c : Thread nD τ).loc main_arg12) :=
  calc Wb4 m ρ c (Proc.devRef .tc main_arg12)
    _ = Wb3 m ρ c (Proc.devRef .tc main_arg12) := Wb4_of_ne m ρ c main_arg12 (by decide)
    _ = Wb2 m ρ c (Proc.devRef .tc main_arg12) := StableHlo.after_of_writes_sub hostOps1 _ hostOps1_writes (by decide)
    _ = Wb1 m ρ c (Proc.devRef .tc main_arg12) := Wb2_of_ne m ρ c main_arg12 (by decide)
    _ = Wb0 m ρ c (Proc.devRef .tc main_arg12) := StableHlo.after_of_writes_sub hostOps0 _ hostOps0_writes (by decide)
    _ = m ((c : Thread nD τ).loc main_arg12) := rfl
theorem Wb4_main_arg13 (c : Dev nD) : Wb4 m ρ c (Proc.devRef .tc main_arg13) = m ((c : Thread nD τ).loc main_arg13) :=
  calc Wb4 m ρ c (Proc.devRef .tc main_arg13)
    _ = Wb3 m ρ c (Proc.devRef .tc main_arg13) := Wb4_of_ne m ρ c main_arg13 (by decide)
    _ = Wb2 m ρ c (Proc.devRef .tc main_arg13) := StableHlo.after_of_writes_sub hostOps1 _ hostOps1_writes (by decide)
    _ = Wb1 m ρ c (Proc.devRef .tc main_arg13) := Wb2_of_ne m ρ c main_arg13 (by decide)
    _ = Wb0 m ρ c (Proc.devRef .tc main_arg13) := StableHlo.after_of_writes_sub hostOps0 _ hostOps0_writes (by decide)
    _ = m ((c : Thread nD τ).loc main_arg13) := rfl
theorem Wb4_main_arg14 (c : Dev nD) : Wb4 m ρ c (Proc.devRef .tc main_arg14) = m ((c : Thread nD τ).loc main_arg14) :=
  calc Wb4 m ρ c (Proc.devRef .tc main_arg14)
    _ = Wb3 m ρ c (Proc.devRef .tc main_arg14) := Wb4_of_ne m ρ c main_arg14 (by decide)
    _ = Wb2 m ρ c (Proc.devRef .tc main_arg14) := StableHlo.after_of_writes_sub hostOps1 _ hostOps1_writes (by decide)
    _ = Wb1 m ρ c (Proc.devRef .tc main_arg14) := Wb2_of_ne m ρ c main_arg14 (by decide)
    _ = Wb0 m ρ c (Proc.devRef .tc main_arg14) := StableHlo.after_of_writes_sub hostOps0 _ hostOps0_writes (by decide)
    _ = m ((c : Thread nD τ).loc main_arg14) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
abbrev 𝒱f : Variants := Variants.none
abbrev Lf : GSem nD τ sig → Finset Unit := fun _ => ∅
abbrev lvf : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A stretch of host operations as a segment over the unscoped buffers from the contents W. -/
abbrev hsegf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱f Lf lvf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucf (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tlast (c : Dev nD) : sProp 𝕄 := iprop(StableHlo.held (c : Thread nD τ) (Pipeline.ucRefs τ sig) (Wb4 m ρ c) ∗ ∃ r, prngReg c r)

/-! ## The pallas_calls as segments -/

set_option backward.isDefEq.respectTransparency.types false in
/-- The first pallas_call as a segment: entered from every unscoped buffer at the contents before it, left at the contents
    after it.  Its arrays are split out of the unscoped buffers at entry and put back at what the write-backs leave at
    exit; the generator register goes into the body's invariant and comes back; nothing is owed; the kernel has no
    semaphore of its own. -/
def reg0 : Pipeline.RegionSeg (pcfgs (F := F)) adm (pdats m ρ) () defs₀ 𝒱f Lf lvf 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ Lf lvf 0 fun _ _ => rfl
  pre c := iprop(StableHlo.held (c : Thread nD τ) (Pipeline.ucRefs τ sig) (Wb1 m ρ c) ∗ Rst c)
  post c := iprop(StableHlo.held (c : Thread nD τ) (Pipeline.ucRefs τ sig) (Wb2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment: entered from every unscoped buffer at the contents before it, left at the contents
    after it.  Its arrays are split out of the unscoped buffers at entry and put back at what the write-backs leave at
    exit; the generator register goes into the body's invariant and comes back; nothing is owed; the kernel has no
    semaphore of its own. -/
def reg1 : Pipeline.RegionSeg (pcfgs (F := F)) adm (pdats m ρ) () defs₀ 𝒱f Lf lvf 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ Lf lvf 1 fun _ _ => rfl
  pre c := iprop(StableHlo.held (c : Thread nD τ) (Pipeline.ucRefs τ sig) (Wb3 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsf : List (Pipeline.Seg (pcfgs (F := F)) adm (pdats m ρ) () defs₀ 𝒱f Lf lvf) :=
  [ .host (hsegf hostOps0 hostOps0_sub hostOps0_fresh (Wb0 m ρ)),
    .region (reg0 m ρ),
    .host (hsegf hostOps1 hostOps1_sub hostOps1_fresh (Wb2 m ρ)),
    .region (reg1 m ρ) ]
theorem main_runf (c : Dev nD) : main (F := F) c = Pipeline.Seg.run (segsf m ρ) := (main_chain c).trans (by chain_rfl)

set_option backward.isDefEq.respectTransparency.types false in
/-- Every weakly fair execution from the memory m with zero counters terminates, nothing faulting, and in every final
    state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) adm (pdats m ρ) () cellOf_inj emb₁ defs₀ 𝒱f Lf lvf m ρ main (segsf m ρ)
    (fun c Q => by rw [main_runf m ρ c])
    (by simp only [segsf, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rst c)) (Tₙ := Tlast m ρ)
    (hch := ⟨fun _ => .rfl, fun _ => .rfl, fun _ => .rfl, fun _ => .rfl, fun _ => .rfl⟩)
    (hinit := by
      refine Pipeline.initEach Lf lvf fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_ucf main_arg0 (by decide))).trans (Wb4_main_arg0 m ρ c),
     (h c _ (mem_ucf main_arg1 (by decide))).trans (Wb4_main_arg1 m ρ c),
     (h c _ (mem_ucf main_arg2 (by decide))).trans (Wb4_main_arg2 m ρ c),
     (h c _ (mem_ucf main_arg3 (by decide))).trans (Wb4_main_arg3 m ρ c),
     (h c _ (mem_ucf main_arg4 (by decide))).trans (Wb4_main_arg4 m ρ c),
     (h c _ (mem_ucf main_arg5 (by decide))).trans (Wb4_main_arg5 m ρ c),
     (h c _ (mem_ucf main_arg6 (by decide))).trans (Wb4_main_arg6 m ρ c),
     (h c _ (mem_ucf main_arg7 (by decide))).trans (Wb4_main_arg7 m ρ c),
     (h c _ (mem_ucf main_arg8 (by decide))).trans (Wb4_main_arg8 m ρ c),
     (h c _ (mem_ucf main_arg9 (by decide))).trans (Wb4_main_arg9 m ρ c),
     (h c _ (mem_ucf main_arg10 (by decide))).trans (Wb4_main_arg10 m ρ c),
     (h c _ (mem_ucf main_arg11 (by decide))).trans (Wb4_main_arg11 m ρ c),
     (h c _ (mem_ucf main_arg12 (by decide))).trans (Wb4_main_arg12 m ρ c),
     (h c _ (mem_ucf main_arg13 (by decide))).trans (Wb4_main_arg13 m ρ c),
     (h c _ (mem_ucf main_arg14 (by decide))).trans (Wb4_main_arg14 m ρ c)⟩) (run_all m ρ)

/-- The run with the result named: the result array ends at what the second pipeline's write-backs leave, and every
    argument array as launched. -/
theorem run_value : θ_run defs (onTc (τ := τ) (main (F := F))) ⟨m, fun _ => 0, ρ⟩ (fun r => ∀ c : Dev nD,
      r.2.mem ((c.tc : Thread nD τ).loc main_v23) = (dat1 (Vb3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_ucf main_v23 (by decide))).trans (Wb4_arr m ρ c 8),
     (h c _ (mem_ucf main_arg0 (by decide))).trans (Wb4_main_arg0 m ρ c),
     (h c _ (mem_ucf main_arg1 (by decide))).trans (Wb4_main_arg1 m ρ c),
     (h c _ (mem_ucf main_arg2 (by decide))).trans (Wb4_main_arg2 m ρ c),
     (h c _ (mem_ucf main_arg3 (by decide))).trans (Wb4_main_arg3 m ρ c),
     (h c _ (mem_ucf main_arg4 (by decide))).trans (Wb4_main_arg4 m ρ c),
     (h c _ (mem_ucf main_arg5 (by decide))).trans (Wb4_main_arg5 m ρ c),
     (h c _ (mem_ucf main_arg6 (by decide))).trans (Wb4_main_arg6 m ρ c),
     (h c _ (mem_ucf main_arg7 (by decide))).trans (Wb4_main_arg7 m ρ c),
     (h c _ (mem_ucf main_arg8 (by decide))).trans (Wb4_main_arg8 m ρ c),
     (h c _ (mem_ucf main_arg9 (by decide))).trans (Wb4_main_arg9 m ρ c),
     (h c _ (mem_ucf main_arg10 (by decide))).trans (Wb4_main_arg10 m ρ c),
     (h c _ (mem_ucf main_arg11 (by decide))).trans (Wb4_main_arg11 m ρ c),
     (h c _ (mem_ucf main_arg12 (by decide))).trans (Wb4_main_arg12 m ρ c),
     (h c _ (mem_ucf main_arg13 (by decide))).trans (Wb4_main_arg13 m ρ c),
     (h c _ (mem_ucf main_arg14 (by decide))).trans (Wb4_main_arg14 m ρ c)⟩) (run_all m ρ)

end Cert.KernelIdeal.Frm

end
-- ==== Proof.Spec.lean ====
/- The network's result as ONE function of the argument arrays, entry by entry, on the extended reals.

   A row i of the batch (131072 rows) and a feature j (128 features).  The backbone is two linear maps,
   pre(i, j) = sum_l (sum_k [x, h](i, k) * W0(k, l)) * W1(l, j); batch normalisation over the rows with the biased
   variance, mean(j) = (sum_i pre(i, j)) / B and var(j) = (sum_i (pre(i, j) - mean(j))^2) / B; a leaky rectifier; four
   dense heads g, f, hh, tau of the normalised activations; and the gate
   out = tanh(hh) * (1 - s) + tanh(g) * s with s = logistic((tau + f) * t(i)).

   The second spelling of the same number, `preFolded`, multiplies the two weight matrices first and splits the joined
   input: x(i, .) * (W0[0:128] W1) + h(i, .) * (W0[128:256] W1); and the second spelling of the statistics takes the
   row sums of pre and of pre^2 block by block (32 blocks of 4096 rows, each block's sum kept in the first of 8 rows of a
   256-row table whose other rows are zero) and the variance as E[pre^2] - mean^2.  Laws.lean proves the spellings agree
   on real inputs. -/
import Idealize.ShloMosaic.PureOps.Ideal
import Idealize.ShloMosaic.PureOps.Float
import Idealize.ShloMosaic.Lib.ValueIdx

noncomputable section

namespace Cert.Spec

open Idealize.ShloMosaic

/-- A matrix of extended reals. -/
abbrev Mat (a b : Nat) : Type := Fin a → Fin b → EReal

/-- An array of rank 2, of rank 1, and a one-column array of rank 2, read through their coordinates. -/
def mat {a b : Nat} (v : (⟨2, ![a, b]⟩ : Shape).Idx → EReal) : Mat a b := fun i j => v (ValueIdx.ix2 i j)
def vec {a : Nat} (v : (⟨1, ![a]⟩ : Shape).Idx → EReal) : Fin a → EReal := fun i => v (ValueIdx.ix1 i)
def col {a : Nat} (v : (⟨2, ![a, 1]⟩ : Shape).Idx → EReal) : Fin a → EReal := fun i => v (ValueIdx.ix2 i (0 : Fin 1))

/-- The float words both programs spell, read as extended reals: the row count 131072, the variance's epsilon, the
    rectifier's slope, one and zero. -/
abbrev cB : EReal := Ideal.ofBits .f32 0x48000000#32
abbrev cEps : EReal := Ideal.ofBits .f32 0x3727C5AC#32
abbrev cSlope : EReal := Ideal.ofBits .f32 0x3C23D70A#32
abbrev cOne : EReal := Ideal.ofBits .f32 0x3F800000#32
abbrev cZero : EReal := Ideal.ofBits .f32 0x00000000#32

/-- The joined input [x, h]: columns 0..127 are x's, columns 128..255 are h's. -/
def joined (x h : Mat 131072 128) : Mat 131072 256 := fun i k =>
  if hk : k.val < 128 then x i ⟨k.val, hk⟩ else h i ⟨k.val - 128, by have := k.isLt; omega⟩

/-- The backbone's pre-activation, two linear maps one after the other. -/
def pre (x h : Mat 131072 128) (W0 : Mat 256 128) (W1 : Mat 128 128) : Mat 131072 128 := fun i j =>
  ∑ l : Fin 128, (∑ k : Fin 256, joined x h i k * W0 k l) * W1 l j

/-- The upper and lower halves of W0. -/
def W0top (W0 : Mat 256 128) : Mat 128 128 := fun k l => W0 ⟨k.val, by have := k.isLt; omega⟩ l
def W0bot (W0 : Mat 256 128) : Mat 128 128 := fun k l => W0 ⟨128 + k.val, by have := k.isLt; omega⟩ l

/-- A plain product of two 128 x 128 matrices. -/
def mm (A B : Mat 128 128) : Mat 128 128 := fun k j => ∑ l : Fin 128, A k l * B l j

/-- The same pre-activation with the weights multiplied first and the joined input split. -/
def preFolded (x h : Mat 131072 128) (W0 : Mat 256 128) (W1 : Mat 128 128) : Mat 131072 128 := fun i j =>
  (∑ k : Fin 128, x i k * mm (W0top W0) W1 k j) + (∑ k : Fin 128, h i k * mm (W0bot W0) W1 k j)

/-- The batch mean and the biased variance of a column, as the reference spells them. -/
def mean (z : Mat 131072 128) : Fin 128 → EReal := fun j => Ideal.div (cZero + ∑ i : Fin 131072, z i j) cB
def var (z : Mat 131072 128) : Fin 128 → EReal := fun j =>
  Ideal.div (cZero + ∑ i : Fin 131072, (z i j - mean z j) * (z i j - mean z j)) cB

/-- The table of block sums: row 8 b holds the sum of block b's 4096 rows of `u`, every other row zero. -/
def blockRow (b : Fin 32) (q : Fin 4096) : Fin 131072 := ⟨4096 * b.val + q.val, by have := b.isLt; have := q.isLt; omega⟩
def blockTable (u : Mat 131072 128) : Mat 256 128 := fun r j =>
  if r.val % 8 = 0 then cZero + ∑ q : Fin 4096, u (blockRow ⟨r.val / 8, by have := r.isLt; omega⟩ q) j else cZero

/-- The statistics from the block tables: the mean from the table of sums, the variance as E[z^2] - mean^2. -/
def meanBlocks (z : Mat 131072 128) : Fin 128 → EReal := fun j =>
  Ideal.div (cZero + ∑ r : Fin 256, blockTable z r j) cB
def varBlocks (z : Mat 131072 128) : Fin 128 → EReal := fun j =>
  Ideal.div (cZero + ∑ r : Fin 256, blockTable (fun i j => z i j * z i j) r j) cB - meanBlocks z j * meanBlocks z j

/-- The leaky rectifier. -/
def lrelu (v : EReal) : EReal := Scalar.select (Ideal.cmp .ogt v cZero) v (cSlope * v)

/-- Normalised, scaled, shifted and rectified activations, from a pre-activation and its statistics. -/
def act (z : Mat 131072 128) (mu va gamma beta : Fin 128 → EReal) : Mat 131072 128 := fun i j =>
  lrelu ((z i j - mu j) * Ideal.rsqrt (va j + cEps) * gamma j + beta j)

/-- One dense head: a row of activations times a weight column, plus a bias. -/
def head (a : Mat 131072 128) (W : Mat 128 128) (b : Fin 128 → EReal) : Mat 131072 128 := fun i j =>
  (∑ k : Fin 128, a i k * W k j) + b j

/-- The gate, from the four heads of a row and the row's time. -/
def gate (g f hh tau t : EReal) : EReal :=
  Ideal.tanh hh * (cOne - Ideal.logistic ((tau + f) * t)) + Ideal.tanh g * Ideal.logistic ((tau + f) * t)

/-- Everything after the pre-activation and its statistics. -/
def tail (z : Mat 131072 128) (mu va : Fin 128 → EReal) (t : Fin 131072 → EReal) (gamma beta : Fin 128 → EReal)
    (Wg : Mat 128 128) (bg : Fin 128 → EReal) (Wf : Mat 128 128) (bf : Fin 128 → EReal)
    (Wh : Mat 128 128) (bh : Fin 128 → EReal) (Wt : Mat 128 128) (bt : Fin 128 → EReal) : Mat 131072 128 := fun i j =>
  gate (head (act z mu va gamma beta) Wg bg i j) (head (act z mu va gamma beta) Wf bf i j)
    (head (act z mu va gamma beta) Wh bh i j) (head (act z mu va gamma beta) Wt bt i j) (t i)

/-- The reference's result. -/
def out (x h : Mat 131072 128) (t : Fin 131072 → EReal) (W0 : Mat 256 128) (W1 : Mat 128 128) (gamma beta : Fin 128 → EReal)
    (Wg : Mat 128 128) (bg : Fin 128 → EReal) (Wf : Mat 128 128) (bf : Fin 128 → EReal)
    (Wh : Mat 128 128) (bh : Fin 128 → EReal) (Wt : Mat 128 128) (bt : Fin 128 → EReal) : Mat 131072 128 :=
  tail (pre x h W0 W1) (mean (pre x h W0 W1)) (var (pre x h W0 W1)) t gamma beta Wg bg Wf bf Wh bh Wt bt

/-- The kernel's result: the folded pre-activation and the statistics from the block tables. -/
def outBlocks (x h : Mat 131072 128) (t : Fin 131072 → EReal) (W0 : Mat 256 128) (W1 : Mat 128 128) (gamma beta : Fin 128 → EReal)
    (Wg : Mat 128 128) (bg : Fin 128 → EReal) (Wf : Mat 128 128) (bf : Fin 128 → EReal)
    (Wh : Mat 128 128) (bh : Fin 128 → EReal) (Wt : Mat 128 128) (bt : Fin 128 → EReal) : Mat 131072 128 :=
  tail (preFolded x h W0 W1) (meanBlocks (preFolded x h W0 W1)) (varBlocks (preFolded x h W0 W1)) t gamma beta
    Wg bg Wf bf Wh bh Wt bt

end Cert.Spec

end
-- ==== Proof.Forms.lean ====
/- Row-level forms shared by the two sides: one entry of the folded pre-activation from a block of x, a block of h and
   the two folded weight matrices; one row's rectified activations from the pre-activations and the four statistics
   rows; one head entry from a row of activations, the joined 128 x 512 weights and the joined bias row; and the gated
   output entry.  Stated for any number of rows, so that they serve a 2048- or 4096-row block and the 131072-row
   array alike. -/
import proofs.«126462_j38199439131313_2_alg».proof.Proof.Spec

noncomputable section

namespace Cert.Spec

open Idealize.ShloMosaic Idealize.ShloMosaic.ValueIdx

/-- x(p, .) A(., q) + h(p, .) B(., q). -/
def foldedAt {B : Nat} (X H : (⟨2, ![B, 128]⟩ : Shape).Idx → EReal) (A Bm : (⟨2, ![128, 128]⟩ : Shape).Idx → EReal)
    (p : Fin B) (q : Fin 128) : EReal :=
  (∑ k : Fin 128, X (ix2 p k) * A (ix2 k q)) + (∑ k : Fin 128, H (ix2 p k) * Bm (ix2 k q))

/-- Normalise with the mean row x2 and the scale row x3, scale by x4, shift by x5, rectify. -/
def rowAct {B : Nat} (x0 : (⟨2, ![B, 128]⟩ : Shape).Idx → EReal) (x2 x3 x4 x5 : (⟨2, ![1, 128]⟩ : Shape).Idx → EReal)
    (p : Fin B) (k : Fin 128) : EReal :=
  lrelu ((x0 (ix2 p k) - x2 (ix2 (0 : Fin 1) k)) * x3 (ix2 (0 : Fin 1) k) * x4 (ix2 (0 : Fin 1) k) + x5 (ix2 (0 : Fin 1) k))

/-- One entry of the fused head product plus its bias. -/
def headAt (a : Fin 128 → EReal) (x6 : (⟨2, ![128, 512]⟩ : Shape).Idx → EReal) (x7 : (⟨2, ![1, 512]⟩ : Shape).Idx → EReal)
    (cix : Fin 512) : EReal :=
  (∑ k : Fin 128, a k * x6 (ix2 k cix)) + x7 (ix2 (0 : Fin 1) cix)

/-- The gated output entry (p, q): heads g, f, hh, tau are columns q, 128 + q, 256 + q, 384 + q of the fused product. -/
def gateRow {B : Nat} (x0 : (⟨2, ![B, 128]⟩ : Shape).Idx → EReal) (x1 : (⟨2, ![B, 1]⟩ : Shape).Idx → EReal)
    (x2 x3 x4 x5 : (⟨2, ![1, 128]⟩ : Shape).Idx → EReal) (x6 : (⟨2, ![128, 512]⟩ : Shape).Idx → EReal)
    (x7 : (⟨2, ![1, 512]⟩ : Shape).Idx → EReal) (p : Fin B) (q : Fin 128) : EReal :=
  gate (headAt (rowAct x0 x2 x3 x4 x5 p) x6 x7 ⟨q.val, by have := q.isLt; omega⟩)
    (headAt (rowAct x0 x2 x3 x4 x5 p) x6 x7 ⟨128 + q.val, by have := q.isLt; omega⟩)
    (headAt (rowAct x0 x2 x3 x4 x5 p) x6 x7 ⟨256 + q.val, by have := q.isLt; omega⟩)
    (headAt (rowAct x0 x2 x3 x4 x5 p) x6 x7 ⟨384 + q.val, by have := q.isLt; omega⟩) (x1 (ix2 p (0 : Fin 1)))

end Cert.Spec

end
-- ==== Proof.KIVal0.lean ====
/- The first pallas_call's three result arrays after all 32 grid points, each as ONE function of the arrays the region is
   entered with: the pre-activations z(i, j) = x(i, .) A(., j) + h(i, .) B(., j) over all 131072 rows, and the two 256-row
   tables of block sums of z and of z^2 (row 8 b holds block b's column sums, every other row zero).  Point t writes back
   rows 4096 t .. 4096 t + 4095 of z and rows 8 t .. 8 t + 7 of each table; the blocks tile the arrays, so what the
   write-backs leave is the whole-array function.  At the exact extended reals. -/
import proofs.«126462_j38199439131313_2_alg».proof.Proof.KIRegion0
import proofs.«126462_j38199439131313_2_alg».proof.Proof.Forms
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec

variable (V : (c : Dev nD) → (b : Ref sig .tc) → Buf (Elt Ideal) ((c : Thread nD τ).loc b))

theorem hz00 : (![0, 0] : Fin 2 → Nat) = fun _ => 0 := funext fun a => by fin_cases a <;> rfl

/-- The seven windows' block indices at a grid point: x, h, z and the two tables move with the point along the rows;
    the two folded weight matrices stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Every block row of the grid is some point's. -/
theorem onto0 : ∀ b : Fin 32, ∃ t : Fin cfg0.N, t.val = b.val :=
  (by decide +kernel : ∀ b : Fin 32, ∃ t : Fin grid0.N, t.val = b.val)

theorem tlt0 (t : Fin cfg0.N) : t.val < 32 := Nat.lt_of_lt_of_eq t.isLt N_0

/-! ## The input windows' blocks, read at an entry -/

theorem blk0_0 (c : Dev nD) (t : Fin cfg0.N) (p : Fin 4096) (k : Fin 128) :
    iblk0 V c 0 t (ix2 p k) = (V c main_arg0 : S131072x128.Idx → EReal) (ix2 ⟨4096 * t.val + p.val, by have := tlt0 t; have := p.isLt; omega⟩ k) := by
  obtain ⟨e00, e01, -⟩ := idx0 t
  show (V c main_arg0 : S131072x128.Idx → EReal) (((cfg0.win 0).blk t).view.emb (ix2 p k)) = _
  refine congrArg _ (funext fun a => Fin.ext ?_)
  match a with
  | ⟨0, _⟩ => show win0_0.index t (0 : Fin 2) * 4096 + 1 * p.val = 4096 * t.val + p.val; omega
  | ⟨1, _⟩ => show win0_0.index t (1 : Fin 2) * 128 + 1 * k.val = k.val; omega

theorem blk0_1 (c : Dev nD) (t : Fin cfg0.N) (p : Fin 4096) (k : Fin 128) :
    iblk0 V c 1 t (ix2 p k) = (V c main_arg1 : S131072x128.Idx → EReal) (ix2 ⟨4096 * t.val + p.val, by have := tlt0 t; have := p.isLt; omega⟩ k) := by
  obtain ⟨-, -, e10, e11, -⟩ := idx0 t
  show (V c main_arg1 : S131072x128.Idx → EReal) (((cfg0.win 1).blk t).view.emb (ix2 p k)) = _
  refine congrArg _ (funext fun a => Fin.ext ?_)
  match a with
  | ⟨0, _⟩ => show win0_1.index t (0 : Fin 2) * 4096 + 1 * p.val = 4096 * t.val + p.val; omega
  | ⟨1, _⟩ => show win0_1.index t (1 : Fin 2) * 128 + 1 * k.val = k.val; omega

theorem blk0_2 (c : Dev nD) (t : Fin cfg0.N) (k : Fin 128) (q : Fin 128) :
    iblk0 V c 2 t (ix2 k q) = (V c main_v2 : S128x128.Idx → EReal) (ix2 k q) := by
  obtain ⟨-, -, -, -, e20, e21, -⟩ := idx0 t
  show (V c main_v2 : S128x128.Idx → EReal) (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem blk0_3 (c : Dev nD) (t : Fin cfg0.N) (k : Fin 128) (q : Fin 128) :
    iblk0 V c 3 t (ix2 k q) = (V c main_v3 : S128x128.Idx → EReal) (ix2 k q) := by
  obtain ⟨-, -, -, -, -, -, e30, e31, -⟩ := idx0 t
  show (V c main_v3 : S128x128.Idx → EReal) (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-! ## The whole-array functions -/

/-- The pre-activations over all rows, from the region-entry contents of x, h and the two folded weight matrices. -/
def zArr (c : Dev nD) : S131072x128.Idx → EReal := fun i =>
  foldedAt (B := 131072) (V c main_arg0 : S131072x128.Idx → EReal) (V c main_arg1 : S131072x128.Idx → EReal)
    (V c main_v2 : S128x128.Idx → EReal) (V c main_v3 : S128x128.Idx → EReal) (i 0) (i 1)

/-- The table of block sums of z, and of z squared. -/
def sumArr (c : Dev nD) : S256x128.Idx → EReal := fun i => blockTable (mat (zArr V c)) (i 0) (i 1)
def sqArr (c : Dev nD) : S256x128.Idx → EReal := fun i =>
  blockTable (fun a b => mat (zArr V c) a b * mat (zArr V c) a b) (i 0) (i 1)

/-- The folded pre-activation of point t's blocks at (p, q) is z at row 4096 t + p. -/
theorem folded_blk (c : Dev nD) (t : Fin cfg0.N) (p : Fin 4096) (q : Fin 128) :
    foldedAt (iblk0 V c 0 t) (iblk0 V c 1 t) (iblk0 V c 2 t) (iblk0 V c 3 t) p q
      = zArr V c (ix2 ⟨4096 * t.val + p.val, by have := tlt0 t; have := p.isLt; omega⟩ q) := by
  unfold zArr foldedAt
  simp only [blk0_0 V c t, blk0_1 V c t, blk0_2 V c t, blk0_3 V c t]

/-- Row 8 t + r of a table of block sums: block t's sums if r = 0, zero otherwise. -/
theorem blockTable_at (u : Mat 131072 128) (t : Fin 32) (r : Fin 8) (q : Fin 128) :
    blockTable u ⟨8 * t.val + r.val, by have := t.isLt; have := r.isLt; omega⟩ q
      = if r.val = 0 then cZero + ∑ p : Fin 4096, u (blockRow t p) q else cZero := by
  unfold blockTable
  have hm : (8 * t.val + r.val) % 8 = r.val := by have := r.isLt; omega
  have hd : (8 * t.val + r.val) / 8 = t.val := by have := r.isLt; omega
  by_cases hr : r.val = 0
  · rw [if_pos hr, if_pos (by show (8 * t.val + r.val) % 8 = 0; omega)]
    congr 1
    refine Finset.sum_congr rfl fun p _ => ?_
    congr 1
    unfold blockRow
    exact Fin.ext (by show 4096 * ((8 * t.val + r.val) / 8) + p.val = 4096 * t.val + p.val; rw [hd])
  · rw [if_neg hr, if_neg (by show ¬ (8 * t.val + r.val) % 8 = 0; omega)]

/-! ## What each point writes back -/

theorem flushed0_4
    (hpay1 : ∀ (x0 x1 : Vec Ideal S4096x128 .f32) (x2 x3 : Vec Ideal S128x128 .f32) (p : Fin 4096) (q : Fin 128),
      k0_pay1 (F := Ideal) x0 x1 x2 x3 (ix2 p q) = foldedAt x0 x1 x2 x3 p q)
    (c : Dev nD) (t : Fin cfg0.N) :
    (dat0 V c).flushed 4 t = ((cfg0.win 4).blk t).view.read (Elt Ideal) (zArr V c) := by
  show (cfg0.win 4).cut (grid0.coords t) ((dat0 V c).after 4 t) = _
  rw [after0_4]
  unfold out0_4
  rw [View.canon_unit_zero hz00]
  simp only [View.ld_unit_zero (S := S4096x128) hz00, View.ld_unit_zero (S := S128x128) hz00]
  funext y
  obtain ⟨p, q, rfl⟩ : ∃ (p : Fin 4096) (q : Fin 128), y = ix2 p q := ⟨y 0, y 1, eq_ix2 y⟩
  refine (hpay1 _ _ _ _ p q).trans ?_
  refine (folded_blk V c t p q).trans ?_
  obtain ⟨-, -, -, -, -, -, -, -, e40, e41, -⟩ := idx0 t
  show zArr V c _ = zArr V c (((cfg0.win 4).blk t).view.emb (ix2 p q))
  refine congrArg _ (funext fun a => Fin.ext ?_)
  match a with
  | ⟨0, _⟩ => show 4096 * t.val + p.val = win0_4.index t (0 : Fin 2) * 4096 + 1 * p.val; omega
  | ⟨1, _⟩ => show q.val = win0_4.index t (1 : Fin 2) * 128 + 1 * q.val; omega

theorem flushed0_5
    (hpay1 : ∀ (x0 x1 : Vec Ideal S4096x128 .f32) (x2 x3 : Vec Ideal S128x128 .f32) (p : Fin 4096) (q : Fin 128),
      k0_pay1 (F := Ideal) x0 x1 x2 x3 (ix2 p q) = foldedAt x0 x1 x2 x3 p q)
    (hpay3 : ∀ (x0 x1 : Vec Ideal S4096x128 .f32) (x2 x3 : Vec Ideal S128x128 .f32) (r : Fin 8) (q : Fin 128),
      k0_pay3 (F := Ideal) x0 x1 x2 x3 (ix2 r q) = if r.val = 0 then cZero + ∑ p : Fin 4096, k0_pay1 (F := Ideal) x0 x1 x2 x3 (ix2 p q) else cZero)
    (c : Dev nD) (t : Fin cfg0.N) :
    (dat0 V c).flushed 5 t = ((cfg0.win 5).blk t).view.read (Elt Ideal) (sumArr V c) := by
  show (cfg0.win 5).cut (grid0.coords t) ((dat0 V c).after 5 t) = _
  rw [after0_5]
  unfold out0_5
  rw [View.canon_unit_zero hz00]
  simp only [View.ld_unit_zero (S := S4096x128) hz00, View.ld_unit_zero (S := S128x128) hz00]
  funext y
  obtain ⟨r, q, rfl⟩ : ∃ (r : Fin 8) (q : Fin 128), y = ix2 r q := ⟨y 0, y 1, eq_ix2 y⟩
  refine (hpay3 _ _ _ _ r q).trans ?_
  obtain ⟨-, -, -, -, -, -, -, -, -, -, e50, e51, -⟩ := idx0 t
  have hemb : ((cfg0.win 5).blk t).view.emb (ix2 r q)
      = (ix2 (⟨8 * t.val + r.val, by have := tlt0 t; have := r.isLt; omega⟩ : Fin 256) q : S256x128.Idx) :=
    funext fun a => Fin.ext (by
      match a with
      | ⟨0, _⟩ => show win0_5.index t (0 : Fin 2) * 8 + 1 * r.val = 8 * t.val + r.val; omega
      | ⟨1, _⟩ => show win0_5.index t (1 : Fin 2) * 128 + 1 * q.val = q.val; omega)
  show _ = sumArr V c (((cfg0.win 5).blk t).view.emb (ix2 r q))
  rw [hemb]
  show _ = blockTable (mat (zArr V c)) ⟨8 * t.val + r.val, _⟩ q
  rw [blockTable_at (mat (zArr V c)) ⟨t.val, tlt0 t⟩ r q]
  refine if_congr Iff.rfl ?_ rfl
  congr 1
  refine Finset.sum_congr rfl fun p _ => ?_
  refine (hpay1 _ _ _ _ p q).trans ?_
  exact folded_blk V c t p q

theorem flushed0_6
    (hpay1 : ∀ (x0 x1 : Vec Ideal S4096x128 .f32) (x2 x3 : Vec Ideal S128x128 .f32) (p : Fin 4096) (q : Fin 128),
      k0_pay1 (F := Ideal) x0 x1 x2 x3 (ix2 p q) = foldedAt x0 x1 x2 x3 p q)
    (hpay4 : ∀ (x0 x1 : Vec Ideal S4096x128 .f32) (x2 x3 : Vec Ideal S128x128 .f32) (r : Fin 8) (q : Fin 128),
      k0_pay4 (F := Ideal) x0 x1 x2 x3 (ix2 r q) = if r.val = 0 then cZero + ∑ p : Fin 4096, k0_pay1 (F := Ideal) x0 x1 x2 x3 (ix2 p q) * k0_pay1 (F := Ideal) x0 x1 x2 x3 (ix2 p q) else cZero)
    (c : Dev nD) (t : Fin cfg0.N) :
    (dat0 V c).flushed 6 t = ((cfg0.win 6).blk t).view.read (Elt Ideal) (sqArr V c) := by
  show (cfg0.win 6).cut (grid0.coords t) ((dat0 V c).after 6 t) = _
  rw [after0_6]
  unfold out0_6
  rw [View.canon_unit_zero hz00]
  simp only [View.ld_unit_zero (S := S4096x128) hz00, View.ld_unit_zero (S := S128x128) hz00]
  funext y
  obtain ⟨r, q, rfl⟩ : ∃ (r : Fin 8) (q : Fin 128), y = ix2 r q := ⟨y 0, y 1, eq_ix2 y⟩
  refine (hpay4 _ _ _ _ r q).trans ?_
  obtain ⟨-, -, -, -, -, -, -, -, -, -, -, -, e60, e61⟩ := idx0 t
  have hemb : ((cfg0.win 6).blk t).view.emb (ix2 r q)
      = (ix2 (⟨8 * t.val + r.val, by have := tlt0 t; have := r.isLt; omega⟩ : Fin 256) q : S256x128.Idx) :=
    funext fun a => Fin.ext (by
      match a with
      | ⟨0, _⟩ => show win0_6.index t (0 : Fin 2) * 8 + 1 * r.val = 8 * t.val + r.val; omega
      | ⟨1, _⟩ => show win0_6.index t (1 : Fin 2) * 128 + 1 * q.val = q.val; omega)
  show _ = sqArr V c (((cfg0.win 6).blk t).view.emb (ix2 r q))
  rw [hemb]
  show _ = blockTable (fun a b => mat (zArr V c) a b * mat (zArr V c) a b) ⟨8 * t.val + r.val, _⟩ q
  rw [blockTable_at _ ⟨t.val, tlt0 t⟩ r q]
  refine if_congr Iff.rfl ?_ rfl
  congr 1
  refine Finset.sum_congr rfl fun p _ => ?_
  have e := (hpay1 (iblk0 V c 0 t) (iblk0 V c 1 t) (iblk0 V c 2 t) (iblk0 V c 3 t) p q).trans (folded_blk V c t p q)
  rw [e]
  rfl

/-! ## The blocks tile the arrays -/

theorem mem_blk0_4 (t : Fin cfg0.N) (i : S131072x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v4_0).slice (win0_4.rect t)).set ↔ _
  rw [View.set_slice_whole, Rect.mem_set_unit]
  exact Iff.rfl
theorem mem_blk0_5 (t : Fin cfg0.N) (i : S256x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v4_1).slice (win0_5.rect t)).set ↔ _
  rw [View.set_slice_whole, Rect.mem_set_unit]
  exact Iff.rfl
theorem mem_blk0_6 (t : Fin cfg0.N) (i : S256x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v4_2).slice (win0_6.rect t)).set ↔ _
  rw [View.set_slice_whole, Rect.mem_set_unit]
  exact Iff.rfl

theorem cover0_4' (i : S131072x128.Idx) : ∃ t : Fin cfg0.N, (cfg0.win 4).flush t = true ∧ i ∈ ((cfg0.win 4).blk t).view.set := by
  have hi0 : (i 0).val < 131072 := (i 0).isLt
  have hi1 : (i 1).val < 128 := (i 1).isLt
  obtain ⟨t, ht⟩ := onto0 ⟨(i 0).val / 4096, by omega⟩
  have ht' : t.val = (i 0).val / 4096 := ht
  obtain ⟨-, -, -, -, -, -, -, -, e40, e41, -⟩ := idx0 t
  refine ⟨t, flush0_4 t, ?_⟩
  rw [mem_blk0_4]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

theorem cover0_5' (i : S256x128.Idx) : ∃ t : Fin cfg0.N, (cfg0.win 5).flush t = true ∧ i ∈ ((cfg0.win 5).blk t).view.set := by
  have hi0 : (i 0).val < 256 := (i 0).isLt
  have hi1 : (i 1).val < 128 := (i 1).isLt
  obtain ⟨t, ht⟩ := onto0 ⟨(i 0).val / 8, by omega⟩
  have ht' : t.val = (i 0).val / 8 := ht
  obtain ⟨-, -, -, -, -, -, -, -, -, -, e50, e51, -⟩ := idx0 t
  refine ⟨t, flush0_5 t, ?_⟩
  rw [mem_blk0_5]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 128 ≤ (i 1).val ∧ (i 1).val < win0_5.index t (1 : Fin 2) * 128 + 128; omega

theorem cover0_6' (i : S256x128.Idx) : ∃ t : Fin cfg0.N, (cfg0.win 6).flush t = true ∧ i ∈ ((cfg0.win 6).blk t).view.set := by
  have hi0 : (i 0).val < 256 := (i 0).isLt
  have hi1 : (i 1).val < 128 := (i 1).isLt
  obtain ⟨t, ht⟩ := onto0 ⟨(i 0).val / 8, by omega⟩
  have ht' : t.val = (i 0).val / 8 := ht
  obtain ⟨-, -, -, -, -, -, -, -, -, -, -, -, e60, e61⟩ := idx0 t
  refine ⟨t, flush0_6 t, ?_⟩
  rw [mem_blk0_6]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 128 ≤ (i 1).val ∧ (i 1).val < win0_6.index t (1 : Fin 2) * 128 + 128; omega

/-! ## The three arrays after the region -/

theorem final0_4
    (hpay1 : ∀ (x0 x1 : Vec Ideal S4096x128 .f32) (x2 x3 : Vec Ideal S128x128 .f32) (p : Fin 4096) (q : Fin 128),
      k0_pay1 (F := Ideal) x0 x1 x2 x3 (ix2 p q) = foldedAt x0 x1 x2 x3 p q)
    (c : Dev nD) : (dat0 V c).arrAt 4 cfg0.N = zArr V c :=
  (dat0 V c).arrAt_eq_of_cover 4 (zArr V c) (fun t _ => flushed0_4 V hpay1 c t) (cover0_4')

theorem final0_5
    (hpay1 : ∀ (x0 x1 : Vec Ideal S4096x128 .f32) (x2 x3 : Vec Ideal S128x128 .f32) (p : Fin 4096) (q : Fin 128),
      k0_pay1 (F := Ideal) x0 x1 x2 x3 (ix2 p q) = foldedAt x0 x1 x2 x3 p q)
    (hpay3 : ∀ (x0 x1 : Vec Ideal S4096x128 .f32) (x2 x3 : Vec Ideal S128x128 .f32) (r : Fin 8) (q : Fin 128),
      k0_pay3 (F := Ideal) x0 x1 x2 x3 (ix2 r q) = if r.val = 0 then cZero + ∑ p : Fin 4096, k0_pay1 (F := Ideal) x0 x1 x2 x3 (ix2 p q) else cZero)
    (c : Dev nD) : (dat0 V c).arrAt 5 cfg0.N = sumArr V c :=
  (dat0 V c).arrAt_eq_of_cover 5 (sumArr V c) (fun t _ => flushed0_5 V hpay1 hpay3 c t) (cover0_5')

theorem final0_6
    (hpay1 : ∀ (x0 x1 : Vec Ideal S4096x128 .f32) (x2 x3 : Vec Ideal S128x128 .f32) (p : Fin 4096) (q : Fin 128),
      k0_pay1 (F := Ideal) x0 x1 x2 x3 (ix2 p q) = foldedAt x0 x1 x2 x3 p q)
    (hpay4 : ∀ (x0 x1 : Vec Ideal S4096x128 .f32) (x2 x3 : Vec Ideal S128x128 .f32) (r : Fin 8) (q : Fin 128),
      k0_pay4 (F := Ideal) x0 x1 x2 x3 (ix2 r q) = if r.val = 0 then cZero + ∑ p : Fin 4096, k0_pay1 (F := Ideal) x0 x1 x2 x3 (ix2 p q) * k0_pay1 (F := Ideal) x0 x1 x2 x3 (ix2 p q) else cZero)
    (c : Dev nD) : (dat0 V c).arrAt 6 cfg0.N = sqArr V c :=
  (dat0 V c).arrAt_eq_of_cover 6 (sqArr V c) (fun t _ => flushed0_6 V hpay1 hpay4 c t) (cover0_6')

end Cert.KernelIdeal.Frm

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.KIPay.lean ====
/-
  The two kernels' arithmetic read at one entry, at the exact extended reals.

  Each kernel body computes a few arrays from the blocks it loads.  Here every such array is read at explicit
  coordinates (row, column): the first kernel's block of pre-activations is a sum of two plain matrix products; its two
  statistics blocks hold, in row 0, the column sums of the pre-activations and of their squares and are zero elsewhere;
  the second kernel normalises, scales, shifts and rectifies a row, takes one 128 x 512 product plus a bias row (four
  dense heads side by side), and gates the four heads of the row with the row's time.
-/
import proofs.«126462_j38199439131313_2_alg».proof.Proof.Gen.KernelIdeal.Skeleton
import proofs.«126462_j38199439131313_2_alg».proof.Proof.Spec
import proofs.«126462_j38199439131313_2_alg».proof.Proof.Forms
import proofs.«126462_j38199439131313_2_alg».proof.Proof.LibPlainMatmul
import proofs.«126462_j38199439131313_2_alg».proof.Proof.LibRowBias
import proofs.«126462_j38199439131313_2_alg».proof.Proof.LibRowLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Spec

/-! ## The first kernel's product record: how it places the coordinates -/

theorem dotA_l0 (j : S4096x128.Idx) (q : dot_S4096x128_S128x128_S4096x128_1_0_0_1_n_n.contr.Idx) :
    (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

theorem dotA_l1 (j : S4096x128.Idx) (q : dot_S4096x128_S128x128_S4096x128_1_0_0_1_n_n.contr.Idx) :
    (dot_S4096x128_S128x128_S4096x128_1_0_0_1_n_n.lhsIdx j q 1).val = (q ⟨0, by decide⟩).val :=
  dot_S4096x128_S128x128_S4096x128_1_0_0_1_n_n.lhsIdx_val_of_single rfl j q

theorem dotA_r0 (j : S4096x128.Idx) (q : dot_S4096x128_S128x128_S4096x128_1_0_0_1_n_n.contr.Idx) :
    (dot_S4096x128_S128x128_S4096x128_1_0_0_1_n_n.rhsIdx j q 0).val = (q ⟨0, by decide⟩).val :=
  dot_S4096x128_S128x128_S4096x128_1_0_0_1_n_n.rhsIdx_val_of_single rfl j q

theorem dotA_r1 (j : S4096x128.Idx) (q : dot_S4096x128_S128x128_S4096x128_1_0_0_1_n_n.contr.Idx) :
    (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- A 4096 x 128 by 128 x 128 product into the zero accumulator, at entry (p, q). -/
theorem mmA_apply {φ₁ φ₂ : FTy} (l : FVec Ideal S4096x128 φ₁) (r : FVec Ideal S128x128 φ₂) (p : Fin 4096) (q : Fin 128) :
    matmul dot_S4096x128_S128x128_S4096x128_1_0_0_1_n_n none l r (constant (F := Ideal) S4096x128 .f32 0x00000000#32) (ix2 p q)
      = ∑ k : Fin 128, l (ix2 p k) * r (ix2 k q) :=
  Cert.PlainMatmul.matmul_zero_apply dot_S4096x128_S128x128_S4096x128_1_0_0_1_n_n rfl rfl dotA_l0 dotA_l1 dotA_r0 dotA_r1 none l r p q

/-! ## The first kernel -/

/-- The block of pre-activations at (p, q): the two halves of the joined input, each times its folded weight. -/
theorem pay1_apply (x0 x1 : Vec Ideal S4096x128 .f32) (x2 x3 : Vec Ideal S128x128 .f32) (p : Fin 4096) (q : Fin 128) :
    k0_pay1 (F := Ideal) x0 x1 x2 x3 (ix2 p q)
      = foldedAt x0 x1 x2 x3 p q := by
  unfold Gen.k0_pay1 foldedAt
  refine congrArg₂ (· + ·) ?_ ?_
  · refine (mmA_apply _ _ p q).trans ?_
    refine Finset.sum_congr rfl fun k _ => ?_
    rw [shapeCast_self]
    rfl
  · refine (mmA_apply _ _ p q).trans ?_
    refine Finset.sum_congr rfl fun k _ => ?_
    rw [shapeCast_self]
    rfl

/-- The zero word is the number zero: adding it changes nothing. -/
theorem cZero_add (s : EReal) : cZero + s = s := by
  rw [show cZero = 0 from Ideal.ofBits_zero_f32, zero_add]

/-- A select on "row number `h` is 0", `h` below 8, is the `if` on `h`. -/
theorem select_row0 {α : Type} (h : Nat) (hh : h < 8) (A B : α) :
    Scalar.select (IntOp.cmpi .eq (BitVec.ofNat 32 h) 0#32) A B = if h = 0 then A else B := by
  interval_cases h <;> rfl

/-- The mask of the statistics blocks at (r, q): "the row number is 0". -/
theorem mask_apply (r : Fin 8) (q : Fin 128) : k0_pay2 (ix2 r q) = IntOp.cmpi .eq (BitVec.ofNat 32 r.val) 0#32 := by
  unfold Gen.k0_pay2
  refine congrArg (fun w => IntOp.cmpi .eq w 0#32) ?_
  exact iota_single_apply .tc S8x128 32 0 iota_S8x128_d0_w32 (ix2 r q)

/-- The sum down the 4096 rows of a block, at column q. -/
theorem colSum_apply (v : FVec Ideal S4096x128 .f32) (hφ : FKind.Formats .f32)
    (hacc : (0x00000000#32 : BitVec 32) = FKind.add.neutral .f32 hφ) (q : Fin 128) :
    multiReduction .add [0] S128 v 0x00000000#32 reduces_S4096x128_S128 hφ hacc (ix1 q) = ∑ p : Fin 4096, v (ix2 p q) := by
  refine (Ideal.multiReduction_add_single v 0x00000000#32 reduces_S4096x128_S128 hφ hacc (ix1 q)).trans ?_
  refine Finset.sum_congr rfl fun k _ => ?_
  exact congrArg v (funext fun a => Fin.ext (by match a with | ⟨0, _⟩ => rfl | ⟨1, _⟩ => rfl))

/-- A statistics block at (r, q): the column sum of `v` in row 0, zero in the other rows. -/
theorem statBlock_apply (v : FVec Ideal S4096x128 .f32) (hφ : FKind.Formats .f32)
    (hacc : (0x00000000#32 : BitVec 32) = FKind.add.neutral .f32 hφ) (r : Fin 8) (q : Fin 128) :
    select k0_pay2
        (broadcastTo S8x128 (shapeCast S1x128 (shapeCast S1x128
          (multiReduction .add [0] S128 v 0x00000000#32 reduces_S4096x128_S128 hφ hacc) shapeCasts_S128_S1x128)
          shapeCasts_S1x128_S1x128) broadcasts_S1x128_S8x128)
        (broadcast S8x128 (Scalar.ofBits (F := Ideal) .f32 0x00000000#32)) (ix2 r q)
      = if r.val = 0 then cZero + ∑ p : Fin 4096, v (ix2 p q) else cZero := by
  refine (select_apply _ _ _ (ix2 r q)).trans ?_
  rw [mask_apply, select_row0 _ r.isLt]
  by_cases hr : r.val = 0
  · rw [if_pos hr, if_pos hr]
    refine (Cert.RowBias.bcastRow_apply _ broadcasts_S1x128_S8x128 r q).trans ?_
    rw [shapeCast_self]
    refine (Cert.RowBias.castRow_apply _ shapeCasts_S128_S1x128 q).trans ?_
    refine (colSum_apply v hφ hacc q).trans ?_
    exact (cZero_add _).symm
  · rw [if_neg hr, if_neg hr]
    rfl

/-- The block of column sums of the pre-activations: row 0 holds the sums, the other rows zero. -/
theorem pay3_apply (x0 x1 : Vec Ideal S4096x128 .f32) (x2 x3 : Vec Ideal S128x128 .f32) (r : Fin 8) (q : Fin 128) :
    k0_pay3 (F := Ideal) x0 x1 x2 x3 (ix2 r q)
      = if r.val = 0 then cZero + ∑ p : Fin 4096, k0_pay1 (F := Ideal) x0 x1 x2 x3 (ix2 p q) else cZero := by
  unfold Gen.k0_pay3
  exact statBlock_apply (k0_pay1 (F := Ideal) x0 x1 x2 x3) _ _ r q

/-- The block of column sums of the squared pre-activations. -/
theorem pay4_apply (x0 x1 : Vec Ideal S4096x128 .f32) (x2 x3 : Vec Ideal S128x128 .f32) (r : Fin 8) (q : Fin 128) :
    k0_pay4 (F := Ideal) x0 x1 x2 x3 (ix2 r q)
      = if r.val = 0 then cZero + ∑ p : Fin 4096,
          k0_pay1 (F := Ideal) x0 x1 x2 x3 (ix2 p q) * k0_pay1 (F := Ideal) x0 x1 x2 x3 (ix2 p q) else cZero := by
  unfold Gen.k0_pay4
  exact statBlock_apply (mulf (k0_pay1 (F := Ideal) x0 x1 x2 x3) (k0_pay1 (F := Ideal) x0 x1 x2 x3)) _ _ r q

end Cert.KernelIdeal.Pay

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.KIHost0.lean ====
/- The kernel program's host operations before and between its two custom calls, each read at one entry at the exact
   extended reals: the two halves of W0 multiplied by W1, the column sums of a 256-row table, and the rows of mean,
   reciprocal standard deviation, scale and shift handed to the second call. Pure statements over variables. -/
import proofs.«126462_j38199439131313_2_alg».proof.Proof.Gen.KernelIdeal
import proofs.«126462_j38199439131313_2_alg».proof.Proof.Spec
import proofs.«126462_j38199439131313_2_alg».proof.Proof.LibHostRowOps
import proofs.«126462_j38199439131313_2_alg».proof.Proof.LibRowBias
import Idealize.ShloMosaic.Lib.Pipeline.Value
import Idealize.ShloMosaic.Lib.ValueIdx
import Idealize.ShloMosaic.PureOps.Ideal.Laws

noncomputable section

open scoped BigOperators

namespace Cert.KernelIdeal.HostRead

open Cert.KernelIdeal Cert.KernelIdeal.Gen Idealize.ShloMosaic Idealize.ShloMosaic.ValueIdx Cert.Spec

/-! ## The product of two 128 x 128 matrices: where the record places the coordinates -/

theorem dot_l0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl
theorem dot_l1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem dot_r0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem dot_r1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl

/-- Entry (k, j) of the host's product of two 128 x 128 matrices. -/
theorem dot_apply (l r : S128x128.Idx → EReal) (k j : Fin 128) :
    Host.dotGeneral (F := Ideal) (φ₁ := .f32) (φ₂ := .f32) dot_S128x128_S128x128_S128x128_1_0_0_1_n_n none l r (ix2 k j) = ∑ m : Fin 128, l (ix2 k m) * r (ix2 m j) :=
  Cert.HostRowOps.hostDot_apply (M := 128) (K := 128) (N := 128) (φ₁ := .f32) (φ₂ := .f32) dot_S128x128_S128x128_S128x128_1_0_0_1_n_n rfl rfl
    dot_l0 dot_l1 dot_r0 dot_r1 none l r k j

/-- The upper half of W0 times W1. -/
theorem foldW_top (a3 : S256x128.Idx → EReal) (a4 : S128x128.Idx → EReal) (k j : Fin 128) :
    Host.dotGeneral (F := Ideal) (φ₁ := .f32) (φ₂ := .f32) dot_S128x128_S128x128_S128x128_1_0_0_1_n_n none
        (extractStridedSlice S128x128 ![0, 0] a3 slices_S256x128_S128x128_0_0) a4 (ix2 k j)
      = mm (W0top (mat a3)) (mat a4) k j := by
  rw [dot_apply]
  unfold mm
  refine Finset.sum_congr rfl fun l _ => ?_
  rw [extractStridedSlice_apply ![0, 0] a3 slices_S256x128_S128x128_0_0 (ix2 k l)
    (ix2 (⟨k.val, by have := k.isLt; omega⟩ : Fin 256) l) (fun a => by
      match a with
      | ⟨0, _⟩ => show k.val = 0 + k.val; omega
      | ⟨1, _⟩ => show l.val = 0 + l.val; omega)]
  rfl

/-- The lower half of W0 times W1. -/
theorem foldW_bot (a3 : S256x128.Idx → EReal) (a4 : S128x128.Idx → EReal) (k j : Fin 128) :
    Host.dotGeneral (F := Ideal) (φ₁ := .f32) (φ₂ := .f32) dot_S128x128_S128x128_S128x128_1_0_0_1_n_n none
        (extractStridedSlice S128x128 ![128, 0] a3 slices_S256x128_S128x128_128_0) a4 (ix2 k j)
      = mm (W0bot (mat a3)) (mat a4) k j := by
  rw [dot_apply]
  unfold mm
  refine Finset.sum_congr rfl fun l _ => ?_
  rw [extractStridedSlice_apply ![128, 0] a3 slices_S256x128_S128x128_128_0 (ix2 k l)
    (ix2 (⟨128 + k.val, by have := k.isLt; omega⟩ : Fin 256) l) (fun a => by
      match a with
      | ⟨0, _⟩ => show 128 + k.val = 128 + k.val; rfl
      | ⟨1, _⟩ => show l.val = 0 + l.val; omega)]
  rfl

/-! ## The column sums of a 256-row table and the statistics' rows -/

/-- The host's sum over the 256 rows of a table, column j: the initial zero plus the sum of the column's entries. -/
theorem colSum_apply (s : S256x128.Idx → EReal) (j : Fin 128) :
    Host.reduceAdd (F := Ideal) s (constant (F := Ideal) S_ .f32 0x00000000#32) reducesTo_S256x128_S128_d0 h_S_ (ix1 j)
      = cZero + ∑ r : Fin 256, s (ix2 r j) := by
  simp only [Host.reduceAdd, Ideal.hostReduceAdd_def]
  rw [Ideal.hostReduceAdd_single reducesTo_S256x128_S128_d0 (by decide)]
  refine congrArg₂ (· + ·) rfl (Finset.sum_congr rfl fun k _ => ?_)
  exact congrArg s (funext fun a => Fin.ext (by match a with | ⟨0, _⟩ => rfl | ⟨1, _⟩ => rfl))

/-- A column's sum over the table's rows divided by the row count. -/
abbrev M (s : S256x128.Idx → EReal) (j : Fin 128) : EReal := Ideal.div (cZero + ∑ r : Fin 256, s (ix2 r j)) cB

/-- The vector of column sums divided by the row count, as the program spells it. -/
abbrev meanV (s : S256x128.Idx → EReal) : S128.Idx → EReal :=
  Host.divf (F := Ideal) (φ := .f32)
    (Host.reduceAdd (F := Ideal) s (constant (F := Ideal) S_ .f32 0x00000000#32) reducesTo_S256x128_S128_d0 h_S_)
    (broadcastInDim S128 ![] bcast_S_S128 (constant (F := Ideal) S_ .f32 0x48000000#32))

/-- The vector of reciprocal standard deviations, as the program spells it: from the table of sums s1 and the table
    of sums of squares s2, the reciprocal square root of E[z^2] - mean^2 + epsilon. -/
abbrev rstdV (s1 s2 : S256x128.Idx → EReal) : S128.Idx → EReal :=
  Host.rsqrt (F := Ideal) (φ := .f32)
    (addf (F := Ideal) (φ := .f32)
      (subf (F := Ideal) (φ := .f32) (meanV s2) (mulf (F := Ideal) (φ := .f32) (meanV s1) (meanV s1)))
      (broadcastInDim S128 ![] bcast_S_S128 (constant (F := Ideal) S_ .f32 0x3727C5AC#32)))

theorem meanV_apply (s : S256x128.Idx → EReal) (j : Fin 128) : meanV s (ix1 j) = M s j := by
  show Ideal.div (Host.reduceAdd (F := Ideal) s (constant (F := Ideal) S_ .f32 0x00000000#32)
    reducesTo_S256x128_S128_d0 h_S_ (ix1 j)) _ = _
  rw [colSum_apply]
  rfl

theorem rstdV_apply (s1 s2 : S256x128.Idx → EReal) (j : Fin 128) :
    rstdV s1 s2 (ix1 j) = Ideal.rsqrt ((M s2 j - M s1 j * M s1 j) + cEps) := by
  show Ideal.rsqrt ((meanV s2 (ix1 j) - meanV s1 (ix1 j) * meanV s1 (ix1 j)) + _) = _
  rw [meanV_apply, meanV_apply]
  rfl

/-- The row of means handed to the second call, lane j. -/
theorem meanRow_apply (s1 : S256x128.Idx → EReal) (j : Fin 128) :
    shapeCast S1x128 (meanV s1) shapeCasts_S128_S1x128 (ix2 (0 : Fin 1) j) = M s1 j :=
  (Cert.RowBias.castRow_apply (meanV s1) shapeCasts_S128_S1x128 j).trans (meanV_apply s1 j)

/-- The row of reciprocal standard deviations handed to the second call, lane j. -/
theorem scaleRow_apply (s1 s2 : S256x128.Idx → EReal) (j : Fin 128) :
    shapeCast S1x128 (rstdV s1 s2) shapeCasts_S128_S1x128 (ix2 (0 : Fin 1) j)
      = Ideal.rsqrt ((M s2 j - M s1 j * M s1 j) + cEps) :=
  (Cert.RowBias.castRow_apply (rstdV s1 s2) shapeCasts_S128_S1x128 j).trans (rstdV_apply s1 s2 j)

/-- A vector cast to a single row, lane j. -/
theorem plainRow_apply (a : S128.Idx → EReal) (j : Fin 128) :
    shapeCast S1x128 a shapeCasts_S128_S1x128 (ix2 (0 : Fin 1) j) = a (ix1 j) :=
  Cert.RowBias.castRow_apply a shapeCasts_S128_S1x128 j

end Cert.KernelIdeal.HostRead

end
-- ==== Proof.KIHost1.lean ====
/- The kernel program's host operations that join the four heads' weights into one 128 x 512 matrix and the four
   heads' biases into one row of 512, each read at one entry. Pure statements over variables. -/
import proofs.«126462_j38199439131313_2_alg».proof.Proof.Gen.KernelIdeal
import proofs.«126462_j38199439131313_2_alg».proof.Proof.LibRowBias
import Idealize.ShloMosaic.Lib.Pipeline.Value
import Idealize.ShloMosaic.Lib.ValueIdx

noncomputable section

namespace Cert.KernelIdeal.HostRead

open Cert.KernelIdeal Cert.KernelIdeal.Gen Idealize.ShloMosaic Idealize.ShloMosaic.ValueIdx

/-! ## The joined weights: columns 128 n .. 128 n + 127 are the n-th head's -/

theorem whead_0 (a7 a9 a11 a13 : S128x128.Idx → EReal) (k q : Fin 128) :
    concatenate S128x512 1 [⟨S128x128, a7⟩, ⟨S128x128, a9⟩, ⟨S128x128, a11⟩, ⟨S128x128, a13⟩] concatenates_S128x128_S128x128_S128x128_S128x128_S128x512_d1
        (ix2 k (⟨q.val, by have := q.isLt; omega⟩ : Fin 512)) = a7 (ix2 k q) :=
  concatenate_apply_piece (t := S128x512) 1 [⟨S128x128, a7⟩, ⟨S128x128, a9⟩, ⟨S128x128, a11⟩, ⟨S128x128, a13⟩] concatenates_S128x128_S128x128_S128x128_S128x128_S128x512_d1
    (ix2 k (⟨q.val, by have := q.isLt; omega⟩ : Fin 512)) 0 (by simp) S128x128 a7 rfl rfl 0 rfl (ix2 k q)
    (fun b hb => by
      match b with
      | ⟨0, _⟩ => rfl
      | ⟨1, _⟩ => exact absurd rfl hb)
    (by show 0 + q.val = q.val; omega)

theorem whead_1 (a7 a9 a11 a13 : S128x128.Idx → EReal) (k q : Fin 128) :
    concatenate S128x512 1 [⟨S128x128, a7⟩, ⟨S128x128, a9⟩, ⟨S128x128, a11⟩, ⟨S128x128, a13⟩] concatenates_S128x128_S128x128_S128x128_S128x128_S128x512_d1
        (ix2 k (⟨128 + q.val, by have := q.isLt; omega⟩ : Fin 512)) = a9 (ix2 k q) :=
  concatenate_apply_piece (t := S128x512) 1 [⟨S128x128, a7⟩, ⟨S128x128, a9⟩, ⟨S128x128, a11⟩, ⟨S128x128, a13⟩] concatenates_S128x128_S128x128_S128x128_S128x128_S128x512_d1
    (ix2 k (⟨128 + q.val, by have := q.isLt; omega⟩ : Fin 512)) 1 (by simp) S128x128 a9 rfl rfl 128 rfl (ix2 k q)
    (fun b hb => by
      match b with
      | ⟨0, _⟩ => rfl
      | ⟨1, _⟩ => exact absurd rfl hb)
    (by show 128 + q.val = 128 + q.val; omega)

theorem whead_2 (a7 a9 a11 a13 : S128x128.Idx → EReal) (k q : Fin 128) :
    concatenate S128x512 1 [⟨S128x128, a7⟩, ⟨S128x128, a9⟩, ⟨S128x128, a11⟩, ⟨S128x128, a13⟩] concatenates_S128x128_S128x128_S128x128_S128x128_S128x512_d1
        (ix2 k (⟨256 + q.val, by have := q.isLt; omega⟩ : Fin 512)) = a11 (ix2 k q) :=
  concatenate_apply_piece (t := S128x512) 1 [⟨S128x128, a7⟩, ⟨S128x128, a9⟩, ⟨S128x128, a11⟩, ⟨S128x128, a13⟩] concatenates_S128x128_S128x128_S128x128_S128x128_S128x512_d1
    (ix2 k (⟨256 + q.val, by have := q.isLt; omega⟩ : Fin 512)) 2 (by simp) S128x128 a11 rfl rfl 256 rfl (ix2 k q)
    (fun b hb => by
      match b with
      | ⟨0, _⟩ => rfl
      | ⟨1, _⟩ => exact absurd rfl hb)
    (by show 256 + q.val = 256 + q.val; omega)

theorem whead_3 (a7 a9 a11 a13 : S128x128.Idx → EReal) (k q : Fin 128) :
    concatenate S128x512 1 [⟨S128x128, a7⟩, ⟨S128x128, a9⟩, ⟨S128x128, a11⟩, ⟨S128x128, a13⟩] concatenates_S128x128_S128x128_S128x128_S128x128_S128x512_d1
        (ix2 k (⟨384 + q.val, by have := q.isLt; omega⟩ : Fin 512)) = a13 (ix2 k q) :=
  concatenate_apply_piece (t := S128x512) 1 [⟨S128x128, a7⟩, ⟨S128x128, a9⟩, ⟨S128x128, a11⟩, ⟨S128x128, a13⟩] concatenates_S128x128_S128x128_S128x128_S128x128_S128x512_d1
    (ix2 k (⟨384 + q.val, by have := q.isLt; omega⟩ : Fin 512)) 3 (by simp) S128x128 a13 rfl rfl 384 rfl (ix2 k q)
    (fun b hb => by
      match b with
      | ⟨0, _⟩ => rfl
      | ⟨1, _⟩ => exact absurd rfl hb)
    (by show 384 + q.val = 384 + q.val; omega)

/-! ## The joined bias row: lanes 128 n .. 128 n + 127 are the n-th head's -/

theorem bcat_0 (a8 a10 a12 a14 : S128.Idx → EReal) (q : Fin 128) :
    concatenate S512 0 [⟨S128, a8⟩, ⟨S128, a10⟩, ⟨S128, a12⟩, ⟨S128, a14⟩] concatenates_S128_S128_S128_S128_S512_d0
        (ix1 (⟨q.val, by have := q.isLt; omega⟩ : Fin 512)) = a8 (ix1 q) :=
  concatenate_apply_piece (t := S512) 0 [⟨S128, a8⟩, ⟨S128, a10⟩, ⟨S128, a12⟩, ⟨S128, a14⟩] concatenates_S128_S128_S128_S128_S512_d0
    (ix1 (⟨q.val, by have := q.isLt; omega⟩ : Fin 512)) 0 (by simp) S128 a8 rfl rfl 0 rfl (ix1 q)
    (fun b hb => by
      match b with
      | ⟨0, _⟩ => exact absurd rfl hb)
    (by show 0 + q.val = q.val; omega)

theorem bhead_0 (a8 a10 a12 a14 : S128.Idx → EReal) (q : Fin 128) :
    shapeCast S1x512 (concatenate S512 0 [⟨S128, a8⟩, ⟨S128, a10⟩, ⟨S128, a12⟩, ⟨S128, a14⟩] concatenates_S128_S128_S128_S128_S512_d0)
        shapeCasts_S512_S1x512 (ix2 (0 : Fin 1) (⟨q.val, by have := q.isLt; omega⟩ : Fin 512)) = a8 (ix1 q) :=
  (Cert.RowBias.castRow_apply _ shapeCasts_S512_S1x512 _).trans (bcat_0 a8 a10 a12 a14 q)

theorem bcat_1 (a8 a10 a12 a14 : S128.Idx → EReal) (q : Fin 128) :
    concatenate S512 0 [⟨S128, a8⟩, ⟨S128, a10⟩, ⟨S128, a12⟩, ⟨S128, a14⟩] concatenates_S128_S128_S128_S128_S512_d0
        (ix1 (⟨128 + q.val, by have := q.isLt; omega⟩ : Fin 512)) = a10 (ix1 q) :=
  concatenate_apply_piece (t := S512) 0 [⟨S128, a8⟩, ⟨S128, a10⟩, ⟨S128, a12⟩, ⟨S128, a14⟩] concatenates_S128_S128_S128_S128_S512_d0
    (ix1 (⟨128 + q.val, by have := q.isLt; omega⟩ : Fin 512)) 1 (by simp) S128 a10 rfl rfl 128 rfl (ix1 q)
    (fun b hb => by
      match b with
      | ⟨0, _⟩ => exact absurd rfl hb)
    (by show 128 + q.val = 128 + q.val; omega)

theorem bhead_1 (a8 a10 a12 a14 : S128.Idx → EReal) (q : Fin 128) :
    shapeCast S1x512 (concatenate S512 0 [⟨S128, a8⟩, ⟨S128, a10⟩, ⟨S128, a12⟩, ⟨S128, a14⟩] concatenates_S128_S128_S128_S128_S512_d0)
        shapeCasts_S512_S1x512 (ix2 (0 : Fin 1) (⟨128 + q.val, by have := q.isLt; omega⟩ : Fin 512)) = a10 (ix1 q) :=
  (Cert.RowBias.castRow_apply _ shapeCasts_S512_S1x512 _).trans (bcat_1 a8 a10 a12 a14 q)

theorem bcat_2 (a8 a10 a12 a14 : S128.Idx → EReal) (q : Fin 128) :
    concatenate S512 0 [⟨S128, a8⟩, ⟨S128, a10⟩, ⟨S128, a12⟩, ⟨S128, a14⟩] concatenates_S128_S128_S128_S128_S512_d0
        (ix1 (⟨256 + q.val, by have := q.isLt; omega⟩ : Fin 512)) = a12 (ix1 q) :=
  concatenate_apply_piece (t := S512) 0 [⟨S128, a8⟩, ⟨S128, a10⟩, ⟨S128, a12⟩, ⟨S128, a14⟩] concatenates_S128_S128_S128_S128_S512_d0
    (ix1 (⟨256 + q.val, by have := q.isLt; omega⟩ : Fin 512)) 2 (by simp) S128 a12 rfl rfl 256 rfl (ix1 q)
    (fun b hb => by
      match b with
      | ⟨0, _⟩ => exact absurd rfl hb)
    (by show 256 + q.val = 256 + q.val; omega)

theorem bhead_2 (a8 a10 a12 a14 : S128.Idx → EReal) (q : Fin 128) :
    shapeCast S1x512 (concatenate S512 0 [⟨S128, a8⟩, ⟨S128, a10⟩, ⟨S128, a12⟩, ⟨S128, a14⟩] concatenates_S128_S128_S128_S128_S512_d0)
        shapeCasts_S512_S1x512 (ix2 (0 : Fin 1) (⟨256 + q.val, by have := q.isLt; omega⟩ : Fin 512)) = a12 (ix1 q) :=
  (Cert.RowBias.castRow_apply _ shapeCasts_S512_S1x512 _).trans (bcat_2 a8 a10 a12 a14 q)

theorem bcat_3 (a8 a10 a12 a14 : S128.Idx → EReal) (q : Fin 128) :
    concatenate S512 0 [⟨S128, a8⟩, ⟨S128, a10⟩, ⟨S128, a12⟩, ⟨S128, a14⟩] concatenates_S128_S128_S128_S128_S512_d0
        (ix1 (⟨384 + q.val, by have := q.isLt; omega⟩ : Fin 512)) = a14 (ix1 q) :=
  concatenate_apply_piece (t := S512) 0 [⟨S128, a8⟩, ⟨S128, a10⟩, ⟨S128, a12⟩, ⟨S128, a14⟩] concatenates_S128_S128_S128_S128_S512_d0
    (ix1 (⟨384 + q.val, by have := q.isLt; omega⟩ : Fin 512)) 3 (by simp) S128 a14 rfl rfl 384 rfl (ix1 q)
    (fun b hb => by
      match b with
      | ⟨0, _⟩ => exact absurd rfl hb)
    (by show 384 + q.val = 384 + q.val; omega)

theorem bhead_3 (a8 a10 a12 a14 : S128.Idx → EReal) (q : Fin 128) :
    shapeCast S1x512 (concatenate S512 0 [⟨S128, a8⟩, ⟨S128, a10⟩, ⟨S128, a12⟩, ⟨S128, a14⟩] concatenates_S128_S128_S128_S128_S512_d0)
        shapeCasts_S512_S1x512 (ix2 (0 : Fin 1) (⟨384 + q.val, by have := q.isLt; omega⟩ : Fin 512)) = a14 (ix1 q) :=
  (Cert.RowBias.castRow_apply _ shapeCasts_S512_S1x512 _).trans (bcat_3 a8 a10 a12 a14 q)

end Cert.KernelIdeal.HostRead

end
-- ==== Proof.KIReads.lean ====
/- What the buffers hold when each pallas_call is entered, in terms of the launch memory: the first is entered with x
   and h as launched and the two folded weight matrices the host products leave; the second with the pre-activations
   and the two tables of block sums the first left, folded by the host into the mean row and the scale row, with the
   scale, shift and time arrays as launched, and with the four head weight matrices and the four bias vectors joined.
   At the exact extended reals. -/
import proofs.«126462_j38199439131313_2_alg».proof.Proof.KIRun
import proofs.«126462_j38199439131313_2_alg».proof.Proof.KIVal0
import proofs.«126462_j38199439131313_2_alg».proof.Proof.KIPay
import proofs.«126462_j38199439131313_2_alg».proof.Proof.KIHost0
import proofs.«126462_j38199439131313_2_alg».proof.Proof.KIHost1
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.ValueIdx Idealize.ShloMosaic.StableHlo
open Idealize.SL Idealize.SL.Sem
open Cert.Spec Cert.KernelIdeal.HostRead

variable (m : (ℓ : Loc nD τ sig) → Buf (Elt Ideal) ℓ) (ρ : Dev nD → PrngReg)

/-! ## At the first pallas_call's entry -/

theorem Vb1_arg0 (c : Dev nD) : Vb1 m ρ c main_arg0 = m ((c : Thread nD τ).loc main_arg0) :=
  StableHlo.after_of_writes_sub hostOps0 _ hostOps0_writes (by decide)
theorem Vb1_arg1 (c : Dev nD) : Vb1 m ρ c main_arg1 = m ((c : Thread nD τ).loc main_arg1) :=
  StableHlo.after_of_writes_sub hostOps0 _ hostOps0_writes (by decide)

theorem Vb1_v2 (c : Dev nD) : (Vb1 m ρ c main_v2 : S128x128.Idx → EReal)
    = Host.dotGeneral (F := Ideal) (φ₁ := .f32) (φ₂ := .f32) dot_S128x128_S128x128_S128x128_1_0_0_1_n_n none
        (extractStridedSlice S128x128 ![0, 0] (m ((c : Thread nD τ).loc main_arg3) : S256x128.Idx → EReal) slices_S256x128_S128x128_0_0)
        (m ((c : Thread nD τ).loc main_arg4) : S128x128.Idx → EReal) := by
  show StableHlo.after hostOps0 (Wb0 m ρ c) (Proc.devRef .tc main_v2) = _
  after_results

theorem Vb1_v3 (c : Dev nD) : (Vb1 m ρ c main_v3 : S128x128.Idx → EReal)
    = Host.dotGeneral (F := Ideal) (φ₁ := .f32) (φ₂ := .f32) dot_S128x128_S128x128_S128x128_1_0_0_1_n_n none
        (extractStridedSlice S128x128 ![128, 0] (m ((c : Thread nD τ).loc main_arg3) : S256x128.Idx → EReal) slices_S256x128_S128x128_128_0)
        (m ((c : Thread nD τ).loc main_arg4) : S128x128.Idx → EReal) := by
  show StableHlo.after hostOps0 (Wb0 m ρ c) (Proc.devRef .tc main_v3) = _
  after_results

/-- The pre-activations the first pallas_call leaves, at an entry: the folded spelling over the launch arrays. -/
theorem zArr_apply (c : Dev nD) (p : Fin 131072) (k : Fin 128) :
    zArr (Vb1 m ρ) c (ix2 p k)
      = preFolded (mat (m ((c : Thread nD τ).loc main_arg0) : S131072x128.Idx → EReal)) (mat (m ((c : Thread nD τ).loc main_arg1) : S131072x128.Idx → EReal))
          (mat (m ((c : Thread nD τ).loc main_arg3) : S256x128.Idx → EReal)) (mat (m ((c : Thread nD τ).loc main_arg4) : S128x128.Idx → EReal)) p k := by
  unfold zArr foldedAt preFolded
  rw [Vb1_arg0, Vb1_arg1, Vb1_v2, Vb1_v3]
  simp only [foldW_top, foldW_bot]
  rfl

/-! ## At the second pallas_call's entry -/

theorem Wb2_v4_0 (c : Dev nD) : Wb2 m ρ c (Proc.devRef .tc main_v4_0) = zArr (Vb1 m ρ) c :=
  (Wb2_arr m ρ c 4).trans (final0_4 (Vb1 m ρ) Pay.pay1_apply c)
theorem Wb2_v4_1 (c : Dev nD) : Wb2 m ρ c (Proc.devRef .tc main_v4_1) = sumArr (Vb1 m ρ) c :=
  (Wb2_arr m ρ c 5).trans (final0_5 (Vb1 m ρ) Pay.pay1_apply Pay.pay3_apply c)
theorem Wb2_v4_2 (c : Dev nD) : Wb2 m ρ c (Proc.devRef .tc main_v4_2) = sqArr (Vb1 m ρ) c :=
  (Wb2_arr m ρ c 6).trans (final0_6 (Vb1 m ρ) Pay.pay1_apply Pay.pay4_apply c)

theorem Wb2_arg (c : Dev nD) (r : Ref sig .tc) (h1 : ∀ w, Pipeline.arrRef spec0 w ≠ r) (h0 : r ∉ hostOps0_W) :
    Wb2 m ρ c (Proc.devRef .tc r) = m ((c : Thread nD τ).loc r) :=
  (Wb2_of_ne m ρ c r h1).trans ((StableHlo.after_of_writes_sub hostOps0 _ hostOps0_writes h0).trans rfl)

theorem Vb3_v4_0 (c : Dev nD) : (Vb3 m ρ c main_v4_0 : S131072x128.Idx → EReal) = zArr (Vb1 m ρ) c :=
  (StableHlo.after_of_writes_sub hostOps1 _ hostOps1_writes (by decide)).trans (Wb2_v4_0 m ρ c)
theorem Vb3_arg2 (c : Dev nD) : Vb3 m ρ c main_arg2 = m ((c : Thread nD τ).loc main_arg2) :=
  (StableHlo.after_of_writes_sub hostOps1 _ hostOps1_writes (by decide)).trans (Wb2_arg m ρ c main_arg2 (by decide) (by decide))

theorem Vb3_v16 (c : Dev nD) : (Vb3 m ρ c main_v16 : S1x128.Idx → EReal)
    = shapeCast S1x128 (meanV (sumArr (Vb1 m ρ) c)) shapeCasts_S128_S1x128 := by
  show StableHlo.after hostOps1 (Wb2 m ρ c) (Proc.devRef .tc main_v16) = _
  after_results
  rw [Wb2_v4_1]
  rfl

theorem Vb3_v17 (c : Dev nD) : (Vb3 m ρ c main_v17 : S1x128.Idx → EReal)
    = shapeCast S1x128 (rstdV (sumArr (Vb1 m ρ) c) (sqArr (Vb1 m ρ) c)) shapeCasts_S128_S1x128 := by
  show StableHlo.after hostOps1 (Wb2 m ρ c) (Proc.devRef .tc main_v17) = _
  after_results
  rw [Wb2_v4_1, Wb2_v4_2]
  rfl

theorem Vb3_v18 (c : Dev nD) : (Vb3 m ρ c main_v18 : S1x128.Idx → EReal)
    = shapeCast S1x128 (m ((c : Thread nD τ).loc main_arg5) : S128.Idx → EReal) shapeCasts_S128_S1x128 := by
  show StableHlo.after hostOps1 (Wb2 m ρ c) (Proc.devRef .tc main_v18) = _
  after_results
  rw [Wb2_arg m ρ c main_arg5 (by decide) (by decide)]
  rfl

theorem Vb3_v19 (c : Dev nD) : (Vb3 m ρ c main_v19 : S1x128.Idx → EReal)
    = shapeCast S1x128 (m ((c : Thread nD τ).loc main_arg6) : S128.Idx → EReal) shapeCasts_S128_S1x128 := by
  show StableHlo.after hostOps1 (Wb2 m ρ c) (Proc.devRef .tc main_v19) = _
  after_results
  rw [Wb2_arg m ρ c main_arg6 (by decide) (by decide)]
  rfl

theorem Vb3_v20 (c : Dev nD) : (Vb3 m ρ c main_v20 : S128x512.Idx → EReal)
    = concatenate S128x512 1 [⟨S128x128, (m ((c : Thread nD τ).loc main_arg7) : S128x128.Idx → EReal)⟩, ⟨S128x128, (m ((c : Thread nD τ).loc main_arg9) : S128x128.Idx → EReal)⟩,
        ⟨S128x128, (m ((c : Thread nD τ).loc main_arg11) : S128x128.Idx → EReal)⟩, ⟨S128x128, (m ((c : Thread nD τ).loc main_arg13) : S128x128.Idx → EReal)⟩]
        concatenates_S128x128_S128x128_S128x128_S128x128_S128x512_d1 := by
  show StableHlo.after hostOps1 (Wb2 m ρ c) (Proc.devRef .tc main_v20) = _
  after_results
  simp only [Wb2_arg m ρ c main_arg7 (by decide) (by decide), Wb2_arg m ρ c main_arg9 (by decide) (by decide),
    Wb2_arg m ρ c main_arg11 (by decide) (by decide), Wb2_arg m ρ c main_arg13 (by decide) (by decide)]
  rfl

theorem Vb3_v22 (c : Dev nD) : (Vb3 m ρ c main_v22 : S1x512.Idx → EReal)
    = shapeCast S1x512 (concatenate S512 0 [⟨S128, (m ((c : Thread nD τ).loc main_arg8) : S128.Idx → EReal)⟩, ⟨S128, (m ((c : Thread nD τ).loc main_arg10) : S128.Idx → EReal)⟩,
        ⟨S128, (m ((c : Thread nD τ).loc main_arg12) : S128.Idx → EReal)⟩, ⟨S128, (m ((c : Thread nD τ).loc main_arg14) : S128.Idx → EReal)⟩]
        concatenates_S128_S128_S128_S128_S512_d0) shapeCasts_S512_S1x512 := by
  show StableHlo.after hostOps1 (Wb2 m ρ c) (Proc.devRef .tc main_v22) = _
  after_results
  simp only [Wb2_arg m ρ c main_arg8 (by decide) (by decide), Wb2_arg m ρ c main_arg10 (by decide) (by decide),
    Wb2_arg m ρ c main_arg12 (by decide) (by decide), Wb2_arg m ρ c main_arg14 (by decide) (by decide)]
  rfl

end Cert.KernelIdeal.Frm

end
-- ==== Proof.KIVal1.lean ====
/- From blocks to the whole array, for the second pallas_call: after all 64 grid points the output array is one
   function of the eight input arrays, entry by entry.  Grid point t handles rows 2048 t .. 2048 t + 2047: the
   windows over the pre-activations, the times and the output move with t (block (t, 0)), the six windows over the
   statistics rows, the joined head weights and the joined bias row stay at block (0, 0), which is the whole of their
   arrays.  So what point t writes back is block t of the gated output of the whole arrays, and the 64 blocks tile
   the 131072 rows. -/
import proofs.«126462_j38199439131313_2_alg».proof.Proof.KIRegion1
import proofs.«126462_j38199439131313_2_alg».proof.Proof.Forms
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section Val1

variable (V : (c : Dev nD) → (b : Ref sig .tc) → Buf (Elt Ideal) ((c : Thread nD τ).loc b))

/-- The zero offsets of a whole-buffer rectangle, as the constant function. -/
theorem zeroOff1 : (![0, 0] : Fin 2 → Nat) = fun _ => 0 := funext fun a => by fin_cases a <;> rfl

/-- The windows that move with the grid point (pre-activations, times, output) sit at block (t, 0). -/
theorem index_moving1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

/-- The windows over the statistics rows, the head weights and the bias row sit at block (0, 0) at every point. -/
theorem index_fixed1 : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row p of point t's block is row 2048 t + p of the array. -/
theorem row_lt1 (t : Fin cfg1.N) (p : Fin 2048) : 2048 * t.val + p.val < 131072 := by
  have ht : t.val < 64 := lt_of_lt_of_eq t.isLt N_1
  have hp := p.isLt
  omega

/-- The pre-activation window's block at point t, entry (p, k), is the array's entry (2048 t + p, k). -/
theorem iblk1_0_apply (c : Dev nD) (t : Fin cfg1.N) (p : Fin 2048) (k : Fin 128) :
    (iblk1 V c 0 t : Vec Ideal S2048x128 .f32) (ix2 p k)
      = (V c main_v4_0 : S131072x128.Idx → EReal) (ix2 ⟨2048 * t.val + p.val, row_lt1 t p⟩ k) := by
  obtain ⟨e0, e1, -⟩ := index_moving1 t
  unfold iblk1
  rw [View.read_apply]
  show V c main_v4_0 _ = V c main_v4_0 _
  congr 1
  funext a
  apply Fin.ext
  match a with
  | ⟨0, _⟩ => show win1_0.index t (0 : Fin 2) * 2048 + 1 * p.val = 2048 * t.val + p.val; rw [e0]; omega
  | ⟨1, _⟩ => show win1_0.index t (1 : Fin 2) * 128 + 1 * k.val = k.val; rw [e1]; omega

/-- The time window's block at point t, entry (p, 0), is the array's entry (2048 t + p, 0). -/
theorem iblk1_1_apply (c : Dev nD) (t : Fin cfg1.N) (p : Fin 2048) :
    (iblk1 V c 1 t : Vec Ideal S2048x1 .f32) (ix2 p (0 : Fin 1))
      = (V c main_arg2 : S131072x1.Idx → EReal) (ix2 ⟨2048 * t.val + p.val, row_lt1 t p⟩ (0 : Fin 1)) := by
  obtain ⟨-, -, e0, e1, -⟩ := index_moving1 t
  unfold iblk1
  rw [View.read_apply]
  show V c main_arg2 _ = V c main_arg2 _
  congr 1
  funext a
  apply Fin.ext
  match a with
  | ⟨0, _⟩ => show win1_1.index t (0 : Fin 2) * 2048 + 1 * p.val = 2048 * t.val + p.val; rw [e0]; omega
  | ⟨1, _⟩ => show win1_1.index t (1 : Fin 2) * 1 + 1 * 0 = 0; rw [e1]

/-- The mean row: its window's block at any point is the whole array. -/
theorem iblk1_2_eq (c : Dev nD) (t : Fin cfg1.N) :
    (iblk1 V c 2 t : Vec Ideal S1x128 .f32) = (V c main_v16 : S1x128.Idx → EReal) := by
  obtain ⟨a2, b2, a3, b3, a4, b4, a5, b5, a6, b6, a7, b7⟩ := index_fixed1 t
  funext y
  unfold iblk1
  rw [View.read_apply]
  show V c main_v16 _ = V c main_v16 y
  congr 1
  funext a
  apply Fin.ext
  match a with
  | ⟨0, _⟩ => show win1_2.index t (0 : Fin 2) * 1 + 1 * (y 0).val = (y 0).val; rw [a2]; omega
  | ⟨1, _⟩ => show win1_2.index t (1 : Fin 2) * 128 + 1 * (y 1).val = (y 1).val; rw [b2]; omega

/-- The scale row: its window's block at any point is the whole array. -/
theorem iblk1_3_eq (c : Dev nD) (t : Fin cfg1.N) :
    (iblk1 V c 3 t : Vec Ideal S1x128 .f32) = (V c main_v17 : S1x128.Idx → EReal) := by
  obtain ⟨a2, b2, a3, b3, a4, b4, a5, b5, a6, b6, a7, b7⟩ := index_fixed1 t
  funext y
  unfold iblk1
  rw [View.read_apply]
  show V c main_v17 _ = V c main_v17 y
  congr 1
  funext a
  apply Fin.ext
  match a with
  | ⟨0, _⟩ => show win1_3.index t (0 : Fin 2) * 1 + 1 * (y 0).val = (y 0).val; rw [a3]; omega
  | ⟨1, _⟩ => show win1_3.index t (1 : Fin 2) * 128 + 1 * (y 1).val = (y 1).val; rw [b3]; omega

/-- The gain row: its window's block at any point is the whole array. -/
theorem iblk1_4_eq (c : Dev nD) (t : Fin cfg1.N) :
    (iblk1 V c 4 t : Vec Ideal S1x128 .f32) = (V c main_v18 : S1x128.Idx → EReal) := by
  obtain ⟨a2, b2, a3, b3, a4, b4, a5, b5, a6, b6, a7, b7⟩ := index_fixed1 t
  funext y
  unfold iblk1
  rw [View.read_apply]
  show V c main_v18 _ = V c main_v18 y
  congr 1
  funext a
  apply Fin.ext
  match a with
  | ⟨0, _⟩ => show win1_4.index t (0 : Fin 2) * 1 + 1 * (y 0).val = (y 0).val; rw [a4]; omega
  | ⟨1, _⟩ => show win1_4.index t (1 : Fin 2) * 128 + 1 * (y 1).val = (y 1).val; rw [b4]; omega

/-- The shift row: its window's block at any point is the whole array. -/
theorem iblk1_5_eq (c : Dev nD) (t : Fin cfg1.N) :
    (iblk1 V c 5 t : Vec Ideal S1x128 .f32) = (V c main_v19 : S1x128.Idx → EReal) := by
  obtain ⟨a2, b2, a3, b3, a4, b4, a5, b5, a6, b6, a7, b7⟩ := index_fixed1 t
  funext y
  unfold iblk1
  rw [View.read_apply]
  show V c main_v19 _ = V c main_v19 y
  congr 1
  funext a
  apply Fin.ext
  match a with
  | ⟨0, _⟩ => show win1_5.index t (0 : Fin 2) * 1 + 1 * (y 0).val = (y 0).val; rw [a5]; omega
  | ⟨1, _⟩ => show win1_5.index t (1 : Fin 2) * 128 + 1 * (y 1).val = (y 1).val; rw [b5]; omega

/-- The joined head weights: its window's block at any point is the whole array. -/
theorem iblk1_6_eq (c : Dev nD) (t : Fin cfg1.N) :
    (iblk1 V c 6 t : Vec Ideal S128x512 .f32) = (V c main_v20 : S128x512.Idx → EReal) := by
  obtain ⟨a2, b2, a3, b3, a4, b4, a5, b5, a6, b6, a7, b7⟩ := index_fixed1 t
  funext y
  unfold iblk1
  rw [View.read_apply]
  show V c main_v20 _ = V c main_v20 y
  congr 1
  funext a
  apply Fin.ext
  match a with
  | ⟨0, _⟩ => show win1_6.index t (0 : Fin 2) * 128 + 1 * (y 0).val = (y 0).val; rw [a6]; omega
  | ⟨1, _⟩ => show win1_6.index t (1 : Fin 2) * 512 + 1 * (y 1).val = (y 1).val; rw [b6]; omega

/-- The joined bias row: its window's block at any point is the whole array. -/
theorem iblk1_7_eq (c : Dev nD) (t : Fin cfg1.N) :
    (iblk1 V c 7 t : Vec Ideal S1x512 .f32) = (V c main_v22 : S1x512.Idx → EReal) := by
  obtain ⟨a2, b2, a3, b3, a4, b4, a5, b5, a6, b6, a7, b7⟩ := index_fixed1 t
  funext y
  unfold iblk1
  rw [View.read_apply]
  show V c main_v22 _ = V c main_v22 y
  congr 1
  funext a
  apply Fin.ext
  match a with
  | ⟨0, _⟩ => show win1_7.index t (0 : Fin 2) * 1 + 1 * (y 0).val = (y 0).val; rw [a7]; omega
  | ⟨1, _⟩ => show win1_7.index t (1 : Fin 2) * 512 + 1 * (y 1).val = (y 1).val; rw [b7]; omega

/-- The gated output entry depends on its row of pre-activations, its time, and the six row and weight arrays: two
    arrays with different numbers of rows that agree on one row give that row the same gated output. -/
theorem gateRow_of_row {B B' : Nat} (X0 : (⟨2, ![B, 128]⟩ : Shape).Idx → EReal) (X1 : (⟨2, ![B, 1]⟩ : Shape).Idx → EReal)
    (Y0 : (⟨2, ![B', 128]⟩ : Shape).Idx → EReal) (Y1 : (⟨2, ![B', 1]⟩ : Shape).Idx → EReal)
    (x2 x3 x4 x5 : (⟨2, ![1, 128]⟩ : Shape).Idx → EReal) (x6 : (⟨2, ![128, 512]⟩ : Shape).Idx → EReal)
    (x7 : (⟨2, ![1, 512]⟩ : Shape).Idx → EReal) (p : Fin B) (p' : Fin B') (q : Fin 128)
    (h0 : ∀ k : Fin 128, X0 (ix2 p k) = Y0 (ix2 p' k)) (h1 : X1 (ix2 p (0 : Fin 1)) = Y1 (ix2 p' (0 : Fin 1))) :
    Cert.Spec.gateRow X0 X1 x2 x3 x4 x5 x6 x7 p q = Cert.Spec.gateRow Y0 Y1 x2 x3 x4 x5 x6 x7 p' q := by
  have hr : Cert.Spec.rowAct X0 x2 x3 x4 x5 p = Cert.Spec.rowAct Y0 x2 x3 x4 x5 p' := funext fun k => by
    unfold Cert.Spec.rowAct
    rw [h0]
  unfold Cert.Spec.gateRow
  rw [hr, h1]

/-- The output array after the run, entry by entry: the gated output of the eight input arrays. -/
abbrev G1_8 (c : Dev nD) : S131072x128.Idx → EReal := fun i =>
  Cert.Spec.gateRow (V c main_v4_0 : S131072x128.Idx → EReal) (V c main_arg2 : S131072x1.Idx → EReal)
    (V c main_v16 : S1x128.Idx → EReal) (V c main_v17 : S1x128.Idx → EReal) (V c main_v18 : S1x128.Idx → EReal)
    (V c main_v19 : S1x128.Idx → EReal) (V c main_v20 : S128x512.Idx → EReal) (V c main_v22 : S1x512.Idx → EReal) (i 0) (i 1)

/-- The same with the six row and weight arrays given up to equality. -/
theorem gateRow_congr {B B' : Nat} (X0 : (⟨2, ![B, 128]⟩ : Shape).Idx → EReal) (X1 : (⟨2, ![B, 1]⟩ : Shape).Idx → EReal)
    (Y0 : (⟨2, ![B', 128]⟩ : Shape).Idx → EReal) (Y1 : (⟨2, ![B', 1]⟩ : Shape).Idx → EReal)
    (x2 x3 x4 x5 y2 y3 y4 y5 : (⟨2, ![1, 128]⟩ : Shape).Idx → EReal) (x6 y6 : (⟨2, ![128, 512]⟩ : Shape).Idx → EReal)
    (x7 y7 : (⟨2, ![1, 512]⟩ : Shape).Idx → EReal) (p : Fin B) (p' : Fin B') (q : Fin 128)
    (h0 : ∀ k : Fin 128, X0 (ix2 p k) = Y0 (ix2 p' k)) (h1 : X1 (ix2 p (0 : Fin 1)) = Y1 (ix2 p' (0 : Fin 1)))
    (h2 : x2 = y2) (h3 : x3 = y3) (h4 : x4 = y4) (h5 : x5 = y5) (h6 : x6 = y6) (h7 : x7 = y7) :
    Cert.Spec.gateRow X0 X1 x2 x3 x4 x5 x6 x7 p q = Cert.Spec.gateRow Y0 Y1 y2 y3 y4 y5 y6 y7 p' q := by
  subst h2 h3 h4 h5 h6 h7
  exact gateRow_of_row X0 X1 Y0 Y1 x2 x3 x4 x5 x6 x7 p p' q h0 h1

/-- What grid point t writes back to the output array is block t of the gated output of the whole input arrays. -/
theorem flushed1_8_eq
    (hpay : ∀ (x0 : Vec Ideal S2048x128 .f32) (x1 : Vec Ideal S2048x1 .f32) (x2 x3 x4 x5 : Vec Ideal S1x128 .f32)
        (x6 : Vec Ideal S128x512 .f32) (x7 : Vec Ideal S1x512 .f32) (p : Fin 2048) (q : Fin 128),
        k1_pay1 (F := Ideal) (k1_pay3 x0 x2 x3 x4 x5 x6 x7) (k1_pay4 x0 x2 x3 x4 x5 x6 x7) x1 (k1_pay5 x0 x2 x3 x4 x5 x6 x7) (ix2 p q)
          = Cert.Spec.gateRow x0 x1 x2 x3 x4 x5 x6 x7 p q)
    (c : Dev nD) (t : Fin cfg1.N) :
    (dat1 (F := Ideal) V c).flushed 8 t = ((cfg1.win 8).blk t).view.read (Elt Ideal) (G1_8 V c) := by
  show (cfg1.win 8).cut (grid1.coords t) ((dat1 V c).after 8 t) = _
  rw [after1_8]
  unfold out1_8
  rw [View.canon_unit_zero zeroOff1]
  simp only [View.ld_unit_zero (S := S2048x128) zeroOff1, View.ld_unit_zero (S := S2048x1) zeroOff1,
    View.ld_unit_zero (S := S1x128) zeroOff1, View.ld_unit_zero (S := S128x512) zeroOff1,
    View.ld_unit_zero (S := S1x512) zeroOff1]
  funext y
  obtain ⟨p, q, rfl⟩ : ∃ (p : Fin 2048) (q : Fin 128), y = ix2 p q := ⟨y 0, y 1, eq_ix2 y⟩
  obtain ⟨-, -, -, -, e0, e1⟩ := index_moving1 t
  have hy : ((cfg1.win 8).blk t).view.emb (ix2 p q)
      = (ix2 ⟨2048 * t.val + p.val, row_lt1 t p⟩ q : S131072x128.Idx) := by
    funext a
    apply Fin.ext
    match a with
    | ⟨0, _⟩ => show win1_8.index t (0 : Fin 2) * 2048 + 1 * p.val = 2048 * t.val + p.val; rw [e0]; omega
    | ⟨1, _⟩ => show win1_8.index t (1 : Fin 2) * 128 + 1 * q.val = q.val; rw [e1]; omega
  rw [View.read_apply, hy]
  refine (hpay (iblk1 V c 0 t) (iblk1 V c 1 t) (iblk1 V c 2 t) (iblk1 V c 3 t) (iblk1 V c 4 t) (iblk1 V c 5 t)
    (iblk1 V c 6 t) (iblk1 V c 7 t) p q).trans ?_
  exact gateRow_congr _ _ _ _ _ _ _ _ _ _ _ _ _ _ _ _ p ⟨2048 * t.val + p.val, row_lt1 t p⟩ q
    (fun k => iblk1_0_apply V c t p k) (iblk1_1_apply V c t p)
    (iblk1_2_eq V c t) (iblk1_3_eq V c t) (iblk1_4_eq V c t) (iblk1_5_eq V c t) (iblk1_6_eq V c t) (iblk1_7_eq V c t)

/-- An index of the output array is in point t's block iff each coordinate is in the block's range on its axis. -/
theorem mem_blk1_8 (t : Fin cfg1.N) (i : S131072x128.Idx) :
    i ∈ ((cfg1.win 8).blk t).view.set ↔ ∀ a : Fin 2, win1_8.index t a * S2048x128.size a ≤ (i a).val
      ∧ (i a).val < win1_8.index t a * S2048x128.size a + S2048x128.size a := by
  show i ∈ ((View.whole main_v23).slice (win1_8.rect t)).set ↔ _
  rw [View.set_slice_whole, Rect.mem_set_unit]
  exact Iff.rfl

/-- The 64 blocks of 2048 rows tile the 131072 rows: row r is in the block of point r / 2048. -/
theorem covered1_8 (i : S131072x128.Idx) :
    ∃ t : Fin cfg1.N, (cfg1.win 8).flush t = true ∧ i ∈ ((cfg1.win 8).blk t).view.set := by
  have hi0 : (i 0).val < 131072 := (i 0).isLt
  have hi1 : (i 1).val < 128 := (i 1).isLt
  obtain ⟨t, ht⟩ : ∃ t : Fin cfg1.N, t.val = (i 0).val / 2048 :=
    ⟨⟨(i 0).val / 2048, lt_of_lt_of_eq (by omega : (i 0).val / 2048 < 64) N_1.symm⟩, rfl⟩
  obtain ⟨-, -, -, -, e0, e1⟩ := index_moving1 t
  refine ⟨t, flush1_8 t, ?_⟩
  rw [mem_blk1_8]
  intro a
  match a with
  | ⟨0, _⟩ =>
    show win1_8.index t (0 : Fin 2) * 2048 ≤ (i 0).val ∧ (i 0).val < win1_8.index t (0 : Fin 2) * 2048 + 2048
    rw [e0, ht]; omega
  | ⟨1, _⟩ =>
    show win1_8.index t (1 : Fin 2) * 128 ≤ (i 1).val ∧ (i 1).val < win1_8.index t (1 : Fin 2) * 128 + 128
    rw [e1]; omega

/-- The output array after all 64 grid points is the gated output of the eight input arrays, entry by entry. -/
theorem final1_8
    (hpay : ∀ (x0 : Vec Ideal S2048x128 .f32) (x1 : Vec Ideal S2048x1 .f32) (x2 x3 x4 x5 : Vec Ideal S1x128 .f32)
        (x6 : Vec Ideal S128x512 .f32) (x7 : Vec Ideal S1x512 .f32) (p : Fin 2048) (q : Fin 128),
        k1_pay1 (F := Ideal) (k1_pay3 x0 x2 x3 x4 x5 x6 x7) (k1_pay4 x0 x2 x3 x4 x5 x6 x7) x1 (k1_pay5 x0 x2 x3 x4 x5 x6 x7) (ix2 p q)
          = Cert.Spec.gateRow x0 x1 x2 x3 x4 x5 x6 x7 p q)
    (c : Dev nD) :
    (dat1 (F := Ideal) V c).arrAt 8 cfg1.N
      = fun i => Cert.Spec.gateRow (V c main_v4_0) (V c main_arg2) (V c main_v16) (V c main_v17) (V c main_v18)
          (V c main_v19) (V c main_v20) (V c main_v22) (i 0) (i 1) :=
  (dat1 V c).arrAt_eq_of_cover 8 (G1_8 V c) (fun t _ => flushed1_8_eq V hpay c t) covered1_8

end Val1

end Cert.KernelIdeal.Frm

end
-- ==== Proof.KIPay1.lean ====
/-
  The second kernel's arithmetic read at one entry, at the exact extended reals.

  A row of pre-activations is normalised with the mean row and the scale row, scaled, shifted and rectified; the
  rectified row times the joined 128 x 512 head weights plus the joined bias row gives the four heads side by side;
  the heads of columns q, 128 + q, 256 + q, 384 + q are then gated with the row's time.
-/
import proofs.«126462_j38199439131313_2_alg».proof.Proof.Gen.KernelIdeal.Skeleton
import proofs.«126462_j38199439131313_2_alg».proof.Proof.Spec
import proofs.«126462_j38199439131313_2_alg».proof.Proof.Forms
import proofs.«126462_j38199439131313_2_alg».proof.Proof.LibPlainMatmul
import proofs.«126462_j38199439131313_2_alg».proof.Proof.LibRowBias
import proofs.«126462_j38199439131313_2_alg».proof.Proof.LibRowLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Spec

/-! ## The head product's record: how it places the coordinates -/

theorem dotB_l0 (j : S2048x512.Idx) (q : dot_S2048x128_S128x512_S2048x512_1_0_0_1_n_n.contr.Idx) :
    (dot_S2048x128_S128x512_S2048x512_1_0_0_1_n_n.lhsIdx j q 0).val = (j 0).val := by
  unfold DotDims.lhsIdx
  rw [dif_neg (show ¬(0 : Fin S2048x128.rank) ∈ dot_S2048x128_S128x512_S2048x512_1_0_0_1_n_n.lhsBatch by decide),
    dif_pos (show (0 : Fin S2048x128.rank) ∈ dot_S2048x128_S128x512_S2048x512_1_0_0_1_n_n.lhsNonContracting by decide)]
  rfl

theorem dotB_l1 (j : S2048x512.Idx) (q : dot_S2048x128_S128x512_S2048x512_1_0_0_1_n_n.contr.Idx) :
    (dot_S2048x128_S128x512_S2048x512_1_0_0_1_n_n.lhsIdx j q 1).val = (q ⟨0, by decide⟩).val :=
  dot_S2048x128_S128x512_S2048x512_1_0_0_1_n_n.lhsIdx_val_of_single rfl j q

theorem dotB_r0 (j : S2048x512.Idx) (q : dot_S2048x128_S128x512_S2048x512_1_0_0_1_n_n.contr.Idx) :
    (dot_S2048x128_S128x512_S2048x512_1_0_0_1_n_n.rhsIdx j q 0).val = (q ⟨0, by decide⟩).val :=
  dot_S2048x128_S128x512_S2048x512_1_0_0_1_n_n.rhsIdx_val_of_single rfl j q

theorem dotB_r1 (j : S2048x512.Idx) (q : dot_S2048x128_S128x512_S2048x512_1_0_0_1_n_n.contr.Idx) :
    (dot_S2048x128_S128x512_S2048x512_1_0_0_1_n_n.rhsIdx j q 1).val = (j 1).val := by
  unfold DotDims.rhsIdx
  rw [dif_neg (show ¬(1 : Fin S128x512.rank) ∈ dot_S2048x128_S128x512_S2048x512_1_0_0_1_n_n.rhsBatch by decide),
    dif_pos (show (1 : Fin S128x512.rank) ∈ dot_S2048x128_S128x512_S2048x512_1_0_0_1_n_n.rhsNonContracting by decide)]
  rfl

/-- A 2048 x 128 by 128 x 512 product into the zero accumulator, at entry (p, c). -/
theorem mmB_apply {φ₁ φ₂ : FTy} (l : FVec Ideal S2048x128 φ₁) (r : FVec Ideal S128x512 φ₂) (p : Fin 2048) (c : Fin 512) :
    matmul dot_S2048x128_S128x512_S2048x512_1_0_0_1_n_n none l r (constant (F := Ideal) S2048x512 .f32 0x00000000#32) (ix2 p c)
      = ∑ k : Fin 128, l (ix2 p k) * r (ix2 k c) :=
  Cert.PlainMatmul.matmul_zero_apply dot_S2048x128_S128x512_S2048x512_1_0_0_1_n_n rfl rfl dotB_l0 dotB_l1 dotB_r0 dotB_r1 none l r p c

/-! ## The second kernel -/

/-- A statistics row laid down the 2048 rows of the block, at (p, k). -/
theorem rowB_apply (y : Vec Ideal S1x128 .f32) (p : Fin 2048) (k : Fin 128) :
    broadcastTo S2048x128 (shapeCast S1x128 y shapeCasts_S1x128_S1x128) broadcasts_S1x128_S2048x128 (ix2 p k)
      = y (ix2 (0 : Fin 1) k) := by
  rw [shapeCast_self]
  exact Cert.RowBias.bcastRow_apply y broadcasts_S1x128_S2048x128 p k

/-- The bias row laid down the 2048 rows of the head block, at (p, c). -/
theorem biasB_apply (y : Vec Ideal S1x512 .f32) (p : Fin 2048) (c : Fin 512) :
    broadcastTo S2048x512 (shapeCast S1x512 y shapeCasts_S1x512_S1x512) broadcasts_S1x512_S2048x512 (ix2 p c)
      = y (ix2 (0 : Fin 1) c) := by
  rw [shapeCast_self]
  exact Cert.RowBias.bcastRow_apply y broadcasts_S1x512_S2048x512 p c

/-- The four heads side by side, at (p, c): the rectified row times column c of the joined weights, plus the bias. -/
theorem pay2_apply (x0 : Vec Ideal S2048x128 .f32) (x2 x3 x4 x5 : Vec Ideal S1x128 .f32) (x6 : Vec Ideal S128x512 .f32)
    (x7 : Vec Ideal S1x512 .f32) (p : Fin 2048) (cix : Fin 512) :
    k1_pay2 (F := Ideal) x0 x2 x3 x4 x5 x6 x7 (ix2 p cix) = headAt (rowAct x0 x2 x3 x4 x5 p) x6 x7 cix := by
  unfold Gen.k1_pay2 headAt
  refine congrArg₂ (· + ·) ?_ (biasB_apply x7 p cix)
  refine (mmB_apply _ _ p cix).trans ?_
  refine Finset.sum_congr rfl fun k _ => ?_
  refine congrArg₂ (· * ·) ?_ ?_
  · unfold rowAct
    refine congrArg lrelu ?_
    refine congrArg₂ (· + ·) (congrArg₂ (· * ·) (congrArg₂ (· * ·) (congrArg₂ (· - ·) ?_ ?_) ?_) ?_) ?_
    · exact congrFun (shapeCast_self x0 shapeCasts_S2048x128_S2048x128) (ix2 p k)
    · exact rowB_apply x2 p k
    · exact rowB_apply x3 p k
    · exact rowB_apply x4 p k
    · exact rowB_apply x5 p k
  · exact congrFun (shapeCast_self x6 shapeCasts_S128x512_S128x512) (ix2 k cix)

/-- A 128-lane slice of the head block at lane offset `off`, at (p, q): the head block at (p, off + q). -/
theorem slice_apply (off : Nat) (hoff : off + 128 ≤ 512) (v : FVec Ideal S2048x512 .f32)
    (h : S2048x512.Slices ![0, off] S2048x128) (p : Fin 2048) (q : Fin 128) :
    extractStridedSlice S2048x128 ![0, off] v h (ix2 p q) = v (ix2 p ⟨off + q.val, by have := q.isLt; omega⟩) :=
  extractStridedSlice_apply ![0, off] v h (ix2 p q) (ix2 p ⟨off + q.val, by have := q.isLt; omega⟩) (fun a => match a with
    | ⟨0, _⟩ => by show p.val = 0 + p.val; omega
    | ⟨1, _⟩ => rfl)

/-- The slice at lane offset 0, at (p, q): the head block at (p, q). -/
theorem slice0_apply (v : FVec Ideal S2048x512 .f32) (h : S2048x512.Slices ![0, 0] S2048x128) (p : Fin 2048) (q : Fin 128) :
    extractStridedSlice S2048x128 ![0, 0] v h (ix2 p q) = v (ix2 p ⟨q.val, by have := q.isLt; omega⟩) :=
  extractStridedSlice_apply ![0, 0] v h (ix2 p q) (ix2 p ⟨q.val, by have := q.isLt; omega⟩) (fun a => match a with
    | ⟨0, _⟩ => by show p.val = 0 + p.val; omega
    | ⟨1, _⟩ => by show q.val = 0 + q.val; omega)

/-- The gated output at (p, q): heads g, f, hh, tau are columns q, 128 + q, 256 + q, 384 + q of the head block. -/
theorem gate_apply (x0 : Vec Ideal S2048x128 .f32) (x1 : Vec Ideal S2048x1 .f32) (x2 x3 x4 x5 : Vec Ideal S1x128 .f32)
    (x6 : Vec Ideal S128x512 .f32) (x7 : Vec Ideal S1x512 .f32) (p : Fin 2048) (q : Fin 128) :
    k1_pay1 (F := Ideal) (k1_pay3 x0 x2 x3 x4 x5 x6 x7) (k1_pay4 x0 x2 x3 x4 x5 x6 x7) x1 (k1_pay5 x0 x2 x3 x4 x5 x6 x7) (ix2 p q)
      = gateRow x0 x1 x2 x3 x4 x5 x6 x7 p q := by
  have e3 : k1_pay3 (F := Ideal) x0 x2 x3 x4 x5 x6 x7 (ix2 p q)
      = Ideal.tanh (headAt (rowAct x0 x2 x3 x4 x5 p) x6 x7 ⟨q.val, by have := q.isLt; omega⟩) := by
    unfold Gen.k1_pay3
    refine congrArg Ideal.tanh ?_
    exact (slice0_apply _ slices_S2048x512_o0_0_S2048x128 p q).trans (pay2_apply x0 x2 x3 x4 x5 x6 x7 p _)
  have e4 : k1_pay4 (F := Ideal) x0 x2 x3 x4 x5 x6 x7 (ix2 p q)
      = Ideal.tanh (headAt (rowAct x0 x2 x3 x4 x5 p) x6 x7 ⟨256 + q.val, by have := q.isLt; omega⟩) := by
    unfold Gen.k1_pay4
    refine congrArg Ideal.tanh ?_
    exact (slice_apply 256 (by omega) _ slices_S2048x512_o0_256_S2048x128 p q).trans (pay2_apply x0 x2 x3 x4 x5 x6 x7 p _)
  have e5 : k1_pay5 (F := Ideal) x0 x2 x3 x4 x5 x6 x7 (ix2 p q)
      = headAt (rowAct x0 x2 x3 x4 x5 p) x6 x7 ⟨384 + q.val, by have := q.isLt; omega⟩
        + headAt (rowAct x0 x2 x3 x4 x5 p) x6 x7 ⟨128 + q.val, by have := q.isLt; omega⟩ := by
    unfold Gen.k1_pay5
    refine congrArg₂ (· + ·) ?_ ?_
    · exact (slice_apply 384 (by omega) _ slices_S2048x512_o0_384_S2048x128 p q).trans (pay2_apply x0 x2 x3 x4 x5 x6 x7 p _)
    · exact (slice_apply 128 (by omega) _ slices_S2048x512_o0_128_S2048x128 p q).trans (pay2_apply x0 x2 x3 x4 x5 x6 x7 p _)
  have et : broadcastTo S2048x128 x1 broadcasts_S2048x1_S2048x128 (ix2 p q) = x1 (ix2 p (0 : Fin 1)) :=
    Cert.RowLayout.bcastCol_apply x1 broadcasts_S2048x1_S2048x128 p q
  unfold Gen.k1_pay1 gateRow gate
  exact congrArg₂ (· + ·)
    (congrArg₂ (· * ·) e4 (congrArg₂ (· - ·) rfl (congrArg Ideal.logistic (congrArg₂ (· * ·) e5 et))))
    (congrArg₂ (· * ·) e3 (congrArg Ideal.logistic (congrArg₂ (· * ·) e5 et)))

end Cert.KernelIdeal.Pay

end
-- ==== Proof.GateTail.lean ====
/-
  The gated output, row form against matrix form.

  The row-level form reads its operands from arrays: the pre-activations, the column of times, the four statistics
  rows, the joined 128 x 512 head weights and the joined bias row.  The matrix form reads matrices and vectors, one
  weight matrix and one bias vector per head.  When the arrays agree entry by entry with the matrices (head j's weights
  and bias sitting in columns 128 j .. 128 j + 127 of the joined arrays, the scale row holding the reciprocal square
  root of the variance plus epsilon), the two forms are the same number.
-/
import proofs.«126462_j38199439131313_2_alg».proof.Proof.Forms

noncomputable section

open scoped BigOperators

namespace Cert.Spec

open Idealize.ShloMosaic Idealize.ShloMosaic.ValueIdx

/-- The rectified activation of row p, feature k: the row form and the matrix form agree. -/
theorem rowAct_eq_act (Z : (⟨2, ![131072, 128]⟩ : Shape).Idx → EReal) (MU INV GA BE : (⟨2, ![1, 128]⟩ : Shape).Idx → EReal)
    (z : Mat 131072 128) (mu va gamma beta : Fin 128 → EReal)
    (hz : ∀ p k, Z (ix2 p k) = z p k) (hmu : ∀ k, MU (ix2 (0 : Fin 1) k) = mu k)
    (hinv : ∀ k, INV (ix2 (0 : Fin 1) k) = Ideal.rsqrt (va k + cEps))
    (hga : ∀ k, GA (ix2 (0 : Fin 1) k) = gamma k) (hbe : ∀ k, BE (ix2 (0 : Fin 1) k) = beta k)
    (p : Fin 131072) (k : Fin 128) :
    rowAct Z MU INV GA BE p k = act z mu va gamma beta p k := by
  unfold rowAct act
  rw [hz p k, hmu k, hinv k, hga k, hbe k]

/-- One head entry: column c of the joined weights and bias is column q of the head's own weights and bias. -/
theorem headAt_eq_head (a : Fin 128 → EReal) (A : Mat 131072 128) (p : Fin 131072) (ha : ∀ k, a k = A p k)
    (WH : (⟨2, ![128, 512]⟩ : Shape).Idx → EReal) (BH : (⟨2, ![1, 512]⟩ : Shape).Idx → EReal)
    (W : Mat 128 128) (b : Fin 128 → EReal) (c : Fin 512) (q : Fin 128)
    (hw : ∀ k : Fin 128, WH (ix2 k c) = W k q) (hb : BH (ix2 (0 : Fin 1) c) = b q) :
    headAt a WH BH c = head A W b p q := by
  unfold headAt head
  rw [hb]
  refine congrArg (· + b q) (Finset.sum_congr rfl fun k _ => ?_)
  rw [hw k, ha k]

/-- The gated output entry (p, q): the row form over arrays is the matrix form. -/
theorem gateRow_eq_tail (Z : (⟨2, ![131072, 128]⟩ : Shape).Idx → EReal) (T : (⟨2, ![131072, 1]⟩ : Shape).Idx → EReal)
    (MU INV GA BE : (⟨2, ![1, 128]⟩ : Shape).Idx → EReal) (WH : (⟨2, ![128, 512]⟩ : Shape).Idx → EReal)
    (BH : (⟨2, ![1, 512]⟩ : Shape).Idx → EReal)
    (z : Mat 131072 128) (mu va : Fin 128 → EReal) (t : Fin 131072 → EReal) (gamma beta : Fin 128 → EReal)
    (Wg : Mat 128 128) (bg : Fin 128 → EReal) (Wf : Mat 128 128) (bf : Fin 128 → EReal)
    (Wh : Mat 128 128) (bh : Fin 128 → EReal) (Wt : Mat 128 128) (bt : Fin 128 → EReal)
    (hz : ∀ p k, Z (ix2 p k) = z p k) (hmu : ∀ k, MU (ix2 (0 : Fin 1) k) = mu k)
    (hinv : ∀ k, INV (ix2 (0 : Fin 1) k) = Ideal.rsqrt (va k + cEps))
    (hga : ∀ k, GA (ix2 (0 : Fin 1) k) = gamma k) (hbe : ∀ k, BE (ix2 (0 : Fin 1) k) = beta k)
    (ht : ∀ p, T (ix2 p (0 : Fin 1)) = t p)
    (hw0 : ∀ (k q : Fin 128), WH (ix2 k (⟨q.val, by have := q.isLt; omega⟩ : Fin 512)) = Wg k q)
    (hw1 : ∀ (k q : Fin 128), WH (ix2 k (⟨128 + q.val, by have := q.isLt; omega⟩ : Fin 512)) = Wf k q)
    (hw2 : ∀ (k q : Fin 128), WH (ix2 k (⟨256 + q.val, by have := q.isLt; omega⟩ : Fin 512)) = Wh k q)
    (hw3 : ∀ (k q : Fin 128), WH (ix2 k (⟨384 + q.val, by have := q.isLt; omega⟩ : Fin 512)) = Wt k q)
    (hb0 : ∀ q : Fin 128, BH (ix2 (0 : Fin 1) (⟨q.val, by have := q.isLt; omega⟩ : Fin 512)) = bg q)
    (hb1 : ∀ q : Fin 128, BH (ix2 (0 : Fin 1) (⟨128 + q.val, by have := q.isLt; omega⟩ : Fin 512)) = bf q)
    (hb2 : ∀ q : Fin 128, BH (ix2 (0 : Fin 1) (⟨256 + q.val, by have := q.isLt; omega⟩ : Fin 512)) = bh q)
    (hb3 : ∀ q : Fin 128, BH (ix2 (0 : Fin 1) (⟨384 + q.val, by have := q.isLt; omega⟩ : Fin 512)) = bt q)
    (p : Fin 131072) (q : Fin 128) :
    gateRow Z T MU INV GA BE WH BH p q = tail z mu va t gamma beta Wg bg Wf bf Wh bh Wt bt p q := by
  have ha : ∀ k, rowAct Z MU INV GA BE p k = act z mu va gamma beta p k :=
    fun k => rowAct_eq_act Z MU INV GA BE z mu va gamma beta hz hmu hinv hga hbe p k
  unfold gateRow tail
  exact congr (congr (congr (congr (congrArg gate
      (headAt_eq_head _ _ p ha WH BH Wg bg _ q (fun k => hw0 k q) (hb0 q)))
      (headAt_eq_head _ _ p ha WH BH Wf bf _ q (fun k => hw1 k q) (hb1 q)))
      (headAt_eq_head _ _ p ha WH BH Wh bh _ q (fun k => hw2 k q) (hb2 q)))
      (headAt_eq_head _ _ p ha WH BH Wt bt _ q (fun k => hw3 k q) (hb3 q)))
    (ht p)

end Cert.Spec

end
-- ==== Proof.KIValue.lean ====
/- The kernel program's result array as one function of the launch arrays: the second pallas_call's write-backs leave the
   gated output of every row, computed from the pre-activations and block tables the first left and the rows the host
   folded from them; read entry by entry, that is the block-table spelling of the network's result. -/
import proofs.«126462_j38199439131313_2_alg».proof.Proof.KIReads
import proofs.«126462_j38199439131313_2_alg».proof.Proof.KIVal1
import proofs.«126462_j38199439131313_2_alg».proof.Proof.KIPay1
import proofs.«126462_j38199439131313_2_alg».proof.Proof.GateTail

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Cert.Spec Cert.KernelIdeal.HostRead

variable (m : (ℓ : Loc nD τ sig) → Buf (Elt Ideal) ℓ) (ρ : Dev nD → PrngReg)

/-- The folded pre-activation over the launch arrays. -/
abbrev Zm (c : Dev nD) : Mat 131072 128 :=
  preFolded (mat (m ((c : Thread nD τ).loc main_arg0) : S131072x128.Idx → EReal)) (mat (m ((c : Thread nD τ).loc main_arg1) : S131072x128.Idx → EReal)) (mat (m ((c : Thread nD τ).loc main_arg3) : S256x128.Idx → EReal)) (mat (m ((c : Thread nD τ).loc main_arg4) : S128x128.Idx → EReal))

theorem mat_zArr (c : Dev nD) : mat (zArr (Vb1 m ρ) c) = Zm m c :=
  funext fun p => funext fun k => zArr_apply m ρ c p k

theorem sumArr_apply (c : Dev nD) (r : Fin 256) (k : Fin 128) : sumArr (Vb1 m ρ) c (ix2 r k) = blockTable (Zm m c) r k := by
  unfold sumArr; rw [mat_zArr]
theorem sqArr_apply (c : Dev nD) (r : Fin 256) (k : Fin 128) :
    sqArr (Vb1 m ρ) c (ix2 r k) = blockTable (fun a b => Zm m c a b * Zm m c a b) r k := by
  unfold sqArr; rw [mat_zArr]

/-- The host's mean of the table of block sums is the block-table mean of the folded pre-activation; likewise E[z^2]. -/
theorem M_sum (c : Dev nD) (k : Fin 128) : M (sumArr (Vb1 m ρ) c) k = meanBlocks (Zm m c) k := by
  unfold meanBlocks
  show Ideal.div (cZero + ∑ r : Fin 256, sumArr (Vb1 m ρ) c (ix2 r k)) cB = _
  simp only [sumArr_apply]
theorem M_sq (c : Dev nD) (k : Fin 128) :
    M (sqArr (Vb1 m ρ) c) k = Ideal.div (cZero + ∑ r : Fin 256, blockTable (fun a b => Zm m c a b * Zm m c a b) r k) cB := by
  show Ideal.div (cZero + ∑ r : Fin 256, sqArr (Vb1 m ρ) c (ix2 r k)) cB = _
  simp only [sqArr_apply]

/-- The result array after the run, entry by entry. -/
theorem value_eq (c : Dev nD) :
    ((dat1 (F := Ideal) (Vb3 m ρ) c).arrAt 8 cfg1.N : S131072x128.Idx → EReal)
      = fun i => outBlocks (mat (m ((c : Thread nD τ).loc main_arg0) : S131072x128.Idx → EReal))
          (mat (m ((c : Thread nD τ).loc main_arg1) : S131072x128.Idx → EReal))
          (col (m ((c : Thread nD τ).loc main_arg2) : S131072x1.Idx → EReal))
          (mat (m ((c : Thread nD τ).loc main_arg3) : S256x128.Idx → EReal))
          (mat (m ((c : Thread nD τ).loc main_arg4) : S128x128.Idx → EReal))
          (vec (m ((c : Thread nD τ).loc main_arg5) : S128.Idx → EReal))
          (vec (m ((c : Thread nD τ).loc main_arg6) : S128.Idx → EReal))
          (mat (m ((c : Thread nD τ).loc main_arg7) : S128x128.Idx → EReal))
          (vec (m ((c : Thread nD τ).loc main_arg8) : S128.Idx → EReal))
          (mat (m ((c : Thread nD τ).loc main_arg9) : S128x128.Idx → EReal))
          (vec (m ((c : Thread nD τ).loc main_arg10) : S128.Idx → EReal))
          (mat (m ((c : Thread nD τ).loc main_arg11) : S128x128.Idx → EReal))
          (vec (m ((c : Thread nD τ).loc main_arg12) : S128.Idx → EReal))
          (mat (m ((c : Thread nD τ).loc main_arg13) : S128x128.Idx → EReal))
          (vec (m ((c : Thread nD τ).loc main_arg14) : S128.Idx → EReal)) (i 0) (i 1) := by
  rw [final1_8 (Vb3 m ρ) Pay.gate_apply c]
  funext i
  unfold outBlocks
  refine gateRow_eq_tail _ _ _ _ _ _ _ _ _ _ _ _ _ _ _ _ _ _ _ _ _ _ ?hz ?hmu ?hinv ?hga ?hbe ?ht ?hw0 ?hw1 ?hw2 ?hw3 ?hb0 ?hb1 ?hb2 ?hb3 (i 0) (i 1)
  case hz => intro p k; rw [Vb3_v4_0]; exact zArr_apply m ρ c p k
  case hmu =>
    intro k; rw [Vb3_v16, meanRow_apply]
    exact M_sum m ρ c k
  case hinv =>
    intro k; rw [Vb3_v17, scaleRow_apply, M_sum, M_sq]
    rfl
  case hga => intro k; rw [Vb3_v18, plainRow_apply]; rfl
  case hbe => intro k; rw [Vb3_v19, plainRow_apply]; rfl
  case ht => intro p; rw [Vb3_arg2]; rfl
  case hw0 => intro k q; rw [Vb3_v20, whead_0]; rfl
  case hw1 => intro k q; rw [Vb3_v20, whead_1]; rfl
  case hw2 => intro k q; rw [Vb3_v20, whead_2]; rfl
  case hw3 => intro k q; rw [Vb3_v20, whead_3]; rfl
  case hb0 => intro q; rw [Vb3_v22, bhead_0]; rfl
  case hb1 => intro q; rw [Vb3_v22, bhead_1]; rfl
  case hb2 => intro q; rw [Vb3_v22, bhead_2]; rfl
  case hb3 => intro q; rw [Vb3_v22, bhead_3]; rfl

end Cert.KernelIdeal.Frm

end
-- ==== Proof.RefPre.lean ====
/- The reference's run, read one operation at a time at an index: each named intermediate of the reference is the
   corresponding function of Spec.lean, entry by entry. -/
import proofs.«126462_j38199439131313_2_alg».proof.Proof.Gen.ReferenceIdeal.Read
import proofs.«126462_j38199439131313_2_alg».proof.Proof.Spec
import Idealize.ShloMosaic.Lib.Pipeline.Value
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.StableHlo
open Cert.Spec (mat vec col)

/-- Two rank-2 indices with the same coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

variable (x0 x1 : S131072x128.Idx → EReal) (x2 : S131072x1.Idx → EReal) (x3 : S256x128.Idx → EReal) (x4 : S128x128.Idx → EReal)
  (x5 x6 : S128.Idx → EReal) (x7 : S128x128.Idx → EReal) (x8 : S128.Idx → EReal) (x9 : S128x128.Idx → EReal) (x10 : S128.Idx → EReal)
  (x11 : S128x128.Idx → EReal) (x12 : S128.Idx → EReal) (x13 : S128x128.Idx → EReal) (x14 : S128.Idx → EReal)

/-- The joined input [x, h] at row p, column k: x's column k below 128, h's column k - 128 from 128 on. -/
theorem joined_apply (p : Fin 131072) (k : Fin 256) :
    val_main_v0 (F := Ideal) x0 x1 (ValueIdx.ix2 p k) = Spec.joined (mat x0) (mat x1) p k := by
  unfold val_main_v0 Spec.joined
  by_cases hk : k.val < 128
  · rw [dif_pos hk]
    exact concatenate_pair_apply_left (t := S131072x256) 1 x0 x1 _ (ValueIdx.ix2 p k) rfl (ValueIdx.ix2 p ⟨k.val, hk⟩) (fun b => by
      match b with
      | ⟨0, _⟩ => rfl
      | ⟨1, _⟩ => rfl)
  · rw [dif_neg hk]
    exact concatenate_pair_apply_right (t := S131072x256) 1 x0 x1 _ (ValueIdx.ix2 p k) rfl rfl
      (ValueIdx.ix2 p ⟨k.val - 128, by have := k.isLt; omega⟩)
      (fun b hb => by
        match b with
        | ⟨0, _⟩ => rfl
        | ⟨1, _⟩ => exact absurd rfl hb)
      (by show k.val - 128 + 128 = k.val; omega)

/-- The pre-activation: the two linear maps one after the other. -/
theorem pre_apply (p : Fin 131072) (q : Fin 128) :
    val_main_v2 (F := Ideal) x0 x1 x3 x4 (ValueIdx.ix2 p q) = Spec.pre (mat x0) (mat x1) (mat x3) (mat x4) p q := by
  rw [val_main_v2_apply]
  unfold Spec.pre
  refine Finset.sum_congr rfl fun l _ => ?_
  have e1 : lidx_main_v2 (ValueIdx.ix2 p q) l = ValueIdx.ix2 p l := by idx2
  have e2 : ridx_main_v2 (ValueIdx.ix2 p q) l = ValueIdx.ix2 l q := by idx2
  rw [e1, e2, val_main_v1_apply]
  refine congrArg₂ (· * ·) (Finset.sum_congr rfl fun k _ => ?_) rfl
  have e3 : lidx_main_v1 (ValueIdx.ix2 p l) k = ValueIdx.ix2 p k := by idx2
  have e4 : ridx_main_v1 (ValueIdx.ix2 p l) k = ValueIdx.ix2 k l := by idx2
  rw [e3, e4, joined_apply]
  rfl

/-- The batch mean of a column. -/
theorem mean_apply (q : Fin 128) :
    val_main_v5 (F := Ideal) x0 x1 x3 x4 (ValueIdx.ix1 q)
      = Spec.mean (Spec.pre (mat x0) (mat x1) (mat x3) (mat x4)) q := by
  rw [val_main_v5_apply, val_main_v3_apply, val_main_cst_apply, val_main_v4_apply, val_main_cst_0_apply]
  unfold Spec.mean
  simp only [Ideal.hostDivf_def, Ideal.ofBits_def]
  refine congrArg₂ Ideal.div (congrArg₂ (· + ·) rfl (Finset.sum_congr rfl fun k _ => ?_)) rfl
  have e : idx_main_v3 (ValueIdx.ix1 q) k = ValueIdx.ix2 k q := by idx2
  rw [e, pre_apply]

/-- The mean spread over the rows, in its two occurrences. -/
theorem meanB_apply (p : Fin 131072) (q : Fin 128) :
    val_main_v7 (F := Ideal) x0 x1 x3 x4 (ValueIdx.ix2 p q)
      = Spec.mean (Spec.pre (mat x0) (mat x1) (mat x3) (mat x4)) q := by
  rw [val_main_v7_apply, val_main_v6_apply]
  have e : idx_main_v6 (idx_main_v7 (ValueIdx.ix2 p q)) = ValueIdx.ix1 q := by idx1
  rw [e, mean_apply]

theorem meanB'_apply (p : Fin 131072) (q : Fin 128) :
    val_main_v14 (F := Ideal) x0 x1 x3 x4 (ValueIdx.ix2 p q)
      = Spec.mean (Spec.pre (mat x0) (mat x1) (mat x3) (mat x4)) q := by
  rw [val_main_v14_apply, val_main_v13_apply]
  have e : idx_main_v13 (idx_main_v14 (ValueIdx.ix2 p q)) = ValueIdx.ix1 q := by idx1
  rw [e, mean_apply]

/-- The biased batch variance of a column. -/
theorem var_apply (q : Fin 128) :
    val_main_v12 (F := Ideal) x0 x1 x3 x4 (ValueIdx.ix1 q)
      = Spec.var (Spec.pre (mat x0) (mat x1) (mat x3) (mat x4)) q := by
  rw [val_main_v12_apply, val_main_v10_apply, val_main_cst_1_apply, val_main_v11_apply, val_main_cst_2_apply]
  unfold Spec.var
  simp only [Ideal.hostDivf_def, Ideal.ofBits_def]
  refine congrArg₂ Ideal.div (congrArg₂ (· + ·) rfl (Finset.sum_congr rfl fun k _ => ?_)) rfl
  have e : idx_main_v10 (ValueIdx.ix1 q) k = ValueIdx.ix2 k q := by idx2
  rw [e, val_main_v9_apply, val_main_v8_apply, meanB_apply, pre_apply]
  rfl

/-- The reciprocal square root of the variance plus epsilon, spread over the rows. -/
theorem rstd_apply (p : Fin 131072) (q : Fin 128) :
    val_main_v20 (F := Ideal) x0 x1 x3 x4 (ValueIdx.ix2 p q)
      = Ideal.rsqrt (Spec.var (Spec.pre (mat x0) (mat x1) (mat x3) (mat x4)) q + Spec.cEps) := by
  rw [val_main_v20_apply, val_main_v19_apply]
  have e : idx_main_v19 (idx_main_v20 (ValueIdx.ix2 p q)) = ValueIdx.ix1 q := by idx1
  rw [e, val_main_v18_apply, val_main_v17_apply, var_apply, val_main_v16_apply, val_main_cst_3_apply]
  rfl

/-- The normalised, scaled, shifted and rectified activation. -/
theorem act_apply (p : Fin 131072) (q : Fin 128) :
    val_main_v32 (F := Ideal) x0 x1 x3 x4 x5 x6 (ValueIdx.ix2 p q)
      = Spec.act (Spec.pre (mat x0) (mat x1) (mat x3) (mat x4)) (Spec.mean (Spec.pre (mat x0) (mat x1) (mat x3) (mat x4)))
          (Spec.var (Spec.pre (mat x0) (mat x1) (mat x3) (mat x4))) (vec x5) (vec x6) p q := by
  have h27 : val_main_v27 (F := Ideal) x0 x1 x3 x4 x5 x6 (ValueIdx.ix2 p q)
      = (Spec.pre (mat x0) (mat x1) (mat x3) (mat x4) p q - Spec.mean (Spec.pre (mat x0) (mat x1) (mat x3) (mat x4)) q)
          * Ideal.rsqrt (Spec.var (Spec.pre (mat x0) (mat x1) (mat x3) (mat x4)) q + Spec.cEps) * vec x5 q + vec x6 q := by
    rw [val_main_v27_apply, val_main_v24_apply, val_main_v21_apply, val_main_v15_apply, pre_apply, meanB'_apply, rstd_apply,
      val_main_v23_apply, val_main_v22_apply, val_main_v26_apply, val_main_v25_apply]
    have e5 : idx_main_v22 (idx_main_v23 (ValueIdx.ix2 p q)) = ValueIdx.ix1 q := by idx1
    have e6 : idx_main_v25 (idx_main_v26 (ValueIdx.ix2 p q)) = ValueIdx.ix1 q := by idx1
    rw [e5, e6]
    rfl
  rw [val_main_v32_apply, val_main_v29_apply, val_main_v31_apply, h27, val_main_v28_apply, val_main_cst_4_apply,
    val_main_v30_apply, val_main_cst_5_apply]
  rfl

/-- The head under the output's second hyperbolic tangent, before the tangent. -/
theorem headG_apply (p : Fin 131072) (q : Fin 128) :
    val_main_v36 (F := Ideal) x0 x1 x3 x4 x5 x6 x7 x8 (ValueIdx.ix2 p q)
      = Spec.head (Spec.act (Spec.pre (mat x0) (mat x1) (mat x3) (mat x4)) (Spec.mean (Spec.pre (mat x0) (mat x1) (mat x3) (mat x4)))
          (Spec.var (Spec.pre (mat x0) (mat x1) (mat x3) (mat x4))) (vec x5) (vec x6)) (mat x7) (vec x8) p q := by
  rw [val_main_v36_apply, val_main_v33_apply, val_main_v35_apply, val_main_v34_apply, Ideal.addf_def]
  have e : idx_main_v34 (idx_main_v35 (ValueIdx.ix2 p q)) = ValueIdx.ix1 q := by idx1
  rw [e]
  unfold Spec.head
  refine congrArg₂ (· + ·) (Finset.sum_congr rfl fun k _ => ?_) rfl
  have e1 : lidx_main_v33 (ValueIdx.ix2 p q) k = ValueIdx.ix2 p k := by idx2
  have e2 : ridx_main_v33 (ValueIdx.ix2 p q) k = ValueIdx.ix2 k q := by idx2
  rw [e1, e2, act_apply]
  rfl

/-- The second summand of the gate's argument. -/
theorem headF_apply (p : Fin 131072) (q : Fin 128) :
    val_main_v41 (F := Ideal) x0 x1 x3 x4 x5 x6 x9 x10 (ValueIdx.ix2 p q)
      = Spec.head (Spec.act (Spec.pre (mat x0) (mat x1) (mat x3) (mat x4)) (Spec.mean (Spec.pre (mat x0) (mat x1) (mat x3) (mat x4)))
          (Spec.var (Spec.pre (mat x0) (mat x1) (mat x3) (mat x4))) (vec x5) (vec x6)) (mat x9) (vec x10) p q := by
  rw [val_main_v41_apply, val_main_v38_apply, val_main_v40_apply, val_main_v39_apply, Ideal.addf_def]
  have e : idx_main_v39 (idx_main_v40 (ValueIdx.ix2 p q)) = ValueIdx.ix1 q := by idx1
  rw [e]
  unfold Spec.head
  refine congrArg₂ (· + ·) (Finset.sum_congr rfl fun k _ => ?_) rfl
  have e1 : lidx_main_v38 (ValueIdx.ix2 p q) k = ValueIdx.ix2 p k := by idx2
  have e2 : ridx_main_v38 (ValueIdx.ix2 p q) k = ValueIdx.ix2 k q := by idx2
  rw [e1, e2, act_apply]
  rfl

/-- The head under the output's first hyperbolic tangent, before the tangent. -/
theorem headH_apply (p : Fin 131072) (q : Fin 128) :
    val_main_v45 (F := Ideal) x0 x1 x3 x4 x5 x6 x11 x12 (ValueIdx.ix2 p q)
      = Spec.head (Spec.act (Spec.pre (mat x0) (mat x1) (mat x3) (mat x4)) (Spec.mean (Spec.pre (mat x0) (mat x1) (mat x3) (mat x4)))
          (Spec.var (Spec.pre (mat x0) (mat x1) (mat x3) (mat x4))) (vec x5) (vec x6)) (mat x11) (vec x12) p q := by
  rw [val_main_v45_apply, val_main_v42_apply, val_main_v44_apply, val_main_v43_apply, Ideal.addf_def]
  have e : idx_main_v43 (idx_main_v44 (ValueIdx.ix2 p q)) = ValueIdx.ix1 q := by idx1
  rw [e]
  unfold Spec.head
  refine congrArg₂ (· + ·) (Finset.sum_congr rfl fun k _ => ?_) rfl
  have e1 : lidx_main_v42 (ValueIdx.ix2 p q) k = ValueIdx.ix2 p k := by idx2
  have e2 : ridx_main_v42 (ValueIdx.ix2 p q) k = ValueIdx.ix2 k q := by idx2
  rw [e1, e2, act_apply]
  rfl

/-- The first summand of the gate's argument. -/
theorem headT_apply (p : Fin 131072) (q : Fin 128) :
    val_main_v50 (F := Ideal) x0 x1 x3 x4 x5 x6 x13 x14 (ValueIdx.ix2 p q)
      = Spec.head (Spec.act (Spec.pre (mat x0) (mat x1) (mat x3) (mat x4)) (Spec.mean (Spec.pre (mat x0) (mat x1) (mat x3) (mat x4)))
          (Spec.var (Spec.pre (mat x0) (mat x1) (mat x3) (mat x4))) (vec x5) (vec x6)) (mat x13) (vec x14) p q := by
  rw [val_main_v50_apply, val_main_v47_apply, val_main_v49_apply, val_main_v48_apply, Ideal.addf_def]
  have e : idx_main_v48 (idx_main_v49 (ValueIdx.ix2 p q)) = ValueIdx.ix1 q := by idx1
  rw [e]
  unfold Spec.head
  refine congrArg₂ (· + ·) (Finset.sum_congr rfl fun k _ => ?_) rfl
  have e1 : lidx_main_v47 (ValueIdx.ix2 p q) k = ValueIdx.ix2 p k := by idx2
  have e2 : ridx_main_v47 (ValueIdx.ix2 p q) k = ValueIdx.ix2 k q := by idx2
  rw [e1, e2, act_apply]
  rfl

/-- The float word of one denotes the real number one. -/
theorem ofBits_one : Ideal.ofBits .f32 0x3F800000#32 = 1 := by
  simp [Ideal.ofBits, Ideal.ieee, -EReal.coe_mul]; norm_num

/-- The gate's weight: one over one plus the exponential of the negated argument is the logistic function. -/
theorem sigma_apply (p : Fin 131072) (q : Fin 128) :
    val_main_v59 (F := Ideal) x0 x1 x2 x3 x4 x5 x6 x9 x10 x13 x14 (ValueIdx.ix2 p q)
      = Ideal.logistic ((Spec.head (Spec.act (Spec.pre (mat x0) (mat x1) (mat x3) (mat x4)) (Spec.mean (Spec.pre (mat x0) (mat x1) (mat x3) (mat x4)))
          (Spec.var (Spec.pre (mat x0) (mat x1) (mat x3) (mat x4))) (vec x5) (vec x6)) (mat x13) (vec x14) p q
          + Spec.head (Spec.act (Spec.pre (mat x0) (mat x1) (mat x3) (mat x4)) (Spec.mean (Spec.pre (mat x0) (mat x1) (mat x3) (mat x4)))
          (Spec.var (Spec.pre (mat x0) (mat x1) (mat x3) (mat x4))) (vec x5) (vec x6)) (mat x9) (vec x10) p q) * col x2 p) := by
  rw [val_main_v59_apply, val_main_v58_apply, val_main_cst_7_apply, val_main_v57_apply, val_main_v56_apply,
    val_main_cst_6_apply, val_main_v55_apply, val_main_v54_apply, val_main_v53_apply, val_main_v51_apply, headT_apply,
    headF_apply, val_main_v52_apply]
  have e : idx_main_v52 (ValueIdx.ix2 p q) = ValueIdx.ix2 p (0 : Fin 1) := by idx2
  rw [e]
  simp only [Ideal.hostDivf_def, Ideal.ofBits_def, Ideal.addf_def, Ideal.hostUnary_exp_def, Ideal.hostNegf_def,
    Ideal.negf_def, Ideal.mulf_def, ofBits_one]
  rfl

/-- The reference's result at row p, feature q. -/
theorem out_apply (p : Fin 131072) (q : Fin 128) :
    val_main_v64 (F := Ideal) x0 x1 x2 x3 x4 x5 x6 x7 x8 x9 x10 x11 x12 x13 x14 (ValueIdx.ix2 p q)
      = Spec.out (mat x0) (mat x1) (col x2) (mat x3) (mat x4) (vec x5) (vec x6) (mat x7) (vec x8) (mat x9) (vec x10)
          (mat x11) (vec x12) (mat x13) (vec x14) p q := by
  rw [val_main_v64_apply, val_main_v62_apply, val_main_v63_apply, val_main_v46_apply, headH_apply, val_main_v37_apply,
    headG_apply, val_main_v61_apply, sigma_apply, val_main_v60_apply, val_main_cst_8_apply]
  rfl

/-- The reference program's result is Spec.out of the argument arrays read through their coordinates. -/
theorem ref_eq :
    val_main_v64 (F := Ideal) x0 x1 x2 x3 x4 x5 x6 x7 x8 x9 x10 x11 x12 x13 x14
      = fun i => Spec.out (mat x0) (mat x1) (col x2) (mat x3) (mat x4) (vec x5) (vec x6) (mat x7) (vec x8) (mat x9) (vec x10)
          (mat x11) (vec x12) (mat x13) (vec x14) (i 0) (i 1) := by
  funext i
  obtain ⟨a, b, rfl⟩ : ∃ a b, i = ValueIdx.ix2 a b := ⟨_, _, ValueIdx.eq_ix2 i⟩
  exact out_apply x0 x1 x2 x3 x4 x5 x6 x7 x8 x9 x10 x11 x12 x13 x14 a b

end Cert.ReferenceIdeal.RefValue

end
-- ==== Proof.LawsCoe.lean ====
/- The coercion of the reals into the extended reals carries a finite sum to the sum of the coercions. -/
import Mathlib.Data.EReal.Basic
import Mathlib.Algebra.BigOperators.Fin

open scoped BigOperators

namespace Cert.Laws

/-- The coercion ℝ → EReal is additive, so it commutes with finite sums (induction on the index set). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all real is real, with the sum of the witnesses as its value. -/
theorem sum_coe_eq {ι : Type*} (s : Finset ι) (f : ι → EReal) (a : ι → ℝ) (h : ∀ i, f i = (a i : EReal)) :
    ∑ i ∈ s, f i = ((∑ i ∈ s, a i : ℝ) : EReal) := by
  rw [coe_sum]
  exact Finset.sum_congr rfl fun i _ => h i

end Cert.Laws
-- ==== Proof.LawsPre.lean ====
/- The two spellings of the pre-activation agree on real inputs.

   The reference multiplies the joined input [x, h] by W0 and the result by W1; the kernel multiplies W0's two halves
   by W1 first and adds x times the upper product to h times the lower product.  Over the reals this is associativity
   and distributivity of finite sums.  The extended reals are not distributive at the infinities, so every entry is
   first written as the coercion of a real number, the coercion is pulled out of the products and sums, and the
   algebra is done in the reals. -/
import proofs.«126462_j38199439131313_2_alg».proof.Proof.Spec
import proofs.«126462_j38199439131313_2_alg».proof.Proof.LawsCoe

open scoped BigOperators

noncomputable section

namespace Cert.Laws

open Cert.Spec

/-- The joined input over the reals: columns 0..127 are the first matrix's, columns 128..255 the second's. -/
def joinedR (xr hr : Fin 131072 → Fin 128 → ℝ) : Fin 131072 → Fin 256 → ℝ := fun i k =>
  if hk : k.val < 128 then xr i ⟨k.val, hk⟩ else hr i ⟨k.val - 128, by have := k.isLt; omega⟩

theorem joinedR_left (xr hr : Fin 131072 → Fin 128 → ℝ) (i : Fin 131072) (k : Fin 128) :
    joinedR xr hr i (Fin.castAdd 128 k) = xr i k := by
  unfold joinedR
  rw [dif_pos (show (Fin.castAdd 128 k).val < 128 from k.isLt)]
  rfl

theorem joinedR_right (xr hr : Fin 131072 → Fin 128 → ℝ) (i : Fin 131072) (k : Fin 128) :
    joinedR xr hr i (Fin.natAdd 128 k) = hr i k := by
  unfold joinedR
  rw [dif_neg (show ¬ (Fin.natAdd 128 k).val < 128 from by show ¬ (128 + k.val < 128); omega)]
  congr 1
  apply Fin.ext
  show 128 + k.val - 128 = k.val
  omega

/-- The joined input of two real matrices is real, entry by entry. -/
theorem joined_coe (x h : Mat 131072 128) (xr hr : Fin 131072 → Fin 128 → ℝ)
    (hx : ∀ i k, x i k = (xr i k : EReal)) (hh : ∀ i k, h i k = (hr i k : EReal)) (i : Fin 131072) (k : Fin 256) :
    joined x h i k = (joinedR xr hr i k : EReal) := by
  unfold joined joinedR
  by_cases hk : k.val < 128
  · rw [dif_pos hk, dif_pos hk]; exact hx _ _
  · rw [dif_neg hk, dif_neg hk]; exact hh _ _

/-- The reference's pre-activation of real inputs is the coercion of the same double sum taken in the reals. -/
theorem pre_coe (x h : Mat 131072 128) (W0 : Mat 256 128) (W1 : Mat 128 128)
    (xr hr : Fin 131072 → Fin 128 → ℝ) (w0 : Fin 256 → Fin 128 → ℝ) (w1 : Fin 128 → Fin 128 → ℝ)
    (hx : ∀ i k, x i k = (xr i k : EReal)) (hh : ∀ i k, h i k = (hr i k : EReal))
    (hw0 : ∀ k l, W0 k l = (w0 k l : EReal)) (hw1 : ∀ l j, W1 l j = (w1 l j : EReal)) (i : Fin 131072) (j : Fin 128) :
    pre x h W0 W1 i j
      = ((∑ l : Fin 128, (∑ k : Fin 256, joinedR xr hr i k * w0 k l) * w1 l j : ℝ) : EReal) := by
  unfold pre
  refine sum_coe_eq _ _ _ fun l => ?_
  rw [hw1, EReal.coe_mul]
  congr 1
  refine sum_coe_eq _ _ _ fun k => ?_
  rw [joined_coe x h xr hr hx hh, hw0, EReal.coe_mul]

/-- The folded pre-activation of real inputs is the coercion of its own formula taken in the reals. -/
theorem preFolded_coe (x h : Mat 131072 128) (W0 : Mat 256 128) (W1 : Mat 128 128)
    (xr hr : Fin 131072 → Fin 128 → ℝ) (w0 : Fin 256 → Fin 128 → ℝ) (w1 : Fin 128 → Fin 128 → ℝ)
    (hx : ∀ i k, x i k = (xr i k : EReal)) (hh : ∀ i k, h i k = (hr i k : EReal))
    (hw0 : ∀ k l, W0 k l = (w0 k l : EReal)) (hw1 : ∀ l j, W1 l j = (w1 l j : EReal)) (i : Fin 131072) (j : Fin 128) :
    preFolded x h W0 W1 i j
      = (((∑ k : Fin 128, xr i k * ∑ l : Fin 128, w0 (Fin.castAdd 128 k) l * w1 l j)
          + ∑ k : Fin 128, hr i k * ∑ l : Fin 128, w0 (Fin.natAdd 128 k) l * w1 l j : ℝ) : EReal) := by
  unfold preFolded mm
  rw [EReal.coe_add]
  congr 1
  · refine sum_coe_eq _ _ _ fun k => ?_
    rw [hx, EReal.coe_mul]
    congr 1
    refine sum_coe_eq _ _ _ fun l => ?_
    rw [hw1, EReal.coe_mul]
    congr 1
    exact hw0 _ _
  · refine sum_coe_eq _ _ _ fun k => ?_
    rw [hh, EReal.coe_mul]
    congr 1
    refine sum_coe_eq _ _ _ fun l => ?_
    rw [hw1, EReal.coe_mul]
    congr 1
    exact hw0 _ _

/-- In the reals: a row a of length n + n times a matrix w0, then times a column w1, is the first half of a times
    (the upper half of w0 times w1) plus the second half of a times (the lower half of w0 times w1). -/
theorem real_fold {n p : ℕ} (a : Fin (n + n) → ℝ) (w0 : Fin (n + n) → Fin p → ℝ) (w1 : Fin p → ℝ) :
    ∑ l : Fin p, (∑ k : Fin (n + n), a k * w0 k l) * w1 l
      = (∑ k : Fin n, a (Fin.castAdd n k) * ∑ l : Fin p, w0 (Fin.castAdd n k) l * w1 l)
        + ∑ k : Fin n, a (Fin.natAdd n k) * ∑ l : Fin p, w0 (Fin.natAdd n k) l * w1 l := by
  have e : ∀ l : Fin p, (∑ k : Fin (n + n), a k * w0 k l) * w1 l
      = (∑ k : Fin n, a (Fin.castAdd n k) * (w0 (Fin.castAdd n k) l * w1 l))
        + ∑ k : Fin n, a (Fin.natAdd n k) * (w0 (Fin.natAdd n k) l * w1 l) := fun l => by
    rw [Fin.sum_univ_add, add_mul, Finset.sum_mul, Finset.sum_mul]
    congr 1 <;> exact Finset.sum_congr rfl fun k _ => mul_assoc _ _ _
  rw [Finset.sum_congr rfl (fun l _ => e l), Finset.sum_add_distrib]
  congr 1
  · rw [Finset.sum_comm]
    exact Finset.sum_congr rfl fun k _ => (Finset.mul_sum _ _ _).symm
  · rw [Finset.sum_comm]
    exact Finset.sum_congr rfl fun k _ => (Finset.mul_sum _ _ _).symm

/-- On real inputs the folded pre-activation is the reference's. -/
theorem preFolded_eq_pre (x h : Mat 131072 128) (W0 : Mat 256 128) (W1 : Mat 128 128)
    (hx : ∀ i k, ∃ r : ℝ, x i k = (r : EReal)) (hh : ∀ i k, ∃ r : ℝ, h i k = (r : EReal))
    (hW0 : ∀ k l, ∃ r : ℝ, W0 k l = (r : EReal)) (hW1 : ∀ l j, ∃ r : ℝ, W1 l j = (r : EReal)) :
    preFolded x h W0 W1 = pre x h W0 W1 := by
  choose xr hxr using hx
  choose hr hhr using hh
  choose w0 hw0 using hW0
  choose w1 hw1 using hW1
  funext i j
  rw [preFolded_coe x h W0 W1 xr hr w0 w1 hxr hhr hw0 hw1 i j, pre_coe x h W0 W1 xr hr w0 w1 hxr hhr hw0 hw1 i j]
  have key := real_fold (n := 128) (p := 128) (joinedR xr hr i) w0 (fun l => w1 l j)
  simp only [joinedR_left, joinedR_right] at key
  exact congrArg _ key.symm

/-- The reference's pre-activation of real inputs is real-valued. -/
theorem pre_real (x h : Mat 131072 128) (W0 : Mat 256 128) (W1 : Mat 128 128)
    (hx : ∀ i k, ∃ r : ℝ, x i k = (r : EReal)) (hh : ∀ i k, ∃ r : ℝ, h i k = (r : EReal))
    (hW0 : ∀ k l, ∃ r : ℝ, W0 k l = (r : EReal)) (hW1 : ∀ l j, ∃ r : ℝ, W1 l j = (r : EReal)) :
    ∀ i j, ∃ r : ℝ, pre x h W0 W1 i j = (r : EReal) := by
  choose xr hxr using hx
  choose hr hhr using hh
  choose w0 hw0 using hW0
  choose w1 hw1 using hW1
  exact fun i j => ⟨_, pre_coe x h W0 W1 xr hr w0 w1 hxr hhr hw0 hw1 i j⟩

end Cert.Laws

end
-- ==== Proof.LibBlockSum.lean ====
/-
  Finite sums cut into consecutive blocks, and a sum over a padded range whose padding is zero.

  A sum over `Fin (nb * bs)` is the sum, over the `nb` blocks, of the sums over each block's `bs` consecutive
  indices: block `b` holds the indices `b * bs + i`, `i < bs`. This is the re-indexing of `Fin (nb * bs)` by
  quotient and remainder, so it holds in every commutative additive monoid; no finiteness of the summands is asked
  for, which is what lets it be used on the extended reals. The instance for 8192 = 4 · 2048 is written as the left
  fold from zero that an accumulator performs — start at zero, add the block sums one after another — both as one closed
  expression and as a recurrence. Last, a sum over `Fin (a + p)` whose final `p` summands vanish is the sum over
  `Fin a`.
-/
import Mathlib.Algebra.BigOperators.Fin
import Mathlib.Logic.Equiv.Fin.Basic
import Mathlib.Data.EReal.Basic

open scoped BigOperators

namespace Cert.LibBlockSum

/-- Index `i` of block `b` lies below the total length. -/
theorem blk_lt {nb bs : ℕ} (b : Fin nb) (i : Fin bs) : b.val * bs + i.val < nb * bs :=
  calc b.val * bs + i.val < b.val * bs + bs := Nat.add_lt_add_left i.isLt _
    _ = (b.val + 1) * bs := (Nat.succ_mul _ _).symm
    _ ≤ nb * bs := Nat.mul_le_mul_right _ b.isLt

/-- A sum over `nb * bs` consecutive indices is the sum over the `nb` blocks of the sums over each block. -/
theorem sum_blocks {M : Type*} [AddCommMonoid M] (nb bs : ℕ) (f : Fin (nb * bs) → M) :
    ∑ k : Fin (nb * bs), f k = ∑ b : Fin nb, ∑ i : Fin bs, f ⟨b.val * bs + i.val, blk_lt b i⟩ := by
  rw [← Equiv.sum_comp finProdFinEquiv f, Fintype.sum_prod_type]
  refine Finset.sum_congr rfl fun b _ => Finset.sum_congr rfl fun i _ => ?_
  congr 1
  apply Fin.ext
  show i.val + bs * b.val = b.val * bs + i.val
  rw [Nat.add_comm, Nat.mul_comm]

/-- 8192 summands as four blocks of 2048, added to zero one block after another, left to right. -/
theorem sum_8192_as_4x2048 (f : Fin 8192 → EReal) :
    ∑ k : Fin 8192, f k
      = ((((0 + ∑ i : Fin 2048, f ⟨0 * 2048 + i.val, by omega⟩)
            + ∑ i : Fin 2048, f ⟨1 * 2048 + i.val, by omega⟩)
            + ∑ i : Fin 2048, f ⟨2 * 2048 + i.val, by omega⟩)
            + ∑ i : Fin 2048, f ⟨3 * 2048 + i.val, by omega⟩) := by
  have h := sum_blocks 4 2048 f
  rw [Fin.sum_univ_four] at h
  rw [zero_add]
  exact h

/-- The same as a recurrence: an accumulator that starts at zero and at step `n` (of four) adds the sum over block `n`
    ends at the whole sum. -/
theorem acc_8192_as_4x2048 (f : Fin 8192 → EReal) (acc : ℕ → EReal) (h0 : acc 0 = 0)
    (hs : ∀ (n : ℕ) (hn : n < 4), acc (n + 1) = acc n + ∑ i : Fin 2048, f ⟨n * 2048 + i.val, by omega⟩) :
    acc 4 = ∑ k : Fin 8192, f k := by
  have e1 : acc 1 = acc 0 + _ := hs 0 (by omega)
  have e2 : acc 2 = acc 1 + _ := hs 1 (by omega)
  have e3 : acc 3 = acc 2 + _ := hs 2 (by omega)
  have e4 : acc 4 = acc 3 + _ := hs 3 (by omega)
  rw [e4, e3, e2, e1, h0, sum_8192_as_4x2048 f]

/-- The same with the four block sums given as a function on `Fin 4`. -/
theorem fold_8192_as_4x2048 (f : Fin 8192 → EReal) (g : Fin 4 → EReal)
    (hg : ∀ b : Fin 4, g b = ∑ i : Fin 2048, f ⟨b.val * 2048 + i.val, by omega⟩) :
    (((0 + g 0) + g 1) + g 2) + g 3 = ∑ k : Fin 8192, f k := by
  rw [hg 0, hg 1, hg 2, hg 3, sum_8192_as_4x2048 f]
  rfl

/-- A sum whose last `p` summands are zero is the sum of the first `a`. -/
theorem sum_pad_general {M : Type*} [AddCommMonoid M] (a p : ℕ) (f : Fin (a + p) → M)
    (h : ∀ j : Fin (a + p), a ≤ j.val → f j = 0) :
    ∑ j : Fin (a + p), f j = ∑ j : Fin a, f ⟨j.val, Nat.lt_add_right p j.isLt⟩ := by
  rw [Fin.sum_univ_add, Fintype.sum_eq_zero (fun j : Fin p => f (Fin.natAdd a j)) (fun j => h _ (Nat.le_add_right a j.val)),
    add_zero]
  rfl

/-- 384 summands of which those from 345 on are zero. -/
theorem sum_pad (f : Fin 384 → EReal) (h : ∀ j : Fin 384, 345 ≤ j.val → f j = 0) :
    ∑ j : Fin 384, f j = ∑ j : Fin 345, f ⟨j.val, by omega⟩ :=
  sum_pad_general 345 39 f h

end Cert.LibBlockSum
-- ==== Proof.LawsStats.lean ====
/- The batch statistics taken block by block agree with the statistics taken over all rows at once.

   The table of block sums keeps, in row 8 b, the sum of block b's 4096 rows and zero in every other row, so the sum
   of the table's 256 rows is the sum over all 32 * 4096 = 131072 rows: this is a re-indexing, true in any commutative
   additive monoid, so it needs no finiteness.  The variance identity E[z^2] - mean^2 = E[(z - mean)^2] is an identity
   of real numbers, and is proved for real-valued columns by doing the algebra in the reals. -/
import proofs.«126462_j38199439131313_2_alg».proof.Proof.Spec
import proofs.«126462_j38199439131313_2_alg».proof.Proof.LibBlockSum
import proofs.«126462_j38199439131313_2_alg».proof.Proof.LawsCoe

open scoped BigOperators

noncomputable section

namespace Cert.Laws

open Cert.Spec Idealize.ShloMosaic

/-- The float word +0.0 denotes the extended real 0. -/
theorem cZero_eq : cZero = 0 := by
  simp [Ideal.ofBits, Ideal.ieee]

/-- The float word 0x48000000 (exponent field 144, fraction 0) denotes 2^17 = 131072. -/
theorem cB_eq : cB = ((131072 : ℝ) : EReal) := by
  simp [Ideal.ofBits, Ideal.ieee, -EReal.coe_mul]; norm_num

/-- A table row whose number is not a multiple of 8 is zero. -/
theorem blockTable_of_mod_ne (u : Mat 131072 128) (j : Fin 128) (r : Fin 256) (h : r.val % 8 ≠ 0) :
    blockTable u r j = 0 := by
  unfold blockTable
  rw [if_neg h, cZero_eq]

/-- A table row whose number is a multiple of 8 holds the sum of the block of that number divided by 8. -/
theorem blockTable_of_mod_eq (u : Mat 131072 128) (j : Fin 128) (r : Fin 256) (h : r.val % 8 = 0) :
    blockTable u r j
      = ∑ q : Fin 4096, u (blockRow ⟨r.val / 8, by have := r.isLt; omega⟩ q) j := by
  unfold blockTable
  rw [if_pos h, cZero_eq, zero_add]

/-- The 256 rows of the table of block sums add up to the sum over all 131072 rows: cut the 256 rows into 32 groups
    of 8, keep the first of each group (the others are zero), and glue the 32 blocks of 4096 rows back together. -/
theorem sum_blockTable (u : Mat 131072 128) (j : Fin 128) :
    ∑ r : Fin 256, blockTable u r j = ∑ i : Fin 131072, u i j :=
  calc ∑ r : Fin 256, blockTable u r j
      = ∑ b : Fin 32, ∑ i : Fin 8, blockTable u ⟨b.val * 8 + i.val, Cert.LibBlockSum.blk_lt b i⟩ j :=
        Cert.LibBlockSum.sum_blocks 32 8 (fun r : Fin 256 => blockTable u r j)
    _ = ∑ b : Fin 32, ∑ q : Fin 4096, u ⟨b.val * 4096 + q.val, Cert.LibBlockSum.blk_lt b q⟩ j := by
        refine Finset.sum_congr rfl fun b _ => ?_
        rw [Finset.sum_eq_single (0 : Fin 8)
          (fun i _ hi => blockTable_of_mod_ne u j _ (by
            have hi' : i.val ≠ 0 := fun h0 => hi (Fin.ext h0)
            have := i.isLt
            show (b.val * 8 + i.val) % 8 ≠ 0
            omega))
          (fun h0 => absurd (Finset.mem_univ _) h0)]
        rw [blockTable_of_mod_eq u j _ (by show (b.val * 8 + 0) % 8 = 0; omega)]
        refine Finset.sum_congr rfl fun q _ => ?_
        congr 1
        apply Fin.ext
        show 4096 * ((b.val * 8 + 0) / 8) + q.val = b.val * 4096 + q.val
        omega
    _ = ∑ i : Fin 131072, u i j :=
        (Cert.LibBlockSum.sum_blocks 32 4096 (fun i : Fin 131072 => u i j)).symm

/-- The mean from the table of block sums is the mean over all rows. -/
theorem meanBlocks_eq_mean (z : Mat 131072 128) : meanBlocks z = mean z := by
  funext j
  unfold meanBlocks mean
  rw [sum_blockTable]

/-- In the reals: the mean of the squares minus the square of the mean is the mean of the squared deviations, for any
    finite family and any nonzero N equal to the number of its members. -/
theorem real_var_identity {ι : Type*} [Fintype ι] (a : ι → ℝ) (N : ℝ) (hN : (Fintype.card ι : ℝ) = N) (hN0 : N ≠ 0) :
    (∑ i, a i * a i) * (1 / N) - ((∑ i, a i) * (1 / N)) * ((∑ i, a i) * (1 / N))
      = (∑ i, (a i - (∑ i, a i) * (1 / N)) * (a i - (∑ i, a i) * (1 / N))) * (1 / N) := by
  obtain ⟨m, hm⟩ : ∃ m : ℝ, m = (∑ i, a i) * (1 / N) := ⟨_, rfl⟩
  rw [← hm]
  have hS : ∑ i, a i = N * m := by rw [hm]; field_simp
  have hsum : ∑ i, (a i - m) * (a i - m) = (∑ i, a i * a i) - 2 * m * (∑ i, a i) + N * (m * m) := by
    have h1 : ∀ i, (a i - m) * (a i - m) = a i * a i - 2 * m * a i + m * m := fun i => by ring
    rw [Finset.sum_congr rfl (fun i _ => h1 i), Finset.sum_add_distrib, Finset.sum_sub_distrib, ← Finset.mul_sum,
      Finset.sum_const, Finset.card_univ, nsmul_eq_mul, hN]
  rw [hsum, hS]
  field_simp
  ring

/-- The variance as E[z^2] - mean^2 from the block tables is the variance as E[(z - mean)^2] over all rows, for a
    real-valued z. -/
theorem varBlocks_eq_var (z : Mat 131072 128) (hz : ∀ i j, ∃ r : ℝ, z i j = (r : EReal)) :
    varBlocks z = var z := by
  funext j
  choose a ha using hz
  have hB : (131072 : ℝ) ≠ 0 := by norm_num
  obtain ⟨m, hm⟩ : ∃ m : ℝ, m = (∑ i, a i j) * (1 / 131072) := ⟨_, rfl⟩
  have hmean : mean z j = (m : EReal) := by
    unfold mean
    rw [cZero_eq, zero_add, cB_eq, Ideal.div_coe hB, sum_coe_eq _ _ (fun i => a i j) (fun i => ha i j),
      ← EReal.coe_mul, hm]
  unfold varBlocks var
  rw [meanBlocks_eq_mean, sum_blockTable, hmean, cZero_eq, zero_add, zero_add, cB_eq, Ideal.div_coe hB,
    Ideal.div_coe hB,
    sum_coe_eq _ (fun i => z i j * z i j) (fun i => a i j * a i j) (fun i => by rw [ha, EReal.coe_mul]),
    sum_coe_eq _ (fun i => (z i j - (m : EReal)) * (z i j - (m : EReal))) (fun i => (a i j - m) * (a i j - m))
      (fun i => by rw [ha, EReal.coe_mul, EReal.coe_sub]),
    ← EReal.coe_mul, ← EReal.coe_mul, ← EReal.coe_mul, ← EReal.coe_sub, hm]
  exact congrArg _ (real_var_identity (fun i => a i j) 131072 (by simp) hB)

end Cert.Laws

end
-- ==== Proof.Laws.lean ====
/- The kernel's spelling of the result equals the reference's on real inputs: the folded pre-activation is the
   reference's pre-activation, the mean from the block tables is the mean over all rows, and the variance taken as
   E[z^2] - mean^2 from the block tables is the variance taken as E[(z - mean)^2], the pre-activation being
   real-valued.  Everything after the pre-activation and its statistics is the same function in both spellings. -/
import proofs.«126462_j38199439131313_2_alg».proof.Proof.Spec
import proofs.«126462_j38199439131313_2_alg».proof.Proof.LawsPre
import proofs.«126462_j38199439131313_2_alg».proof.Proof.LawsStats

noncomputable section

namespace Cert.Laws

open Cert.Spec

/-- On real x, h, W0 and W1 the two spellings of the result are equal. -/
theorem outBlocks_eq_out (x h : Mat 131072 128) (t : Fin 131072 → EReal) (W0 : Mat 256 128) (W1 : Mat 128 128)
    (gamma beta : Fin 128 → EReal) (Wg : Mat 128 128) (bg : Fin 128 → EReal) (Wf : Mat 128 128) (bf : Fin 128 → EReal)
    (Wh : Mat 128 128) (bh : Fin 128 → EReal) (Wt : Mat 128 128) (bt : Fin 128 → EReal)
    (hx : ∀ i k, ∃ r : ℝ, x i k = (r : EReal)) (hh : ∀ i k, ∃ r : ℝ, h i k = (r : EReal))
    (hW0 : ∀ k l, ∃ r : ℝ, W0 k l = (r : EReal)) (hW1 : ∀ l j, ∃ r : ℝ, W1 l j = (r : EReal)) :
    outBlocks x h t W0 W1 gamma beta Wg bg Wf bf Wh bh Wt bt = out x h t W0 W1 gamma beta Wg bg Wf bf Wh bh Wt bt := by
  unfold outBlocks out
  rw [preFolded_eq_pre x h W0 W1 hx hh hW0 hW1, meanBlocks_eq_mean,
    varBlocks_eq_var _ (pre_real x h W0 W1 hx hh hW0 hW1)]

end Cert.Laws

end
-- ==== Proof.Finite.lean ====
/- From the precondition "every entry of every argument array is smaller than +infinity in absolute value" to "every
   entry of x, h, W0 and W1 is a real number". -/
import proofs.«126462_j38199439131313_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The scalar shape has one index. -/
instance : Subsingleton S_.Idx := ⟨fun a b => funext fun d => d.elim0⟩

/-- The float word with all exponent bits set and no fraction bit denotes +infinity. -/
theorem ofBits_inf : Ideal.ofBits .f32 0x7F800000#32 = ⊤ := by
  simp [Ideal.ofBits, Ideal.ieee]

/-- An extended real whose absolute value is below +infinity is a real number. -/
theorem real_of_abs_lt (v : EReal)
    (h : Ideal.cmp .olt (max v (-v)) (Ideal.ofBits .f32 0x7F800000#32) = 1#1) : ∃ r : ℝ, v = (r : EReal) := by
  rw [ofBits_inf] at h
  induction v with
  | bot => simp [Ideal.cmp] at h
  | coe r => exact ⟨r, rfl⟩
  | top => simp [Ideal.cmp] at h

/-- The conjunction of two one-bit arrays is one at an index exactly when both are. -/
theorem andi_apply_eq_one {s : Shape} (x y : IVec s 1) (i : s.Idx) :
    andi x y i = 1#1 ↔ x i = 1#1 ∧ y i = 1#1 := IntOp.andi_eq_one

/-- One conjunct of the precondition: all entries of an array are below +infinity in absolute value, so all are real. -/
theorem reals_of_all {s : Shape} {axes : List (Fin s.rank)} (a : s.Idx → EReal)
    (hb : S_.BroadcastsInDim s (![] : Fin 0 → Fin s.rank)) (hr : s.ReducesTo axes S_) (hu : 0 < S_.numel)
    (e : Host.reduce IntOp.andi
        (cmpf .olt (Host.absf (F := Ideal) (φ := .f32) a) (broadcastInDim s ![] hb (constant (F := Ideal) S_ .f32 0x7F800000#32)))
        (constantI S_ 1 1#1) hr hu ValueIdx.ix0 = 1#1) :
    ∀ i, ∃ r : ℝ, a i = (r : EReal) :=
  fun i => real_of_abs_lt (a i) (Host.reduce_andi_all _ _ hr hu _ e i)

variable [Facts]

theorem reals_of_pre (a0 a1 : S131072x128.Idx → EReal) (a2 : S131072x1.Idx → EReal) (a3 : S256x128.Idx → EReal)
    (a4 : S128x128.Idx → EReal) (a5 a6 : S128.Idx → EReal) (a7 : S128x128.Idx → EReal) (a8 : S128.Idx → EReal)
    (a9 : S128x128.Idx → EReal) (a10 : S128.Idx → EReal) (a11 : S128x128.Idx → EReal) (a12 : S128.Idx → EReal)
    (a13 : S128x128.Idx → EReal) (a14 : S128.Idx → EReal)
    (h : fn (F := Ideal) a0 a1 a2 a3 a4 a5 a6 a7 a8 a9 a10 a11 a12 a13 a14 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) := by
  have h0 := congrFun h ValueIdx.ix0
  dsimp only [fn, fn_part1, fn_part2, fn_part3, fn_part4] at h0
  simp only [andi_apply_eq_one] at h0
  obtain ⟨⟨⟨⟨⟨⟨⟨⟨⟨⟨⟨⟨⟨⟨e0, e1⟩, -⟩, e3⟩, e4⟩, -⟩, -⟩, -⟩, -⟩, -⟩, -⟩, -⟩, -⟩, -⟩, -⟩ := h0
  exact ⟨reals_of_all a0 _ _ _ e0, reals_of_all a1 _ _ _ e1, reals_of_all a3 _ _ _ e3, reals_of_all a4 _ _ _ e4⟩

end Cert.Finite

end
-- ==== Proof.lean ====
/- The proof of `Cert.Claim`: a two-pass batch-normalised gated network as a Pallas program against its jnp reference.

   The kernel program folds the two backbone weight matrices on the host, computes the pre-activations
   z = x (W0[0:128] W1) + h (W0[128:256] W1) block by block in a first pallas_call that also leaves each block's column sums
   of z and of z^2 in a 256-row table, lets the host turn the tables into the batch mean and 1/sqrt(E[z^2] - mean^2 + eps),
   and in a second pallas_call normalises, rectifies, multiplies by the four head matrices joined side by side, and
   gates.  The reference computes z = ([x, h] W0) W1, the mean and the variance as mean((z - mean)^2), four separate head
   products, and the same gate.  On real inputs the two are one function: matrix products associate and distribute over
   the split of the joined input, the block sums add up to the column sums, and E[z^2] - mean^2 is the mean of the squared
   deviations (Laws.lean); every other step is spelt the same on both sides.

   Frames: each kernel program is a chain of host operations, a pallas_call, host operations, a pallas_call, each pallas_call a
   pipeline whose body reads whole input blocks and stores whole output blocks (KRun.lean for the word-level program,
   KIRun.lean for the idealized one); the reference's frame is its run with the result dropped.  The idealization
   rewrote nothing, so `preserves` is `True`.  Algebraic: the idealized kernel's run names its result array
   (KIRun.lean), which entry by entry is the block-table spelling `Spec.outBlocks` of the launch arrays (KIValue.lean);
   the reference's run gives `Spec.out` (RefPre.lean); the precondition makes x, h, W0, W1 real (Finite.lean), and
   then the spellings agree. -/
import proofs.«126462_j38199439131313_2_alg».proof.Defs
import proofs.«126462_j38199439131313_2_alg».proof.Proof.Gen.Kernel
import proofs.«126462_j38199439131313_2_alg».proof.Proof.Gen.KernelIdeal
import proofs.«126462_j38199439131313_2_alg».proof.Proof.Gen.ReferenceIdeal
import proofs.«126462_j38199439131313_2_alg».proof.Proof.Gen.Pre_finite_inputs
import proofs.«126462_j38199439131313_2_alg».proof.Proof.Gen.ReferenceIdeal.Run
import proofs.«126462_j38199439131313_2_alg».proof.Proof.Gen.ReferenceIdeal.Read
import proofs.«126462_j38199439131313_2_alg».proof.Proof.KRun
import proofs.«126462_j38199439131313_2_alg».proof.Proof.KIValue
import proofs.«126462_j38199439131313_2_alg».proof.Proof.RefPre
import proofs.«126462_j38199439131313_2_alg».proof.Proof.Laws
import proofs.«126462_j38199439131313_2_alg».proof.Proof.Finite
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_k : Cert.frame_Kernel := fun m ρ _ => Cert.Kernel.Frm.frame m ρ

/-- So does the idealized one. -/
theorem frame_ki : Cert.frame_KernelIdeal := fun m ρ _ => Cert.KernelIdeal.Frm.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the same result array: the kernel's is the
    block-table spelling of the launch arrays, the reference's the direct one, and on the real inputs the precondition
    grants they are equal. -/
theorem algebraic : Cert.algebraic_KernelIdeal_ReferenceIdeal := by
  intro m ρ m' ρ' hpre hagree
  refine ⟨fun c => fun i => Cert.Spec.outBlocks
        (Cert.Spec.mat (m ((c.tc : Thread Cert.KernelIdeal.nD Cert.KernelIdeal.τ).loc Cert.KernelIdeal.main_arg0) : Cert.KernelIdeal.S131072x128.Idx → EReal))
        (Cert.Spec.mat (m ((c.tc : Thread Cert.KernelIdeal.nD Cert.KernelIdeal.τ).loc Cert.KernelIdeal.main_arg1) : Cert.KernelIdeal.S131072x128.Idx → EReal))
        (Cert.Spec.col (m ((c.tc : Thread Cert.KernelIdeal.nD Cert.KernelIdeal.τ).loc Cert.KernelIdeal.main_arg2) : Cert.KernelIdeal.S131072x1.Idx → EReal))
        (Cert.Spec.mat (m ((c.tc : Thread Cert.KernelIdeal.nD Cert.KernelIdeal.τ).loc Cert.KernelIdeal.main_arg3) : Cert.KernelIdeal.S256x128.Idx → EReal))
        (Cert.Spec.mat (m ((c.tc : Thread Cert.KernelIdeal.nD Cert.KernelIdeal.τ).loc Cert.KernelIdeal.main_arg4) : Cert.KernelIdeal.S128x128.Idx → EReal))
        (Cert.Spec.vec (m ((c.tc : Thread Cert.KernelIdeal.nD Cert.KernelIdeal.τ).loc Cert.KernelIdeal.main_arg5) : Cert.KernelIdeal.S128.Idx → EReal))
        (Cert.Spec.vec (m ((c.tc : Thread Cert.KernelIdeal.nD Cert.KernelIdeal.τ).loc Cert.KernelIdeal.main_arg6) : Cert.KernelIdeal.S128.Idx → EReal))
        (Cert.Spec.mat (m ((c.tc : Thread Cert.KernelIdeal.nD Cert.KernelIdeal.τ).loc Cert.KernelIdeal.main_arg7) : Cert.KernelIdeal.S128x128.Idx → EReal))
        (Cert.Spec.vec (m ((c.tc : Thread Cert.KernelIdeal.nD Cert.KernelIdeal.τ).loc Cert.KernelIdeal.main_arg8) : Cert.KernelIdeal.S128.Idx → EReal))
        (Cert.Spec.mat (m ((c.tc : Thread Cert.KernelIdeal.nD Cert.KernelIdeal.τ).loc Cert.KernelIdeal.main_arg9) : Cert.KernelIdeal.S128x128.Idx → EReal))
        (Cert.Spec.vec (m ((c.tc : Thread Cert.KernelIdeal.nD Cert.KernelIdeal.τ).loc Cert.KernelIdeal.main_arg10) : Cert.KernelIdeal.S128.Idx → EReal))
        (Cert.Spec.mat (m ((c.tc : Thread Cert.KernelIdeal.nD Cert.KernelIdeal.τ).loc Cert.KernelIdeal.main_arg11) : Cert.KernelIdeal.S128x128.Idx → EReal))
        (Cert.Spec.vec (m ((c.tc : Thread Cert.KernelIdeal.nD Cert.KernelIdeal.τ).loc Cert.KernelIdeal.main_arg12) : Cert.KernelIdeal.S128.Idx → EReal))
        (Cert.Spec.mat (m ((c.tc : Thread Cert.KernelIdeal.nD Cert.KernelIdeal.τ).loc Cert.KernelIdeal.main_arg13) : Cert.KernelIdeal.S128x128.Idx → EReal))
        (Cert.Spec.vec (m ((c.tc : Thread Cert.KernelIdeal.nD Cert.KernelIdeal.τ).loc Cert.KernelIdeal.main_arg14) : Cert.KernelIdeal.S128.Idx → EReal)) (i 0) (i 1), ?_, ?_⟩
  · exact (θ_run Cert.KernelIdeal.defs _ _).mono
      (fun r h c => ⟨(h c).1.trans (Cert.KernelIdeal.Frm.value_eq m ρ c), (h c).2⟩) (Cert.KernelIdeal.Frm.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v64_eq, Cert.ReferenceIdeal.RefValue.ref_eq]
    obtain ⟨e0, e1, e2, e3, e4, e5, e6, e7, e8, e9, e10, e11, e12, e13, e14⟩ := hagree c
    rw [e0, e1, e2, e3, e4, e5, e6, e7, e8, e9, e10, e11, e12, e13, e14]
    obtain ⟨hx, hh, hW0, hW1⟩ := Cert.Finite.reals_of_pre _ _ _ _ _ _ _ _ _ _ _ _ _ _ _ (hpre c)
    funext i
    exact (congrFun (congrFun (Cert.Laws.outBlocks_eq_out _ _ _ _ _ _ _ _ _ _ _ _ _ _ _
      (fun p k => hx (ValueIdx.ix2 p k)) (fun p k => hh (ValueIdx.ix2 p k))
      (fun p k => hW0 (ValueIdx.ix2 p k)) (fun p k => hW1 (ValueIdx.ix2 p k))) (i 0)) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
